-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1250000 : Shape := ⟨2, ![2, 1250000]⟩
abbrev S1250000 : Shape := ⟨1, ![1250000]⟩
abbrev S50000x64 : Shape := ⟨2, ![50000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg11 : FVec F S64x2 .f32) (main_arg12 : FVec F S2 .f32) (main_v33 : IVec S_ 1) : IVec S_ 1 :=
  let main_v34 : FVec F S64x2 .f32 := Host.absf main_arg11
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg12
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg8 : FVec F S3x64x64 .f32) (main_arg9 : FVec F S64x64 .f32) (main_arg10 : FVec F S64 .f32) (main_arg11 : FVec F S64x2 .f32) (main_arg12 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg8
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_v33

def fn {F : FTy → Type} [FloatOps F] (main_arg0 : IVec S50000 32) (main_arg1 : IVec S2x1250000 32) (main_arg2 : IVec S1250000 32) (main_arg3 : IVec S50000 32) (main_arg4 : FVec F S50000x64 .f32) (main_arg5 : FVec F S3x64x64 .f32) (main_arg6 : FVec F S64x64 .f32) (main_arg7 : FVec F S64 .f32) (main_arg8 : FVec F S3x64x64 .f32) (main_arg9 : FVec F S64x64 .f32) (main_arg10 : FVec F S64 .f32) (main_arg11 : FVec F S64x2 .f32) (main_arg12 : FVec F S2 .f32) : IVec S_ 1 :=
  let main_v0 : FVec F S50000x64 .f32 := Host.absf main_arg4
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg5
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_v13 main_v16
-- ==== Kernel.lean ====
abbrev S50000 : Shape := ⟨1, ![50000]⟩
abbrev S2x1250000 : Shape := ⟨2, ![2, 1250000]⟩
abbrev S1250000 : Shape := ⟨1, ![1250000]⟩
abbrev S50000x64 : Shape := ⟨2, ![50000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1250000 : Shape := ⟨2, ![1, 1250000]⟩
abbrev S_ : Shape := ⟨0, ![]⟩
abbrev S1 : Shape := ⟨1, ![1]⟩
abbrev S50000x1 : Shape := ⟨2, ![50000, 1]⟩
abbrev S1250000x1 : Shape := ⟨2, ![1250000, 1]⟩
abbrev S1x3 : Shape := ⟨2, ![1, 3]⟩
abbrev S1250000x3 : Shape := ⟨2, ![1250000, 3]⟩
abbrev S50000x3 : Shape := ⟨2, ![50000, 3]⟩
abbrev S1x64 : Shape := ⟨2, ![1, 64]⟩
abbrev S1250000x64 : Shape := ⟨2, ![1250000, 64]⟩
abbrev S10000x64 : Shape := ⟨2, ![10000, 64]⟩
abbrev S10000x3 : Shape := ⟨2, ![10000, 3]⟩
abbrev S1x64x64 : Shape := ⟨3, ![1, 64, 64]⟩
abbrev S10000x1 : Shape := ⟨2, ![10000, 1]⟩
abbrev S512x64 : Shape := ⟨2, ![512, 64]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 112
  | .vmem => 30
  | .smem => 0
  | _ => 0

abbrev bufTy : (tb : Table) → Fin (tcTables nBuf tb) → BufTy
  | .hbm, ⟨0, _⟩ => ⟨S50000, .i32⟩
  | .hbm, ⟨1, _⟩ => ⟨S2x1250000, .i32⟩
  | .hbm, ⟨2, _⟩ => ⟨S1250000, .i32⟩
  | .hbm, ⟨3, _⟩ => ⟨S50000, .i32⟩
  | .hbm, ⟨4, _⟩ => ⟨S50000x64, .f32⟩
  | .hbm, ⟨5, _⟩ => ⟨S3x64x64, .f32⟩
  | .hbm, ⟨6, _⟩ => ⟨S64x64, .f32⟩
  | .hbm, ⟨7, _⟩ => ⟨S64, .f32⟩
  | .hbm, ⟨8, _⟩ => ⟨S3x64x64, .f32⟩
  | .hbm, ⟨9, _⟩ => ⟨S64x64, .f32⟩
  | .hbm, ⟨10, _⟩ => ⟨S64, .f32⟩
  | .hbm, ⟨11, _⟩ => ⟨S64x2, .f32⟩
  | .hbm, ⟨12, _⟩ => ⟨S2, .f32⟩
  | .hbm, ⟨13, _⟩ => ⟨S1x1250000, .i32⟩
  | .hbm, ⟨14, _⟩ => ⟨S1250000, .i32⟩
  | .hbm, ⟨15, _⟩ => ⟨S1x1250000, .i32⟩
  | .hbm, ⟨16, _⟩ => ⟨S1250000, .i32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S64, .f32⟩
  | .hbm, ⟨21, _⟩ => ⟨S50000x64, .f32⟩
  | .hbm, ⟨22, _⟩ => ⟨S50000x64, .bf16⟩
  | .hbm, ⟨23, _⟩ => ⟨S_, .i32⟩
  | .hbm, ⟨24, _⟩ => ⟨S50000, .i32⟩
  | .hbm, ⟨25, _⟩ => ⟨S50000, .i1⟩
  | .hbm, ⟨26, _⟩ => ⟨S_, .i32⟩
  | .hbm, ⟨27, _⟩ => ⟨S50000, .i32⟩
  | .hbm, ⟨28, _⟩ => ⟨S50000, .i32⟩
  | .hbm, ⟨29, _⟩ => ⟨S50000, .i32⟩
  | .hbm, ⟨30, _⟩ => ⟨S50000x1, .i32⟩
  | .hbm, ⟨31, _⟩ => ⟨S50000x64, .bf16⟩
  | .hbm, ⟨32, _⟩ => ⟨S1250000x1, .i32⟩
  | .hbm, ⟨33, _⟩ => ⟨S1x3, .i32⟩
  | .hbm, ⟨34, _⟩ => ⟨S1250000x3, .i32⟩
  | .hbm, ⟨35, _⟩ => ⟨S1250000x3, .i32⟩
  | .hbm, ⟨36, _⟩ => ⟨S1250000x3, .i1⟩
  | .hbm, ⟨37, _⟩ => ⟨S1250000x3, .f32⟩
  | .hbm, ⟨38, _⟩ => ⟨S_, .f32⟩
  | .hbm, ⟨39, _⟩ => ⟨S50000x3, .f32⟩
  | .hbm, ⟨40, _⟩ => ⟨S1250000x1, .i32⟩
  | .hbm, ⟨41, _⟩ => ⟨S50000x3, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x3, .f32⟩
  | .hbm, ⟨51, _⟩ => ⟨S_, .f32⟩
  | .hbm, ⟨52, _⟩ => ⟨S1250000x3, .f32⟩
  | .hbm, ⟨53, _⟩ => ⟨S1250000x3, .f32⟩
  | .hbm, ⟨54, _⟩ => ⟨S1250000x3, .f32⟩
  | .hbm, ⟨55, _⟩ => ⟨S3x64x64, .bf16⟩
  | .hbm, ⟨56, _⟩ => ⟨S64x64, .bf16⟩
  | .hbm, ⟨57, _⟩ => ⟨S1x64, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000x64, .bf16⟩
  | .hbm, ⟨67, _⟩ => ⟨S1250000x64, .f32⟩
  | .hbm, ⟨68, _⟩ => ⟨S_, .f32⟩
  | .hbm, ⟨69, _⟩ => ⟨S50000x64, .f32⟩
  | .hbm, ⟨70, _⟩ => ⟨S1250000x1, .i32⟩
  | .hbm, ⟨71, _⟩ => ⟨S50000x64, .f32⟩
  | .hbm, ⟨72, _⟩ => ⟨S50000x64, .bf16⟩
  | .hbm, ⟨73, _⟩ => ⟨S3x64x64, .bf16⟩
  | .hbm, ⟨74, _⟩ => ⟨S64x64, .bf16⟩
  | .hbm, ⟨75, _⟩ => ⟨S1x64, .f32⟩
  | .hbm, ⟨76, _⟩ => ⟨S_, .i32⟩
  | .hbm, ⟨77, _⟩ => ⟨S1250000, .i32⟩
  | .hbm, ⟨78, _⟩ => ⟨S1250000, .i1⟩
  | .hbm, ⟨79, _⟩ => ⟨S_, .i32⟩
  | .hbm, ⟨80, _⟩ => ⟨S1250000, .i32⟩
  | .hbm, ⟨81, _⟩ => ⟨S1250000, .i32⟩
  | .hbm, ⟨82, _⟩ => ⟨S1250000, .i32⟩
  | .hbm, ⟨83, _⟩ => ⟨S1250000x1, .i32⟩
  | .hbm, ⟨84, _⟩ => ⟨S1250000x64, .bf16⟩
  | .hbm, ⟨85, _⟩ => ⟨S1250000x64, .f32⟩
  | .hbm, ⟨86, _⟩ => ⟨S_, .f32⟩
  | .hbm, ⟨87, _⟩ => ⟨S50000x64, .f32⟩
  | .hbm, ⟨88, _⟩ => ⟨S1250000x1, .i32⟩
  | .hbm, ⟨89, _⟩ => ⟨S50000x64, .f32⟩
  | .hbm, ⟨90, _⟩ => ⟨S50000x64, .bf16⟩
  | .hbm, ⟨91, _⟩ => ⟨S50000x64, .f32⟩
  | .hbm, ⟨92, _⟩ => ⟨S_, .f32⟩
  | .hbm, ⟨93, _⟩ => ⟨S512x64, .f32⟩
  | .hbm, ⟨94, _⟩ => ⟨S50000x1, .i32⟩
  | .hbm, ⟨95, _⟩ => ⟨S512x64, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S512, .f32⟩
  | .hbm, ⟨100, _⟩ => ⟨S50000x1, .i32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512x1, .f32⟩
  | .hbm, ⟨106, _⟩ => ⟨S512x64, .f32⟩
  | .hbm, ⟨107, _⟩ => ⟨S512x64, .f32⟩
  | .hbm, ⟨108, _⟩ => ⟨S512x2, .f32⟩
  | .hbm, ⟨109, _⟩ => ⟨S1x2, .f32⟩
  | .hbm, ⟨110, _⟩ => ⟨S512x2, .f32⟩
  | .hbm, ⟨111, _⟩ => ⟨S512x2, .f32⟩
  | .local _ .vmem, ⟨0, _⟩ => ⟨S10000x64, .bf16⟩
  | .local _ .vmem, ⟨1, _⟩ => ⟨S10000x64, .bf16⟩
  | .local _ .vmem, ⟨2, _⟩ => ⟨S10000x3, .f32⟩
  | .local _ .vmem, ⟨3, _⟩ => ⟨S10000x3, .f32⟩
  | .local _ .vmem, ⟨4, _⟩ => ⟨S3x64x64, .bf16⟩
  | .local _ .vmem, ⟨5, _⟩ => ⟨S10000x64, .f32⟩
  | .local _ .vmem, ⟨6, _⟩ => ⟨S10000x64, .f32⟩
  | .local _ .vmem, ⟨7, _⟩ => ⟨S10000x64, .bf16⟩
  | .local _ .vmem, ⟨8, _⟩ => ⟨S10000x64, .bf16⟩
  | .local _ .vmem, ⟨9, _⟩ => ⟨S64x64, .bf16⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .bf16⟩
  | .local _ .vmem, ⟨14, _⟩ => ⟨S10000x64, .bf16⟩
  | .local _ .vmem, ⟨15, _⟩ => ⟨S10000x64, .bf16⟩
  | .local _ .vmem, ⟨16, _⟩ => ⟨S10000x64, .bf16⟩
  | .local _ .vmem, ⟨17, _⟩ => ⟨S10000x3, .f32⟩
  | .local _ .vmem, ⟨18, _⟩ => ⟨S10000x3, .f32⟩
  | .local _ .vmem, ⟨19, _⟩ => ⟨S3x64x64, .bf16⟩
  | .local _ .vmem, ⟨20, _⟩ => ⟨S10000x64, .f32⟩
  | .local _ .vmem, ⟨21, _⟩ => ⟨S10000x64, .f32⟩
  | .local _ .vmem, ⟨22, _⟩ => ⟨S10000x64, .bf16⟩
  | .local _ .vmem, ⟨23, _⟩ => ⟨S10000x64, .bf16⟩
  | .local _ .vmem, ⟨24, _⟩ => ⟨S64x64, .bf16⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .bf16⟩
  | .local _ .vmem, ⟨29, _⟩ => ⟨S10000x64, .bf16⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1 : S_.BroadcastsInDim S1 (![] : Fin 0 → Fin S1.rank)
  bcast_S_S64 : S_.BroadcastsInDim S64 (![] : Fin 0 → Fin S64.rank)
  bitsLt_bf16_f32 : FTy.bits .bf16 < FTy.bits .f32
  bcast_S_S50000 : S_.BroadcastsInDim S50000 (![] : Fin 0 → Fin S50000.rank)
  bcast_S50000_S50000x1_0 : S50000.BroadcastsInDim S50000x1 (![0] : Fin 1 → Fin S50000x1.rank)
  bcast_S1250000_S1250000x1_0 : S1250000.BroadcastsInDim S1250000x1 (![0] : Fin 1 → Fin S1250000x1.rank)
  bcast_S1250000x1_S1250000x3_0_1 : S1250000x1.BroadcastsInDim S1250000x3 (![0, 1] : Fin 2 → Fin S1250000x3.rank)
  bcast_S1x3_S1250000x3_0_1 : S1x3.BroadcastsInDim S1250000x3 (![0, 1] : Fin 2 → Fin S1250000x3.rank)
  bcast_S_S50000x3 : S_.BroadcastsInDim S50000x3 (![] : Fin 0 → Fin S50000x3.rank)
  bcast_S_S1250000 : S_.BroadcastsInDim S1250000 (![] : Fin 0 → Fin S1250000.rank)
  bcast_S_S1250000x3 : S_.BroadcastsInDim S1250000x3 (![] : Fin 0 → Fin S1250000x3.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  slices_S10000x3_o0_0_S10000x1 : S10000x3.Slices ![0, 0] S10000x1
  broadcasts_S10000x1_S10000x64 : S10000x1.Broadcasts S10000x64
  inb_S3x64x64_S1x64x64_1_0_0 : ∀ a, (![1, 0, 0] : Fin 3 → Nat) a + S1x64x64.size a ≤ S3x64x64.size a
  slices_S10000x3_o0_1_S10000x1 : S10000x3.Slices ![0, 1] S10000x1
  inb_S3x64x64_S1x64x64_2_0_0 : ∀ a, (![2, 0, 0] : Fin 3 → Nat) a + S1x64x64.size a ≤ S3x64x64.size a
  slices_S10000x3_o0_2_S10000x1 : S10000x3.Slices ![0, 2] S10000x1
  bcast_S_S50000x64 : S_.BroadcastsInDim S50000x64 (![] : Fin 0 → Fin S50000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000x64_S1_S64_0_0_0_0_wf : ScatterDims.WF S50000x64 S1 S64 [0] [0] [0] 0
  gather_S50000x64_S50000x1_S50000x64_1_0_n_n_0_1_164_wf : GatherDims.WF S50000x64 S50000x1 S50000x64 [1] [0] [] [0] [] 1 ![1, 64]
  scatter_S50000x3_S1250000x1_S1250000x3_1_0_0_1_wf : ScatterDims.WF S50000x3 S1250000x1 S1250000x3 [1] [0] [0] 1
  gather_S50000x3_S1250000x1_S1250000x3_1_0_n_n_0_1_13_wf : GatherDims.WF S50000x3 S1250000x1 S1250000x3 [1] [0] [] [0] [] 1 ![1, 3]
  gather_S50000x64_S1250000x1_S1250000x64_1_0_n_n_0_1_164_wf : GatherDims.WF S50000x64 S1250000x1 S1250000x64 [1] [0] [] [0] [] 1 ![1, 64]
  dot_S10000x64_S64x64_S10000x64_1_0_0_1_n_n_wf : DotDims.WF S10000x64 S64x64 S10000x64 [1] [0] [0] [1] [] []
  scatter_S50000x64_S1250000x1_S1250000x64_1_0_0_1_wf : ScatterDims.WF S50000x64 S1250000x1 S1250000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .bf16 = 32 ∨ (Rect.block (s := S1250000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S1250000x3.size a
  hwx0_1 : ∀ i : grid0.Coords, EltTy.bits .f32 = 32 ∨ (Rect.block (s := S1250000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .bf16 = 32 ∨ (Rect.block (s := S3x64x64) S3x64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S1250000x64.size a
  hwx0_3 : ∀ i : grid0.Coords, EltTy.bits .f32 = 32 ∨ (Rect.block (s := S1250000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .bf16 = 32 ∨ (Rect.block (s := S50000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .bf16 = 32 ∨ (Rect.block (s := S1250000x64) S10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x3.size a ≤ S1250000x3.size a
  hwx2_1 : ∀ i : grid2.Coords, EltTy.bits .f32 = 32 ∨ (Rect.block (s := S1250000x3) S10000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64x64.size a ≤ S3x64x64.size a
  hwx2_2 : ∀ i : grid2.Coords, EltTy.bits .bf16 = 32 ∨ (Rect.block (s := S3x64x64) S3x64x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S1250000x64.size a
  hwx2_3 : ∀ i : grid2.Coords, EltTy.bits .f32 = 32 ∨ (Rect.block (s := S1250000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .bf16 = 32 ∨ (Rect.block (s := S50000x64) S10000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .bf16 = 32 ∨ (Rect.block (s := S50000x64) S10000x64.size (cc3_transform_4 i) (hinb3_4 i)).WholeWords (EltTy.packing .bf16)

variable [Facts₀]

def scatter_S50000x64_S1_S64_0_0_0_0 : ScatterDims S50000x64 S1 S64 where
  updateWindowDims := [0]
  insertedWindowDims := [0]
  scatterDimsToOperandDims := [0]
  indexVectorDim := 0
  wf := scatter_S50000x64_S1_S64_0_0_0_0_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000x3_S1250000x1_S1250000x3_1_0_0_1 : ScatterDims S50000x3 S1250000x1 S1250000x3 where
  updateWindowDims := [1]
  insertedWindowDims := [0]
  scatterDimsToOperandDims := [0]
  indexVectorDim := 1
  wf := scatter_S50000x3_S1250000x1_S1250000x3_1_0_0_1_wf
def gather_S50000x3_S1250000x1_S1250000x3_1_0_n_n_0_1_13 : GatherDims S50000x3 S1250000x1 S1250000x3 where
  offsetDims := [1]
  collapsedSliceDims := [0]
  operandBatchingDims := []
  startIndicesBatchingDims := []
  startIndexMap := [0]
  indexVectorDim := 1
  sliceSizes := ![1, 3]
  wf := gather_S50000x3_S1250000x1_S1250000x3_1_0_n_n_0_1_13_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_v38) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S10000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000 : Shape := ⟨1, ![50000]⟩
abbrev S2x1250000 : Shape := ⟨2, ![2, 1250000]⟩
abbrev S1250000 : Shape := ⟨1, ![1250000]⟩
abbrev S50000x64 : Shape := ⟨2, ![50000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1250000 : Shape := ⟨2, ![1, 1250000]⟩
abbrev S_ : Shape := ⟨0, ![]⟩
abbrev S1 : Shape := ⟨1, ![1]⟩
abbrev S50000x1 : Shape := ⟨2, ![50000, 1]⟩
abbrev S1x64 : Shape := ⟨2, ![1, 64]⟩
abbrev S1250000x1 : Shape := ⟨2, ![1250000, 1]⟩
abbrev S1250000x64 : Shape := ⟨2, ![1250000, 64]⟩
abbrev S1x64x64 : Shape := ⟨3, ![1, 64, 64]⟩
abbrev S512x64 : Shape := ⟨2, ![512, 64]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 233
  | .vmem => 0
  | .smem => 0
  | _ => 0

abbrev hbmTy0_0 (i : Nat) : BufTy := match i % 128 with
  | 0 => ⟨S50000, .i32⟩
  | 1 => ⟨S2x1250000, .i32⟩
  | 2 => ⟨S1250000, .i32⟩
  | 3 => ⟨S50000, .i32⟩
  | 4 => ⟨S50000x64, .f32⟩
  | 5 => ⟨S3x64x64, .f32⟩
  | 6 => ⟨S64x64, .f32⟩
  | 7 => ⟨S64, .f32⟩
  | 8 => ⟨S3x64x64, .f32⟩
  | 9 => ⟨S64x64, .f32⟩
  | 10 => ⟨S64, .f32⟩
  | 11 => ⟨S64x2, .f32⟩
  | 12 => ⟨S2, .f32⟩
  | 13 => ⟨S1x1250000, .i32⟩
  | 14 => ⟨S1250000, .i32⟩
  | 15 => ⟨S1x1250000, .i32⟩
  | 16 => ⟨S1250000, .i32⟩
  | 17 => ⟨S_, .i32⟩
  | 18 => ⟨S1, .i32⟩
  | 19 => ⟨S_, .f32⟩
  | 20 => ⟨S64, .f32⟩
  | 21 => ⟨S50000x64, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000x64, .f32⟩
  | 44 => ⟨S_, .i32⟩
  | 45 => ⟨S1250000, .i32⟩
  | 46 => ⟨S1250000, .i1⟩
  | 47 => ⟨S1250000, .f32⟩
  | 48 => ⟨S1x64x64, .f32⟩
  | 49 => ⟨S64x64, .f32⟩
  | 50 => ⟨S1250000x64, .f32⟩
  | 51 => ⟨S1250000x1, .f32⟩
  | 52 => ⟨S1250000x64, .f32⟩
  | 53 => ⟨S1250000x64, .f32⟩
  | 54 => ⟨S_, .f32⟩
  | 55 => ⟨S50000x64, .f32⟩
  | 56 => ⟨S1250000x1, .i32⟩
  | 57 => ⟨S50000x64, .f32⟩
  | 58 => ⟨S_, .f32⟩
  | 59 => ⟨S50000, .f32⟩
  | 60 => ⟨S1250000x1, .i32⟩
  | 61 => ⟨S50000, .f32⟩
  | 62 => ⟨S_, .f32⟩
  | 63 => ⟨S50000, .f32⟩
  | 64 => ⟨S50000, .f32⟩
  | 65 => ⟨S50000x1, .f32⟩
  | 66 => ⟨S50000x64, .f32⟩
  | 67 => ⟨S50000x64, .f32⟩
  | 68 => ⟨S50000x64, .f32⟩
  | 69 => ⟨S_, .i32⟩
  | 70 => ⟨S1250000, .i32⟩
  | 71 => ⟨S1250000, .i1⟩
  | 72 => ⟨S1250000, .f32⟩
  | 73 => ⟨S1x64x64, .f32⟩
  | 74 => ⟨S64x64, .f32⟩
  | 75 => ⟨S1250000x64, .f32⟩
  | 76 => ⟨S1250000x1, .f32⟩
  | 77 => ⟨S1250000x64, .f32⟩
  | 78 => ⟨S1250000x64, .f32⟩
  | 79 => ⟨S_, .f32⟩
  | 80 => ⟨S50000x64, .f32⟩
  | 81 => ⟨S1250000x1, .i32⟩
  | 82 => ⟨S50000x64, .f32⟩
  | 83 => ⟨S_, .f32⟩
  | 84 => ⟨S50000, .f32⟩
  | 85 => ⟨S1250000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x64, .f32⟩
  | 92 => ⟨S50000x64, .f32⟩
  | 93 => ⟨S50000x64, .f32⟩
  | 94 => ⟨S_, .i32⟩
  | 95 => ⟨S1250000, .i32⟩
  | 96 => ⟨S1250000, .i1⟩
  | 97 => ⟨S1250000, .f32⟩
  | 98 => ⟨S1x64x64, .f32⟩
  | 99 => ⟨S64x64, .f32⟩
  | 100 => ⟨S1250000x64, .f32⟩
  | 101 => ⟨S1250000x1, .f32⟩
  | 102 => ⟨S1250000x64, .f32⟩
  | 103 => ⟨S1250000x64, .f32⟩
  | 104 => ⟨S_, .f32⟩
  | 105 => ⟨S50000x64, .f32⟩
  | 106 => ⟨S1250000x1, .i32⟩
  | 107 => ⟨S50000x64, .f32⟩
  | 108 => ⟨S_, .f32⟩
  | 109 => ⟨S50000, .f32⟩
  | 110 => ⟨S1250000x1, .i32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .i32⟩
  | 127 => ⟨S1250000, .i32⟩
  | _ => ⟨S50000, .i32⟩

abbrev hbmTy0_1 (i : Nat) : BufTy := match i % 128 with
  | 0 => ⟨S1250000, .i1⟩
  | 1 => ⟨S_, .i32⟩
  | 2 => ⟨S1250000, .i32⟩
  | 3 => ⟨S1250000, .i32⟩
  | 4 => ⟨S1250000, .i32⟩
  | 5 => ⟨S1250000x1, .i32⟩
  | 6 => ⟨S1250000x64, .f32⟩
  | 7 => ⟨S_, .i32⟩
  | 8 => ⟨S1250000, .i32⟩
  | 9 => ⟨S1250000, .i1⟩
  | 10 => ⟨S1250000, .f32⟩
  | 11 => ⟨S1x64x64, .f32⟩
  | 12 => ⟨S64x64, .f32⟩
  | 13 => ⟨S1250000x64, .f32⟩
  | 14 => ⟨S1250000x1, .f32⟩
  | 15 => ⟨S1250000x64, .f32⟩
  | 16 => ⟨S1250000x64, .f32⟩
  | 17 => ⟨S_, .f32⟩
  | 18 => ⟨S50000x64, .f32⟩
  | 19 => ⟨S1250000x1, .i32⟩
  | 20 => ⟨S50000x64, .f32⟩
  | 21 => ⟨S_, .f32⟩
  | 22 => ⟨S50000, .f32⟩
  | 23 => ⟨S1250000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x64, .f32⟩
  | 30 => ⟨S50000x64, .f32⟩
  | 31 => ⟨S50000x64, .f32⟩
  | 32 => ⟨S_, .i32⟩
  | 33 => ⟨S1250000, .i32⟩
  | 34 => ⟨S1250000, .i1⟩
  | 35 => ⟨S1250000, .f32⟩
  | 36 => ⟨S1x64x64, .f32⟩
  | 37 => ⟨S64x64, .f32⟩
  | 38 => ⟨S1250000x64, .f32⟩
  | 39 => ⟨S1250000x1, .f32⟩
  | 40 => ⟨S1250000x64, .f32⟩
  | 41 => ⟨S1250000x64, .f32⟩
  | 42 => ⟨S_, .f32⟩
  | 43 => ⟨S50000x64, .f32⟩
  | 44 => ⟨S1250000x1, .i32⟩
  | 45 => ⟨S50000x64, .f32⟩
  | 46 => ⟨S_, .f32⟩
  | 47 => ⟨S50000, .f32⟩
  | 48 => ⟨S1250000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x64, .f32⟩
  | 55 => ⟨S50000x64, .f32⟩
  | 56 => ⟨S50000x64, .f32⟩
  | 57 => ⟨S_, .i32⟩
  | 58 => ⟨S1250000, .i32⟩
  | 59 => ⟨S1250000, .i1⟩
  | 60 => ⟨S1250000, .f32⟩
  | 61 => ⟨S1x64x64, .f32⟩
  | 62 => ⟨S64x64, .f32⟩
  | 63 => ⟨S1250000x64, .f32⟩
  | 64 => ⟨S1250000x1, .f32⟩
  | 65 => ⟨S1250000x64, .f32⟩
  | 66 => ⟨S1250000x64, .f32⟩
  | 67 => ⟨S_, .f32⟩
  | 68 => ⟨S50000x64, .f32⟩
  | 69 => ⟨S1250000x1, .i32⟩
  | 70 => ⟨S50000x64, .f32⟩
  | 71 => ⟨S_, .f32⟩
  | 72 => ⟨S50000, .f32⟩
  | 73 => ⟨S1250000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .f32⟩
  | 86 => ⟨S512x64, .f32⟩
  | 87 => ⟨S50000x1, .i32⟩
  | 88 => ⟨S512x64, .f32⟩
  | 89 => ⟨S_, .f32⟩
  | 90 => ⟨S50000, .f32⟩
  | 91 => ⟨S_, .f32⟩
  | 92 => ⟨S512, .f32⟩
  | 93 => ⟨S50000x1, .i32⟩
  | 94 => ⟨S512, .f32⟩
  | 95 => ⟨S_, .f32⟩
  | 96 => ⟨S512, .f32⟩
  | 97 => ⟨S512, .f32⟩
  | 98 => ⟨S512x1, .f32⟩
  | 99 => ⟨S512x64, .f32⟩
  | 100 => ⟨S512x64, .f32⟩
  | 101 => ⟨S512x2, .f32⟩
  | 102 => ⟨S1x2, .f32⟩
  | 103 => ⟨S512x2, .f32⟩
  | 104 => ⟨S512x2, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call0_cst : Ref sig .tc := ⟨.hbm, 119, rfl⟩
abbrev main_call0_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_16 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_18 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_19 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_20 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_22 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_23 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_24 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_25 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_c_26 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_27 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_28 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_29 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_call1_cst : Ref sig .tc := ⟨.hbm, 210, rfl⟩
abbrev main_call1_v0 : Ref sig .tc := ⟨.hbm, 211, rfl⟩
abbrev main_v163 : Ref sig .tc := ⟨.hbm, 212, rfl⟩
abbrev main_cst_30 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_31 : Ref sig .tc := ⟨.hbm, 217, rfl⟩
abbrev main_v167 : Ref sig .tc := ⟨.hbm, 218, rfl⟩
abbrev main_cst_32 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_33 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1 : S_.BroadcastsInDim S1 (![] : Fin 0 → Fin S1.rank)
  bcast_S_S64 : S_.BroadcastsInDim S64 (![] : Fin 0 → Fin S64.rank)
  bcast_S_S50000 : S_.BroadcastsInDim S50000 (![] : Fin 0 → Fin S50000.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S3x64x64_S1x64x64_0_0_0 : S3x64x64.Slices ![0, 0, 0] S1x64x64
  shapeCasts_S1x64x64_S64x64 : S1x64x64.ShapeCasts S64x64
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000x64_S1_S64_0_0_0_0_wf : ScatterDims.WF S50000x64 S1 S64 [0] [0] [0] 0
  gather_S50000x64_S50000x1_S50000x64_1_0_n_n_0_1_164_wf : GatherDims.WF S50000x64 S50000x1 S50000x64 [1] [0] [] [0] [] 1 ![1, 64]
  dot_S50000x64_S64x64_S50000x64_1_0_0_1_n_n_wf : DotDims.WF S50000x64 S64x64 S50000x64 [1] [0] [0] [1] [] []
  gather_S50000x64_S1250000x1_S1250000x64_1_0_n_n_0_1_164_wf : GatherDims.WF S50000x64 S1250000x1 S1250000x64 [1] [0] [] [0] [] 1 ![1, 64]
  dot_S1250000x64_S64x64_S1250000x64_1_0_0_1_n_n_wf : DotDims.WF S1250000x64 S64x64 S1250000x64 [1] [0] [0] [1] [] []
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x2_S512x2_1_0_0_1_n_n_wf : DotDims.WF S512x64 S64x2 S512x2 [1] [0] [0] [1] [] []

variable [Facts₀]

def scatter_S50000x64_S1_S64_0_0_0_0 : ScatterDims S50000x64 S1 S64 where
  updateWindowDims := [0]
  insertedWindowDims := [0]
  scatterDimsToOperandDims := [0]
  indexVectorDim := 0
  wf := scatter_S50000x64_S1_S64_0_0_0_0_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KernelRun.lean ====
/-
  The idealized kernel program's run with its result named.

  The program is four pipelined regions among stretches of host operations. Its generated frame follows the contents of
  every buffer from one segment boundary to the next (the fold `W0 … W11`) and concludes that the argument arrays end as
  launched. The same run also leaves the result buffer at the last boundary's contents `W11`; this module states the run
  with that one more conjunct, so that the value proof can read the result as a function of the arguments.
-/
import proofs.«174245_j88648124990446_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last segment
    boundary's contents and every argument array ends as launched. -/
theorem run : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.ValueRun

end
-- ==== Proof.RegionFns.lean ====
/-
  What the two kinds of pipelined region of a relational graph-convolution layer compute, as functions of whole arrays
  on the extended reals.

  * The edge region: for edge `e` and output feature `q`, the three relation products `(x e ·) · W_r (· q)`, each scaled
    by the edge's weight for that relation, accumulated from zero in the order r = 0, 1, 2.
  * The node region: for node `n` and feature `q`, the root product `(h n ·) · W (· q)` plus the bias plus what was
    aggregated at the node, clipped below at zero.
-/
import Idealize.ShloMosaic.PureOps.Ideal
import Idealize.ShloMosaic.Lib.ValueIdx

noncomputable section

open scoped BigOperators

namespace Cert.Rgcn

open Idealize.ShloMosaic Idealize.ShloMosaic.ValueIdx

/-- The message of edge `e` at feature `q`. -/
def edgeAt {E : Nat} (x : (⟨2, ![E, 64]⟩ : Shape).Idx → EReal) (rw : (⟨2, ![E, 3]⟩ : Shape).Idx → EReal)
    (w : (⟨3, ![3, 64, 64]⟩ : Shape).Idx → EReal) (e : Fin E) (q : Fin 64) : EReal :=
  ((0 + (∑ k : Fin 64, x (ix2 e k) * w (ix3 0 k q)) * rw (ix2 e 0))
      + (∑ k : Fin 64, x (ix2 e k) * w (ix3 1 k q)) * rw (ix2 e 1))
    + (∑ k : Fin 64, x (ix2 e k) * w (ix3 2 k q)) * rw (ix2 e 2)

/-- The edge region's result array. -/
def edgeFn {E : Nat} (x : (⟨2, ![E, 64]⟩ : Shape).Idx → EReal) (rw : (⟨2, ![E, 3]⟩ : Shape).Idx → EReal)
    (w : (⟨3, ![3, 64, 64]⟩ : Shape).Idx → EReal) : (⟨2, ![E, 64]⟩ : Shape).Idx → EReal :=
  fun i => edgeAt x rw w (i 0) (i 1)

/-- The new value of node `n` at feature `q`. -/
def combAt {N : Nat} (h : (⟨2, ![N, 64]⟩ : Shape).Idx → EReal) (w : (⟨2, ![64, 64]⟩ : Shape).Idx → EReal)
    (b : (⟨2, ![1, 64]⟩ : Shape).Idx → EReal) (agg : (⟨2, ![N, 64]⟩ : Shape).Idx → EReal) (n : Fin N) (q : Fin 64) : EReal :=
  max (((∑ k : Fin 64, h (ix2 n k) * w (ix2 k q)) + b (ix2 0 q)) + agg (ix2 n q)) 0

/-- The node region's result array. -/
def combFn {N : Nat} (h : (⟨2, ![N, 64]⟩ : Shape).Idx → EReal) (w : (⟨2, ![64, 64]⟩ : Shape).Idx → EReal)
    (b : (⟨2, ![1, 64]⟩ : Shape).Idx → EReal) (agg : (⟨2, ![N, 64]⟩ : Shape).Idx → EReal) :
    (⟨2, ![N, 64]⟩ : Shape).Idx → EReal :=
  fun i => combAt h w b agg (i 0) (i 1)

theorem edgeFn_apply {E : Nat} (x : (⟨2, ![E, 64]⟩ : Shape).Idx → EReal) (rw : (⟨2, ![E, 3]⟩ : Shape).Idx → EReal)
    (w : (⟨3, ![3, 64, 64]⟩ : Shape).Idx → EReal) (e : Fin E) (q : Fin 64) :
    edgeFn x rw w (ix2 e q) = edgeAt x rw w e q := rfl

theorem combFn_apply {N : Nat} (h : (⟨2, ![N, 64]⟩ : Shape).Idx → EReal) (w : (⟨2, ![64, 64]⟩ : Shape).Idx → EReal)
    (b : (⟨2, ![1, 64]⟩ : Shape).Idx → EReal) (agg : (⟨2, ![N, 64]⟩ : Shape).Idx → EReal) (n : Fin N) (q : Fin 64) :
    combFn h w b agg (ix2 n q) = combAt h w b agg n q := rfl

end Cert.Rgcn

end
-- ==== Proof.Spec.lean ====
/-
  The two programs as functions of their arguments, on the extended reals.

  Both programs compute a two-layer relational graph convolution over 50000 nodes and 1250000 typed edges, a mean pooling
  over 512 graphs and a final linear layer. They share, operation for operation, the start (the embedding rows of the
  nodes, row 0 of the table set to zero), the gathers of source rows, the per-destination sums and the tail. They differ
  inside a layer. With `m_r e` the indicator that edge `e` has relation `r`, `c_r n` the number of relation-`r` edges
  that end at node `n` kept at least one, and `A_r e = (h (src e) ·) · W_r`:

  * the reference adds, for each relation in turn, `(∑_{e → n} A_r e * m_r e) / c_r n` to `h n · W_root + b`;
  * the kernel program gives every edge the one message `∑_r A_r e * (m_r e / c_r (dst e))` (its edge region), sums the
    messages at the destinations, and adds that sum to `h n · W_root + b` (its node region).

  This module writes each program's form down over that program's own printed dimension records; the layer law that
  joins them is proved in the modules that import this one.
-/
import proofs.«174245_j88648124990446_1_alg».proof.KernelIdeal
import proofs.«174245_j88648124990446_1_alg».proof.ReferenceIdeal
import proofs.«174245_j88648124990446_1_alg».proof.Proof.RegionFns
import Idealize.ShloMosaic.PureOps.Ideal

noncomputable section

namespace Cert.Rgcn

open Idealize.ShloMosaic

section KernelIdealSide
open Cert.KernelIdeal Cert.KernelIdeal.Facts₀ Cert.KernelIdeal.Facts
variable [Cert.KernelIdeal.Facts]

namespace K

/-- The source node numbers of the edges: row 0 of the edge index. -/
def src (a1 : IVec S2x1250000 32) : IVec S1250000 32 :=
  shapeCast S1250000 (extractStridedSlice S1x1250000 ![0, 0] a1 slices_S2x1250000_S1x1250000_0_0) shapeCasts_S1x1250000_S1250000

/-- The destination node numbers of the edges: row 1 of the edge index. -/
def dst (a1 : IVec S2x1250000 32) : IVec S1250000 32 :=
  shapeCast S1250000 (extractStridedSlice S1x1250000 ![1, 0] a1 slices_S2x1250000_S1x1250000_1_0) shapeCasts_S1x1250000_S1250000

/-- A vector of node numbers as an index column, a negative number first moved up by the number of nodes. -/
def wrapE (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 50000#32))) s)

/-- A vector of node numbers as an index column, as it is. -/
def colE (s : IVec S1250000 32) : IVec S1250000x1 32 :=
  broadcastInDim S1250000x1 ![0] bcast_S1250000_S1250000x1_0 s

/-- The node features the layers start from: row `x n` of the embedding table whose row 0 is set to zero. -/
def emb (a0 : IVec S50000 32) (a4 : FVec Ideal S50000x64 .f32) : FVec Ideal S50000x64 .bf16 :=
  Host.gather gather_S50000x64_S50000x1_S50000x64_1_0_n_n_0_1_164
    (truncf .bf16 (Host.scatter scatter_S50000x64_S1_S64_0_0_0_0 (fun _ b => b) a4 (broadcastInDim S1 ![] bcast_S_S1 (constantI S_ 32 0#32))
      (broadcastInDim S64 ![] bcast_S_S64 (constant (F := Ideal) S_ .f32 0x00000000#32))) bitsLt_bf16_f32)
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 50000#32))) a0))

/-- The source rows of the edges. -/
def hsrc (h : FVec Ideal S50000x64 .bf16) (a1 : IVec S2x1250000 32) : FVec Ideal S1250000x64 .bf16 :=
  Host.gather gather_S50000x64_S1250000x1_S1250000x64_1_0_n_n_0_1_164 h (wrapE (src a1))

/-- The sum of edge rows over the edges that end at each node, from zero. -/
def agg (a1 : IVec S2x1250000 32) (msg : FVec Ideal S1250000x64 .f32) : FVec Ideal S50000x64 .f32 :=
  Host.scatterAdd scatter_S50000x64_S1250000x1_S1250000x64_1_0_0_1
    (broadcastInDim S50000x64 ![] bcast_S_S50000x64 (constant (F := Ideal) S_ .f32 0x00000000#32)) (colE (dst a1)) msg

/-- Mean pooling of the node rows over the graphs, then the final linear layer. -/
def tail (h2 : FVec Ideal S50000x64 .bf16) (a3 : IVec S50000 32) (a11 : FVec Ideal S64x2 .f32) (a12 : FVec Ideal S2 .f32) : FVec Ideal S512x2 .f32 :=
  addf (Host.dotGeneral dot_S512x64_S64x2_S512x2_1_0_0_1_n_n none
      (Host.divf
        (Host.scatterAdd scatter_S512x64_S50000x1_S50000x64_1_0_0_1
          (broadcastInDim S512x64 ![] bcast_S_S512x64 (constant (F := Ideal) S_ .f32 0x00000000#32))
          (broadcastInDim S50000x1 ![0] bcast_S50000_S50000x1_0 a3) (extf .f32 h2 bitsLt_bf16_f32))
        (broadcastInDim S512x64 ![0, 1] bcast_S512x1_S512x64_0_1 (broadcastInDim S512x1 ![0] bcast_S512_S512x1_0
          (maximumf
            (Host.scatterAdd scatter_S512_S50000x1_S50000_n_0_0_1
              (broadcastInDim S512 ![] bcast_S_S512 (constant (F := Ideal) S_ .f32 0x00000000#32))
              (broadcastInDim S50000x1 ![0] bcast_S50000_S50000x1_0 a3)
              (broadcastInDim S50000 ![] bcast_S_S50000 (constant (F := Ideal) S_ .f32 0x3F800000#32)))
            (broadcastInDim S512 ![] bcast_S_S512 (constant (F := Ideal) S_ .f32 0x3F800000#32))))))
      a11)
    (broadcastInDim S512x2 ![0, 1] bcast_S1x2_S512x2_0_1 (broadcastInDim S1x2 ![1] bcast_S2_S1x2_1 a12))

/-- The indicator of each edge's relation, one column per relation. -/
def onehot (a2 : IVec S1250000 32) : FVec Ideal S1250000x3 .f32 :=
  uitofp .f32 (cmpi .eq
    (broadcastInDim S1250000x3 ![0, 1] bcast_S1250000x1_S1250000x3_0_1 (broadcastInDim S1250000x1 ![0] bcast_S1250000_S1250000x1_0 a2))
    (broadcastInDim S1250000x3 ![0, 1] bcast_S1x3_S1250000x3_0_1 (iotaInDim S1x3 32 1)))

/-- For each node and relation, the number of edges of that relation that end at the node. -/
def cnt (a1 : IVec S2x1250000 32) (a2 : IVec S1250000 32) : FVec Ideal S50000x3 .f32 :=
  Host.scatterAdd scatter_S50000x3_S1250000x1_S1250000x3_1_0_0_1
    (broadcastInDim S50000x3 ![] bcast_S_S50000x3 (constant (F := Ideal) S_ .f32 0x00000000#32)) (colE (dst a1)) (onehot a2)

/-- Each edge's weight per relation: its indicator over the count at its destination, the count kept at least one. -/
def relw (a1 : IVec S2x1250000 32) (a2 : IVec S1250000 32) : FVec Ideal S1250000x3 .f32 :=
  Host.divf (onehot a2)
    (maximumf (Host.gather gather_S50000x3_S1250000x1_S1250000x3_1_0_n_n_0_1_13 (cnt a1 a2) (wrapE (dst a1)))
      (broadcastInDim S1250000x3 ![] bcast_S_S1250000x3 (constant (F := Ideal) S_ .f32 0x3F800000#32)))

/-- One layer as the kernel program computes it: the edge region's messages summed at the destinations, then the node
    region. -/
def layer (h : FVec Ideal S50000x64 .bf16) (a1 : IVec S2x1250000 32) (a2 : IVec S1250000 32) (wrel : FVec Ideal S3x64x64 .f32)
    (wroot : FVec Ideal S64x64 .f32) (b : FVec Ideal S64 .f32) : FVec Ideal S50000x64 .bf16 :=
  combFn (N := 50000) h (truncf .bf16 wroot bitsLt_bf16_f32 : FVec Ideal S64x64 .bf16) (shapeCast S1x64 b shapeCasts_S64_S1x64)
    (agg a1 (edgeFn (E := 1250000) (hsrc h a1) (relw a1 a2) (truncf .bf16 wrel bitsLt_bf16_f32 : FVec Ideal S3x64x64 .bf16)))

/-- The kernel program's result as a function of its thirteen arguments. -/
def res (a0 : IVec S50000 32) (a1 : IVec S2x1250000 32) (a2 : IVec S1250000 32) (a3 : IVec S50000 32)
    (a4 : FVec Ideal S50000x64 .f32) (a5 : FVec Ideal S3x64x64 .f32) (a6 : FVec Ideal S64x64 .f32) (a7 : FVec Ideal S64 .f32)
    (a8 : FVec Ideal S3x64x64 .f32) (a9 : FVec Ideal S64x64 .f32) (a10 : FVec Ideal S64 .f32) (a11 : FVec Ideal S64x2 .f32) (a12 : FVec Ideal S2 .f32) :
    FVec Ideal S512x2 .f32 :=
  tail (layer (layer (emb a0 a4) a1 a2 a5 a6 a7) a1 a2 a8 a9 a10) a3 a11 a12

end K
end KernelIdealSide

section ReferenceIdealSide
open Cert.ReferenceIdeal Cert.ReferenceIdeal.Facts₀ Cert.ReferenceIdeal.Facts
variable [Cert.ReferenceIdeal.Facts]

namespace R

/-- The source node numbers of the edges: row 0 of the edge index. -/
def src (a1 : IVec S2x1250000 32) : IVec S1250000 32 :=
  shapeCast S1250000 (extractStridedSlice S1x1250000 ![0, 0] a1 slices_S2x1250000_S1x1250000_0_0) shapeCasts_S1x1250000_S1250000

/-- The destination node numbers of the edges: row 1 of the edge index. -/
def dst (a1 : IVec S2x1250000 32) : IVec S1250000 32 :=
  shapeCast S1250000 (extractStridedSlice S1x1250000 ![1, 0] a1 slices_S2x1250000_S1x1250000_1_0) shapeCasts_S1x1250000_S1250000

/-- A vector of node numbers as an index column, a negative number first moved up by the number of nodes. -/
def wrapE (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 50000#32))) s)

/-- A vector of node numbers as an index column, as it is. -/
def colE (s : IVec S1250000 32) : IVec S1250000x1 32 :=
  broadcastInDim S1250000x1 ![0] bcast_S1250000_S1250000x1_0 s

/-- The node features the layers start from: row `x n` of the embedding table whose row 0 is set to zero. -/
def emb (a0 : IVec S50000 32) (a4 : FVec Ideal S50000x64 .f32) : FVec Ideal S50000x64 .f32 :=
  Host.gather gather_S50000x64_S50000x1_S50000x64_1_0_n_n_0_1_164
    (Host.scatter scatter_S50000x64_S1_S64_0_0_0_0 (fun _ b => b) a4 (broadcastInDim S1 ![] bcast_S_S1 (constantI S_ 32 0#32))
      (broadcastInDim S64 ![] bcast_S_S64 (constant (F := Ideal) S_ .f32 0x00000000#32)))
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 50000#32))) a0))

/-- The source rows of the edges. -/
def hsrc (h : FVec Ideal S50000x64 .f32) (a1 : IVec S2x1250000 32) : FVec Ideal S1250000x64 .f32 :=
  Host.gather gather_S50000x64_S1250000x1_S1250000x64_1_0_n_n_0_1_164 h (wrapE (src a1))

/-- The sum of edge rows over the edges that end at each node, from zero. -/
def agg (a1 : IVec S2x1250000 32) (msg : FVec Ideal S1250000x64 .f32) : FVec Ideal S50000x64 .f32 :=
  Host.scatterAdd scatter_S50000x64_S1250000x1_S1250000x64_1_0_0_1
    (broadcastInDim S50000x64 ![] bcast_S_S50000x64 (constant (F := Ideal) S_ .f32 0x00000000#32)) (colE (dst a1)) msg

/-- Mean pooling of the node rows over the graphs, then the final linear layer. -/
def tail (h2 : FVec Ideal S50000x64 .f32) (a3 : IVec S50000 32) (a11 : FVec Ideal S64x2 .f32) (a12 : FVec Ideal S2 .f32) : FVec Ideal S512x2 .f32 :=
  addf (Host.dotGeneral dot_S512x64_S64x2_S512x2_1_0_0_1_n_n none
      (Host.divf
        (Host.scatterAdd scatter_S512x64_S50000x1_S50000x64_1_0_0_1
          (broadcastInDim S512x64 ![] bcast_S_S512x64 (constant (F := Ideal) S_ .f32 0x00000000#32))
          (broadcastInDim S50000x1 ![0] bcast_S50000_S50000x1_0 a3) h2)
        (broadcastInDim S512x64 ![0, 1] bcast_S512x1_S512x64_0_1 (broadcastInDim S512x1 ![0] bcast_S512_S512x1_0
          (maximumf
            (Host.scatterAdd scatter_S512_S50000x1_S50000_n_0_0_1
              (broadcastInDim S512 ![] bcast_S_S512 (constant (F := Ideal) S_ .f32 0x00000000#32))
              (broadcastInDim S50000x1 ![0] bcast_S50000_S50000x1_0 a3)
              (broadcastInDim S50000 ![] bcast_S_S50000 (constant (F := Ideal) S_ .f32 0x3F800000#32)))
            (broadcastInDim S512 ![] bcast_S_S512 (constant (F := Ideal) S_ .f32 0x3F800000#32))))))
      a11)
    (broadcastInDim S512x2 ![0, 1] bcast_S1x2_S512x2_0_1 (broadcastInDim S1x2 ![1] bcast_S2_S1x2_1 a12))

/-- The indicator of the edges of relation `r`. -/
def mask (a2 : IVec S1250000 32) (r : BitVec 32) : FVec Ideal S1250000 .f32 :=
  uitofp .f32 (cmpi .eq a2 (broadcastInDim S1250000 ![] bcast_S_S1250000 (constantI S_ 32 r)))

/-- Relation 0's weight matrix. -/
def wslice0 (wrel : FVec Ideal S3x64x64 .f32) : FVec Ideal S64x64 .f32 :=
  shapeCast S64x64 (extractStridedSlice S1x64x64 ![0, 0, 0] wrel slices_S3x64x64_S1x64x64_0_0_0) shapeCasts_S1x64x64_S64x64

/-- Relation 1's weight matrix. -/
def wslice1 (wrel : FVec Ideal S3x64x64 .f32) : FVec Ideal S64x64 .f32 :=
  shapeCast S64x64 (extractStridedSlice S1x64x64 ![1, 0, 0] wrel slices_S3x64x64_S1x64x64_1_0_0) shapeCasts_S1x64x64_S64x64

/-- Relation 2's weight matrix. -/
def wslice2 (wrel : FVec Ideal S3x64x64 .f32) : FVec Ideal S64x64 .f32 :=
  shapeCast S64x64 (extractStridedSlice S1x64x64 ![2, 0, 0] wrel slices_S3x64x64_S1x64x64_2_0_0) shapeCasts_S1x64x64_S64x64

/-- One relation's term of a layer: the masked products summed at the destinations, over the count kept at least one. -/
def term (h : FVec Ideal S50000x64 .f32) (a1 : IVec S2x1250000 32) (a2 : IVec S1250000 32) (w : FVec Ideal S64x64 .f32) (r : BitVec 32) :
    FVec Ideal S50000x64 .f32 :=
  Host.divf
    (agg a1 (mulf (Host.dotGeneral dot_S1250000x64_S64x64_S1250000x64_1_0_0_1_n_n none (hsrc h a1) w)
      (broadcastInDim S1250000x64 ![0, 1] bcast_S1250000x1_S1250000x64_0_1
        (broadcastInDim S1250000x1 ![0] bcast_S1250000_S1250000x1_0 (mask a2 r)))))
    (broadcastInDim S50000x64 ![0, 1] bcast_S50000x1_S50000x64_0_1 (broadcastInDim S50000x1 ![0] bcast_S50000_S50000x1_0
      (maximumf
        (Host.scatterAdd scatter_S50000_S1250000x1_S1250000_n_0_0_1
          (broadcastInDim S50000 ![] bcast_S_S50000 (constant (F := Ideal) S_ .f32 0x00000000#32)) (colE (dst a1)) (mask a2 r))
        (broadcastInDim S50000 ![] bcast_S_S50000 (constant (F := Ideal) S_ .f32 0x3F800000#32)))))

/-- One layer as the reference computes it. -/
def layer (h : FVec Ideal S50000x64 .f32) (a1 : IVec S2x1250000 32) (a2 : IVec S1250000 32) (wrel : FVec Ideal S3x64x64 .f32)
    (wroot : FVec Ideal S64x64 .f32) (b : FVec Ideal S64 .f32) : FVec Ideal S50000x64 .f32 :=
  maximumf
    (addf (addf (addf
      (addf (Host.dotGeneral dot_S50000x64_S64x64_S50000x64_1_0_0_1_n_n none h wroot)
        (broadcastInDim S50000x64 ![0, 1] bcast_S1x64_S50000x64_0_1 (broadcastInDim S1x64 ![1] bcast_S64_S1x64_1 b)))
      (term h a1 a2 (wslice0 wrel) 0#32)) (term h a1 a2 (wslice1 wrel) 1#32)) (term h a1 a2 (wslice2 wrel) 2#32))
    (broadcastInDim S50000x64 ![] bcast_S_S50000x64 (constant (F := Ideal) S_ .f32 0x00000000#32))

/-- The reference's result as a function of its thirteen arguments. -/
def res (a0 : IVec S50000 32) (a1 : IVec S2x1250000 32) (a2 : IVec S1250000 32) (a3 : IVec S50000 32)
    (a4 : FVec Ideal S50000x64 .f32) (a5 : FVec Ideal S3x64x64 .f32) (a6 : FVec Ideal S64x64 .f32) (a7 : FVec Ideal S64 .f32)
    (a8 : FVec Ideal S3x64x64 .f32) (a9 : FVec Ideal S64x64 .f32) (a10 : FVec Ideal S64 .f32) (a11 : FVec Ideal S64x2 .f32) (a12 : FVec Ideal S2 .f32) :
    FVec Ideal S512x2 .f32 :=
  tail (layer (layer (emb a0 a4) a1 a2 a5 a6 a7) a1 a2 a8 a9 a10) a3 a11 a12

end R
end ReferenceIdealSide

end Cert.Rgcn

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.EdgePayload.lean ====
/-
  The edge region's body read at one element.

  The body holds a block of 10000 edges: their 64 source features, their three relation weights, and the three
  64 × 64 relation matrices. Its result at edge `p` and feature `q` is, accumulated from zero in the order of the
  relations, the product of the edge's feature row with column `q` of relation `r`'s matrix, scaled by the edge's
  weight for `r`. At the ideal values the changes of format and the casts between equal shapes are the identity, a
  matrix product into the zero accumulator is the plain sum over the contracted index, and a weight column spread
  over the 64 features reads the edge's weight at every feature.
-/
import proofs.«174245_j88648124990446_1_alg».proof.Proof.Gen.KernelIdeal.Skeleton
import proofs.«174245_j88648124990446_1_alg».proof.Proof.LibPlainMatmul
import proofs.«174245_j88648124990446_1_alg».proof.Proof.RegionFns
import Idealize.ShloMosaic.Lib.ValueLayout

noncomputable section

open scoped BigOperators

namespace Cert.Rgcn

open Idealize.ShloMosaic Idealize.ShloMosaic.ValueIdx Idealize.ShloMosaic.PlainMatmul
open Cert.KernelIdeal Cert.KernelIdeal.Gen

/-- A column `[a, 1]` spread over `b` features reads, at `(p, q)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One relation's product at `(p, q)`: the feature row of edge `p` against column `q` of the relation's matrix. -/
theorem relProduct_apply (x : FVec Ideal S10000x64 .bf16) (w : FVec Ideal S1x64x64 .bf16) (p : Fin 10000) (q : Fin 64) :
    matmul (F := Ideal) dot_S10000x64_S64x64_S10000x64_1_0_0_1_n_n none (shapeCast S10000x64 x shapeCasts_S10000x64_S10000x64)
        (shapeCast S64x64 w shapeCasts_S1x64x64_S64x64) (constant (F := Ideal) S10000x64 .f32 0x00000000#32) (ix2 p q)
      = ∑ k : Fin 64, x (ix2 p k) * w (ix3 0 k q) := by
  rw [shapeCast_self]
  refine (plainMatmul_apply (M := 10000) (K := 64) (N := 64) none x
    (shapeCast S64x64 w shapeCasts_S1x64x64_S64x64) p q).trans ?_
  exact Finset.sum_congr rfl fun k _ => by rw [shapeCast_1ab_ab_apply]

/-- The weight of relation `r` (column `o` of the weight block) spread over the features: at `(p, q)` it is edge
    `p`'s weight for `r`. -/
theorem relWeight_apply (x : FVec Ideal S10000x3 .f32) (o : Nat) (r : Fin 3) (hr : r.val = o)
    (hs : S10000x3.Slices ![0, o] S10000x1) (p : Fin 10000) (q : Fin 64) :
    broadcastTo S10000x64 (extractStridedSlice S10000x1 ![0, o]
        (shapeCast S10000x3 x shapeCasts_S10000x3_S10000x3) hs) broadcasts_S10000x1_S10000x64 (ix2 p q)
      = x (ix2 p r) := by
  rw [shapeCast_self, broadcastTo_a1_ab_apply]
  exact slice2_axis1_apply o x hs p (0 : Fin 1) r (hr.trans (Nat.add_zero o).symm)

/-- THE EDGE BODY AT `(p, q)`: the three relation products of edge `p`'s feature row, each scaled by the edge's
    weight for its relation, added from zero in the order of the relations. -/
theorem edgePayload_apply (x0 : Vec Ideal S10000x64 .bf16) (x1 : Vec Ideal S10000x3 .f32)
    (w0 w1 w2 : Vec Ideal S1x64x64 .bf16) (p : Fin 10000) (q : Fin 64) :
    k0_pay1 x0 x1 w0 w1 w2 (ix2 p q)
      = ((0 + (∑ k : Fin 64, x0 (ix2 p k) * w0 (ix3 0 k q)) * x1 (ix2 p 0))
          + (∑ k : Fin 64, x0 (ix2 p k) * w1 (ix3 0 k q)) * x1 (ix2 p 1))
        + (∑ k : Fin 64, x0 (ix2 p k) * w2 (ix3 0 k q)) * x1 (ix2 p 2) := by
  unfold k0_pay1
  simp only [addf_apply, mulf_apply, broadcast_apply]
  rw [relProduct_apply x0 w0 p q, relProduct_apply x0 w1 p q, relProduct_apply x0 w2 p q,
    relWeight_apply x1 0 0 rfl slices_S10000x3_o0_0_S10000x1 p q,
    relWeight_apply x1 1 1 rfl slices_S10000x3_o0_1_S10000x1 p q,
    relWeight_apply x1 2 2 rfl slices_S10000x3_o0_2_S10000x1 p q]
  show ((Ideal.ofBits .f32 0x00000000#32 + _) + _) + _ = _
  rw [Ideal.ofBits_zero_f32]

/-- The second layer's edge body is the same arithmetic. -/
theorem edgePayload2_apply (x0 : Vec Ideal S10000x64 .bf16) (x1 : Vec Ideal S10000x3 .f32)
    (w0 w1 w2 : Vec Ideal S1x64x64 .bf16) (p : Fin 10000) (q : Fin 64) :
    k2_pay1 x0 x1 w0 w1 w2 (ix2 p q)
      = ((0 + (∑ k : Fin 64, x0 (ix2 p k) * w0 (ix3 0 k q)) * x1 (ix2 p 0))
          + (∑ k : Fin 64, x0 (ix2 p k) * w1 (ix3 0 k q)) * x1 (ix2 p 1))
        + (∑ k : Fin 64, x0 (ix2 p k) * w2 (ix3 0 k q)) * x1 (ix2 p 2) :=
  edgePayload_apply x0 x1 w0 w1 w2 p q

/-- THE EDGE BODY ON A BLOCK OF AN ARRAY. When row `p` of the feature block and of the weight block are row `e` of
    the whole arrays, and the three matrices the body loads are the three relations' matrices of the whole stack,
    the body's result at `(p, q)` is the message of edge `e` at feature `q`. -/
theorem edgePayload_eq_edgeAt {E : Nat} (x0 : Vec Ideal S10000x64 .bf16) (x1 : Vec Ideal S10000x3 .f32)
    (w0 w1 w2 : Vec Ideal S1x64x64 .bf16) (X : (⟨2, ![E, 64]⟩ : Shape).Idx → EReal)
    (RW : (⟨2, ![E, 3]⟩ : Shape).Idx → EReal) (W : (⟨3, ![3, 64, 64]⟩ : Shape).Idx → EReal)
    (p : Fin 10000) (q : Fin 64) (e : Fin E)
    (h0 : ∀ k : Fin 64, x0 (ix2 p k) = X (ix2 e k)) (h1 : ∀ r : Fin 3, x1 (ix2 p r) = RW (ix2 e r))
    (hw0 : ∀ k : Fin 64, w0 (ix3 0 k q) = W (ix3 0 k q)) (hw1 : ∀ k : Fin 64, w1 (ix3 0 k q) = W (ix3 1 k q))
    (hw2 : ∀ k : Fin 64, w2 (ix3 0 k q) = W (ix3 2 k q)) :
    k0_pay1 x0 x1 w0 w1 w2 (ix2 p q) = edgeAt X RW W e q := by
  rw [edgePayload_apply]
  unfold edgeAt
  simp only [h0, h1, hw0, hw1, hw2]

/-- The same for the second layer's edge body. -/
theorem edgePayload2_eq_edgeAt {E : Nat} (x0 : Vec Ideal S10000x64 .bf16) (x1 : Vec Ideal S10000x3 .f32)
    (w0 w1 w2 : Vec Ideal S1x64x64 .bf16) (X : (⟨2, ![E, 64]⟩ : Shape).Idx → EReal)
    (RW : (⟨2, ![E, 3]⟩ : Shape).Idx → EReal) (W : (⟨3, ![3, 64, 64]⟩ : Shape).Idx → EReal)
    (p : Fin 10000) (q : Fin 64) (e : Fin E)
    (h0 : ∀ k : Fin 64, x0 (ix2 p k) = X (ix2 e k)) (h1 : ∀ r : Fin 3, x1 (ix2 p r) = RW (ix2 e r))
    (hw0 : ∀ k : Fin 64, w0 (ix3 0 k q) = W (ix3 0 k q)) (hw1 : ∀ k : Fin 64, w1 (ix3 0 k q) = W (ix3 1 k q))
    (hw2 : ∀ k : Fin 64, w2 (ix3 0 k q) = W (ix3 2 k q)) :
    k2_pay1 x0 x1 w0 w1 w2 (ix2 p q) = edgeAt X RW W e q :=
  edgePayload_eq_edgeAt x0 x1 w0 w1 w2 X RW W p q e h0 h1 hw0 hw1 hw2

end Cert.Rgcn

end
-- ==== Proof.BlockAccess.lean ====
/-
  Two small facts about how a region's body reads the blocks it is handed: the offsets of an access to a whole
  rank-2 block are zero on both axes, and a load of one `[1, 64, 64]` slab of a stack of three 64 × 64 matrices reads
  the matrix at the slab's offset.
-/
import proofs.«174245_j88648124990446_1_alg».proof.KernelIdeal
import Idealize.ShloMosaic.Lib.Pipeline.Value
import Idealize.ShloMosaic.Lib.Pipeline.FrameBody
import Idealize.ShloMosaic.Lib.ValueIdx

noncomputable section

namespace Cert.Rgcn

open Idealize.ShloMosaic Idealize.ShloMosaic.ValueIdx
open Cert.KernelIdeal

/-- The zero offsets of a rank-2 whole-block access. -/
theorem zeroOff2 : (![0, 0] : Fin 2 → Nat) = fun _ => 0 := funext fun a => by fin_cases a <;> rfl

/-- A load of the `[1, 64, 64]` slab at offset `o` of a stack of three matrices reads matrix `o`. -/
theorem stack_slab_apply (B : Vec Ideal S3x64x64 .bf16) (o : Nat) (r : Fin 3) (hr : r.val = o)
    (inb : ∀ a, (![o, 0, 0] : Fin 3 → Nat) a + S1x64x64.size a ≤ S3x64x64.size a) (k q : Fin 64) :
    View.ld B (Rect.unit (s := S3x64x64) ![o, 0, 0] S1x64x64.size inb) (ix3 (0 : Fin 1) k q) = B (ix3 r k q) := by
  show B ((Rect.unit (s := S3x64x64) ![o, 0, 0] S1x64x64.size inb).emb (ix3 (0 : Fin 1) k q)) = B (ix3 r k q)
  refine congrArg B (funext fun a => Fin.ext ?_)
  rw [Rect.emb_apply]
  match a with
  | ⟨0, _⟩ => show o + 1 * 0 = r.val; omega
  | ⟨1, _⟩ => show 0 + 1 * k.val = k.val; omega
  | ⟨2, _⟩ => show 0 + 1 * q.val = q.val; omega

end Cert.Rgcn

end
-- ==== Proof.Region0.lean ====
/-
  What the first edge region leaves in its output array.

  The region walks 125 grid points. At point `t` it holds rows `10000 t … 10000 t + 9999` of the edges' gathered
  source features and of their relation weights, and the whole stack of three relation matrices; the body writes, for
  each of those edges, its message; and the block is written back to the same rows of the output array. The blocks
  tile the 1250000 rows (row `r` lies in the block of point `r / 10000`), so the array ends holding every edge's
  message: one function of the three arrays the region read.
-/
import proofs.«174245_j88648124990446_1_alg».proof.Proof.Gen.KernelIdeal.Frame
import proofs.«174245_j88648124990446_1_alg».proof.Proof.EdgePayload
import proofs.«174245_j88648124990446_1_alg».proof.Proof.RegionFns
import proofs.«174245_j88648124990446_1_alg».proof.Proof.BlockAccess
import Idealize.ShloMosaic.Lib.Pipeline.Value

noncomputable section

open scoped BigOperators

namespace Cert.Rgcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the first edge region, decided over its 125 points: the feature, weight and output windows sit
    at block row `t`, column block 0; the matrix stack's window is the whole stack at every point. -/
theorem edge0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `p` of the feature block at point `t` is row `10000 t + p` of the feature array. -/
theorem edge0_features (c : Dev nD) (t : Fin cfg0.N) (p : Fin 10000) (k : Fin 64) (e : Fin 1250000)
    (he : e.val = t.val * 10000 + p.val) :
    (iblk0 V c 0 t : Vec Ideal S10000x64 .bf16) (ix2 p k) = (V c main_v38 : S1250000x64.Idx → EReal) (ix2 e k) := by
  obtain ⟨e0, e1, -⟩ := edge0_index t
  unfold iblk0
  rw [View.read_apply]
  show V c main_v38 _ = V c main_v38 _
  refine congrArg _ (funext fun a => Fin.ext ?_)
  match a with
  | ⟨0, _⟩ => show win0_0.index t (0 : Fin 2) * 10000 + 1 * p.val = e.val; rw [e0, he]; omega
  | ⟨1, _⟩ => show win0_0.index t (1 : Fin 2) * 64 + 1 * k.val = k.val; rw [e1]; omega

/-- Row `p` of the weight block at point `t` is row `10000 t + p` of the weight array. -/
theorem edge0_weights (c : Dev nD) (t : Fin cfg0.N) (p : Fin 10000) (r : Fin 3) (e : Fin 1250000)
    (he : e.val = t.val * 10000 + p.val) :
    (iblk0 V c 1 t : Vec Ideal S10000x3 .f32) (ix2 p r) = (V c main_v28 : S1250000x3.Idx → EReal) (ix2 e r) := by
  obtain ⟨-, -, e2, e3, -⟩ := edge0_index t
  unfold iblk0
  rw [View.read_apply]
  show V c main_v28 _ = V c main_v28 _
  refine congrArg _ (funext fun a => Fin.ext ?_)
  match a with
  | ⟨0, _⟩ => show win0_1.index t (0 : Fin 2) * 10000 + 1 * p.val = e.val; rw [e2, he]; omega
  | ⟨1, _⟩ => show win0_1.index t (1 : Fin 2) * 3 + 1 * r.val = r.val; rw [e3]; omega

/-- The matrix stack's block at every point is the whole stack. -/
theorem edge0_matrices (c : Dev nD) (t : Fin cfg0.N) (z : S3x64x64.Idx) :
    (iblk0 V c 2 t : Vec Ideal S3x64x64 .bf16) z = (V c main_v29 : S3x64x64.Idx → EReal) z := by
  obtain ⟨-, -, -, -, e4, e5, e6, -⟩ := edge0_index t
  unfold iblk0
  rw [View.read_apply]
  show V c main_v29 _ = V c main_v29 _
  refine congrArg _ (funext fun a => Fin.ext ?_)
  match a with
  | ⟨0, _⟩ => show win0_2.index t (0 : Fin 3) * 3 + 1 * (z 0).val = (z 0).val; rw [e4]; omega
  | ⟨1, _⟩ => show win0_2.index t (1 : Fin 3) * 64 + 1 * (z 1).val = (z 1).val; rw [e5]; omega
  | ⟨2, _⟩ => show win0_2.index t (2 : Fin 3) * 64 + 1 * (z 2).val = (z 2).val; rw [e6]; omega

/-- WHAT POINT `t` WRITES BACK: block `t` of the edges' messages, as a function of the three arrays the region
    read. -/
theorem edge0_flushed (c : Dev nD) (t : Fin cfg0.N) :
    (dat0 V c).flushed 3 t
      = ((cfg0.win 3).blk t).view.read (Elt Ideal)
          (edgeFn (V c main_v38 : S1250000x64.Idx → EReal) (V c main_v28 : S1250000x3.Idx → EReal)
            (V c main_v29 : S3x64x64.Idx → EReal)) := by
  have ht : t.val < 125 := lt_of_lt_of_eq t.isLt N_0
  obtain ⟨-, -, -, -, -, -, -, e7, e8⟩ := edge0_index t
  show (cfg0.win 3).cut (grid0.coords t) ((dat0 V c).after 3 t) = _
  rw [after0_3]
  unfold out0_3
  rw [View.canon_unit_zero zeroOff2]
  simp only [View.ld_unit_zero (S := S10000x64) zeroOff2, View.ld_unit_zero (S := S10000x3) zeroOff2]
  funext (j : S10000x64.Idx)
  obtain ⟨p, q, rfl⟩ : ∃ (p : Fin 10000) (q : Fin 64), j = ix2 p q := ⟨j 0, j 1, eq_ix2 j⟩
  have hrow : t.val * 10000 + p.val < 1250000 := by have := p.isLt; omega
  have hemb : ((cfg0.win 3).blk t).view.emb (ix2 p q)
      = (ix2 (⟨t.val * 10000 + p.val, hrow⟩ : Fin 1250000) q : S1250000x64.Idx) := by
    funext a; apply Fin.ext
    match a with
    | ⟨0, _⟩ => show win0_3.index t (0 : Fin 2) * 10000 + 1 * p.val = t.val * 10000 + p.val; rw [e7]; omega
    | ⟨1, _⟩ => show win0_3.index t (1 : Fin 2) * 64 + 1 * q.val = q.val; rw [e8]; omega
  show k0_pay1 (iblk0 V c 0 t) (iblk0 V c 1 t) (View.ld (iblk0 V c 2 t) r0_2) (View.ld (iblk0 V c 2 t) r0_3)
      (View.ld (iblk0 V c 2 t) r0_4) (ix2 p q)
    = edgeFn (V c main_v38 : S1250000x64.Idx → EReal) (V c main_v28 : S1250000x3.Idx → EReal)
        (V c main_v29 : S3x64x64.Idx → EReal) (((cfg0.win 3).blk t).view.emb (ix2 p q))
  rw [hemb, edgeFn_apply]
  exact edgePayload_eq_edgeAt (iblk0 V c 0 t) (iblk0 V c 1 t) (View.ld (iblk0 V c 2 t) r0_2)
    (View.ld (iblk0 V c 2 t) r0_3) (View.ld (iblk0 V c 2 t) r0_4)
    (V c main_v38 : S1250000x64.Idx → EReal) (V c main_v28 : S1250000x3.Idx → EReal)
    (V c main_v29 : S3x64x64.Idx → EReal) p q ⟨t.val * 10000 + p.val, hrow⟩
    (fun k => edge0_features V c t p k _ rfl) (fun r => edge0_weights V c t p r _ rfl)
    (fun k => (stack_slab_apply (iblk0 V c 2 t) 0 0 rfl _ k q).trans (edge0_matrices V c t _))
    (fun k => (stack_slab_apply (iblk0 V c 2 t) 1 1 rfl _ k q).trans (edge0_matrices V c t _))
    (fun k => (stack_slab_apply (iblk0 V c 2 t) 2 2 rfl _ k q).trans (edge0_matrices V c t _))

/-- An index of the output array is in point `t`'s block iff each coordinate is in the block's range on its axis. -/
theorem edge0_mem_blk (t : Fin cfg0.N) (i : S1250000x64.Idx) :
    i ∈ ((cfg0.win 3).blk t).view.set
      ↔ ∀ a : Fin 2, win0_3.index t a * S10000x64.size a ≤ (i a).val
          ∧ (i a).val < win0_3.index t a * S10000x64.size a + S10000x64.size a := by
  show i ∈ ((View.whole main_v39).slice (win0_3.rect t)).set ↔ _
  rw [View.set_slice_whole, Rect.mem_set_unit]
  exact Iff.rfl

/-- Every row of the output array lies in the block of the point `row / 10000`. -/
theorem edge0_cover (i : S1250000x64.Idx) :
    ∃ t : Fin cfg0.N, (cfg0.win 3).flush t = true ∧ i ∈ ((cfg0.win 3).blk t).view.set := by
  have hi0 : (i 0).val < 1250000 := (i 0).isLt
  have hi1 : (i 1).val < 64 := (i 1).isLt
  have hN : cfg0.N = 125 := N_0
  let t : Fin cfg0.N := ⟨(i 0).val / 10000, by rw [hN]; omega⟩
  obtain ⟨-, -, -, -, -, -, -, e7, e8⟩ := edge0_index t
  have e7' : win0_3.index t (0 : Fin 2) = (i 0).val / 10000 := e7
  refine ⟨t, flush0_3 t, ?_⟩
  rw [edge0_mem_blk]
  intro a
  match a with
  | ⟨0, _⟩ =>
    show win0_3.index t (0 : Fin 2) * 10000 ≤ (i 0).val ∧ (i 0).val < win0_3.index t (0 : Fin 2) * 10000 + 10000
    rw [e7']; omega
  | ⟨1, _⟩ =>
    show win0_3.index t (1 : Fin 2) * 64 ≤ (i 1).val ∧ (i 1).val < win0_3.index t (1 : Fin 2) * 64 + 64
    rw [e8]; omega

/-- THE OUTPUT ARRAY of the first edge region: every edge's message, as one function of the gathered features, the
    relation weights and the relation matrices the region found on entry. -/
theorem region0_arr (c : Dev nD) :
    (dat0 V c).arrAt 3 cfg0.N = edgeFn (E := 1250000) (V c main_v38) (V c main_v28) (V c main_v29) :=
  (dat0 V c).arrAt_eq_of_cover 3 _ (fun t _ => edge0_flushed V c t) edge0_cover

end Cert.Rgcn

end
-- ==== Proof.CombinePayload.lean ====
/-
  The node region's body read at one element.

  The body holds a block of 10000 nodes: their 64 features, the 64 × 64 root matrix, the bias row, and what was
  aggregated at each node. Its result at node `p` and feature `q` is the product of the node's feature row with
  column `q` of the root matrix, plus the bias at `q`, plus the aggregate at `(p, q)`, clipped below at zero. At the
  ideal values the casts between equal shapes and the final change of format are the identity, the matrix product
  into the zero accumulator is the plain sum over the contracted index, and the bias row spread over the nodes reads
  the bias at the feature.
-/
import proofs.«174245_j88648124990446_1_alg».proof.Proof.Gen.KernelIdeal.Skeleton
import proofs.«174245_j88648124990446_1_alg».proof.Proof.LibPlainMatmul
import proofs.«174245_j88648124990446_1_alg».proof.Proof.RegionFns
import Idealize.ShloMosaic.Lib.ValueLayout

noncomputable section

open scoped BigOperators

namespace Cert.Rgcn

open Idealize.ShloMosaic Idealize.ShloMosaic.ValueIdx Idealize.ShloMosaic.PlainMatmul
open Cert.KernelIdeal Cert.KernelIdeal.Gen

/-- The root product at `(p, q)`: the feature row of node `p` against column `q` of the root matrix. -/
theorem rootProduct_apply (x : FVec Ideal S10000x64 .bf16) (w : FVec Ideal S64x64 .bf16) (p : Fin 10000) (q : Fin 64) :
    matmul (F := Ideal) dot_S10000x64_S64x64_S10000x64_1_0_0_1_n_n none x w
        (constant (F := Ideal) S10000x64 .f32 0x00000000#32) (ix2 p q)
      = ∑ k : Fin 64, x (ix2 p k) * w (ix2 k q) :=
  plainMatmul_apply (M := 10000) (K := 64) (N := 64) none x w p q

/-- The bias row spread over the nodes: at `(p, q)` it is the bias at `q`. -/
theorem biasRow_apply (b : FVec Ideal S1x64 .f32) (p : Fin 10000) (q : Fin 64) :
    broadcastTo S10000x64 b broadcasts_S1x64_S10000x64 (ix2 p q) = b (ix2 0 q) :=
  broadcastTo_1b_ab_apply b broadcasts_S1x64_S10000x64 p q

/-- THE NODE BODY AT `(p, q)`: the root product of node `p`'s feature row plus the bias plus the aggregate, clipped
    below at zero. -/
theorem combinePayload_apply (x0 : Vec Ideal S10000x64 .bf16) (w : Vec Ideal S64x64 .bf16) (b : Vec Ideal S1x64 .f32)
    (agg : Vec Ideal S10000x64 .f32) (p : Fin 10000) (q : Fin 64) :
    k1_pay1 x0 w b agg (ix2 p q)
      = max (((∑ k : Fin 64, x0 (ix2 p k) * w (ix2 k q)) + b (ix2 0 q)) + agg (ix2 p q)) 0 := by
  unfold k1_pay1
  simp only [truncf_apply, maximumf_apply, addf_apply, broadcast_apply, shapeCast_self]
  rw [rootProduct_apply x0 w p q, biasRow_apply b p q]
  show max _ (Ideal.ofBits .f32 0x00000000#32) = _
  rw [Ideal.ofBits_zero_f32]

/-- The second layer's node body is the same arithmetic. -/
theorem combinePayload2_apply (x0 : Vec Ideal S10000x64 .bf16) (w : Vec Ideal S64x64 .bf16) (b : Vec Ideal S1x64 .f32)
    (agg : Vec Ideal S10000x64 .f32) (p : Fin 10000) (q : Fin 64) :
    k3_pay1 x0 w b agg (ix2 p q)
      = max (((∑ k : Fin 64, x0 (ix2 p k) * w (ix2 k q)) + b (ix2 0 q)) + agg (ix2 p q)) 0 :=
  combinePayload_apply x0 w b agg p q

/-- THE NODE BODY ON A BLOCK OF AN ARRAY. When row `p` of the feature block and of the aggregate block are row `n`
    of the whole arrays, and the matrix and bias the body loads are the whole root matrix and bias, the body's
    result at `(p, q)` is the new value of node `n` at feature `q`. -/
theorem combinePayload_eq_combAt {N : Nat} (x0 : Vec Ideal S10000x64 .bf16) (w : Vec Ideal S64x64 .bf16)
    (b : Vec Ideal S1x64 .f32) (agg : Vec Ideal S10000x64 .f32) (H : (⟨2, ![N, 64]⟩ : Shape).Idx → EReal)
    (Wm : (⟨2, ![64, 64]⟩ : Shape).Idx → EReal) (Bv : (⟨2, ![1, 64]⟩ : Shape).Idx → EReal)
    (A : (⟨2, ![N, 64]⟩ : Shape).Idx → EReal) (p : Fin 10000) (q : Fin 64) (n : Fin N)
    (h0 : ∀ k : Fin 64, x0 (ix2 p k) = H (ix2 n k)) (hw : ∀ k : Fin 64, w (ix2 k q) = Wm (ix2 k q))
    (hb : b (ix2 0 q) = Bv (ix2 0 q)) (h3 : agg (ix2 p q) = A (ix2 n q)) :
    k1_pay1 x0 w b agg (ix2 p q) = combAt H Wm Bv A n q := by
  rw [combinePayload_apply]
  unfold combAt
  simp only [h0, hw, hb, h3]

/-- The same for the second layer's node body. -/
theorem combinePayload2_eq_combAt {N : Nat} (x0 : Vec Ideal S10000x64 .bf16) (w : Vec Ideal S64x64 .bf16)
    (b : Vec Ideal S1x64 .f32) (agg : Vec Ideal S10000x64 .f32) (H : (⟨2, ![N, 64]⟩ : Shape).Idx → EReal)
    (Wm : (⟨2, ![64, 64]⟩ : Shape).Idx → EReal) (Bv : (⟨2, ![1, 64]⟩ : Shape).Idx → EReal)
    (A : (⟨2, ![N, 64]⟩ : Shape).Idx → EReal) (p : Fin 10000) (q : Fin 64) (n : Fin N)
    (h0 : ∀ k : Fin 64, x0 (ix2 p k) = H (ix2 n k)) (hw : ∀ k : Fin 64, w (ix2 k q) = Wm (ix2 k q))
    (hb : b (ix2 0 q) = Bv (ix2 0 q)) (h3 : agg (ix2 p q) = A (ix2 n q)) :
    k3_pay1 x0 w b agg (ix2 p q) = combAt H Wm Bv A n q :=
  combinePayload_eq_combAt x0 w b agg H Wm Bv A p q n h0 hw hb h3

end Cert.Rgcn

end
-- ==== Proof.Region1.lean ====
/-
  What the first node region leaves in its output array.

  The region walks 5 grid points. At point `t` it holds rows `10000 t … 10000 t + 9999` of the nodes' features and of
  what was aggregated at them, and the whole root matrix and bias row; the body writes, for each of those nodes, its
  new value; and the block is written back to the same rows of the output array. The blocks tile the 50000 rows (row
  `r` lies in the block of point `r / 10000`), so the array ends holding every node's new value: one function of the
  four arrays the region read.
-/
import proofs.«174245_j88648124990446_1_alg».proof.Proof.Gen.KernelIdeal.Frame
import proofs.«174245_j88648124990446_1_alg».proof.Proof.CombinePayload
import proofs.«174245_j88648124990446_1_alg».proof.Proof.RegionFns
import proofs.«174245_j88648124990446_1_alg».proof.Proof.BlockAccess
import Idealize.ShloMosaic.Lib.Pipeline.Value

noncomputable section

open scoped BigOperators

namespace Cert.Rgcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the first node region, decided over its 5 points: the feature, aggregate and output windows
    sit at block row `t`, column block 0; the matrix's and the bias's windows are the whole arrays at every point. -/
theorem node1_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the feature block at point `t` is row `10000 t + p` of the feature array. -/
theorem node1_features (c : Dev nD) (t : Fin cfg1.N) (p : Fin 10000) (k : Fin 64) (n : Fin 50000)
    (hn : n.val = t.val * 10000 + p.val) :
    (iblk1 V c 0 t : Vec Ideal S10000x64 .bf16) (ix2 p k) = (V c main_v14 : S50000x64.Idx → EReal) (ix2 n k) := by
  obtain ⟨e0, e1, -⟩ := node1_index t
  unfold iblk1
  rw [View.read_apply]
  show V c main_v14 _ = V c main_v14 _
  refine congrArg _ (funext fun a => Fin.ext ?_)
  match a with
  | ⟨0, _⟩ => show win1_0.index t (0 : Fin 2) * 10000 + 1 * p.val = n.val; rw [e0, hn]; omega
  | ⟨1, _⟩ => show win1_0.index t (1 : Fin 2) * 64 + 1 * k.val = k.val; rw [e1]; omega

/-- The matrix's block at every point is the whole root matrix. -/
theorem node1_matrix (c : Dev nD) (t : Fin cfg1.N) (z : S64x64.Idx) :
    (iblk1 V c 1 t : Vec Ideal S64x64 .bf16) z = (V c main_v30 : S64x64.Idx → EReal) z := by
  obtain ⟨-, -, e2, e3, -⟩ := node1_index t
  unfold iblk1
  rw [View.read_apply]
  show V c main_v30 _ = V c main_v30 _
  refine congrArg _ (funext fun a => Fin.ext ?_)
  match a with
  | ⟨0, _⟩ => show win1_1.index t (0 : Fin 2) * 64 + 1 * (z 0).val = (z 0).val; rw [e2]; omega
  | ⟨1, _⟩ => show win1_1.index t (1 : Fin 2) * 64 + 1 * (z 1).val = (z 1).val; rw [e3]; omega

/-- The bias's block at every point is the whole bias row. -/
theorem node1_bias (c : Dev nD) (t : Fin cfg1.N) (z : S1x64.Idx) :
    (iblk1 V c 2 t : Vec Ideal S1x64 .f32) z = (V c main_v31 : S1x64.Idx → EReal) z := by
  obtain ⟨-, -, -, -, e4, e5, -⟩ := node1_index t
  unfold iblk1
  rw [View.read_apply]
  show V c main_v31 _ = V c main_v31 _
  refine congrArg _ (funext fun a => Fin.ext ?_)
  match a with
  | ⟨0, _⟩ => show win1_2.index t (0 : Fin 2) * 1 + 1 * (z 0).val = (z 0).val; rw [e4]; omega
  | ⟨1, _⟩ => show win1_2.index t (1 : Fin 2) * 64 + 1 * (z 1).val = (z 1).val; rw [e5]; omega

/-- Row `p` of the aggregate block at point `t` is row `10000 t + p` of the aggregate array. -/
theorem node1_aggregate (c : Dev nD) (t : Fin cfg1.N) (p : Fin 10000) (q : Fin 64) (n : Fin 50000)
    (hn : n.val = t.val * 10000 + p.val) :
    (iblk1 V c 3 t : Vec Ideal S10000x64 .f32) (ix2 p q) = (V c main_v42 : S50000x64.Idx → EReal) (ix2 n q) := by
  obtain ⟨-, -, -, -, -, -, e6, e7, -⟩ := node1_index t
  unfold iblk1
  rw [View.read_apply]
  show V c main_v42 _ = V c main_v42 _
  refine congrArg _ (funext fun a => Fin.ext ?_)
  match a with
  | ⟨0, _⟩ => show win1_3.index t (0 : Fin 2) * 10000 + 1 * p.val = n.val; rw [e6, hn]; omega
  | ⟨1, _⟩ => show win1_3.index t (1 : Fin 2) * 64 + 1 * q.val = q.val; rw [e7]; omega

/-- WHAT POINT `t` WRITES BACK: block `t` of the nodes' new values, as a function of the four arrays the region
    read. -/
theorem node1_flushed (c : Dev nD) (t : Fin cfg1.N) :
    (dat1 V c).flushed 4 t
      = ((cfg1.win 4).blk t).view.read (Elt Ideal)
          (combFn (V c main_v14 : S50000x64.Idx → EReal) (V c main_v30 : S64x64.Idx → EReal)
            (V c main_v31 : S1x64.Idx → EReal) (V c main_v42 : S50000x64.Idx → EReal)) := by
  have ht : t.val < 5 := lt_of_lt_of_eq t.isLt N_1
  obtain ⟨-, -, -, -, -, -, -, -, e8, e9⟩ := node1_index t
  show (cfg1.win 4).cut (grid1.coords t) ((dat1 V c).after 4 t) = _
  rw [after1_4]
  unfold out1_4
  rw [View.canon_unit_zero zeroOff2]
  simp only [View.ld_unit_zero (S := S10000x64) zeroOff2, View.ld_unit_zero (S := S64x64) zeroOff2,
    View.ld_unit_zero (S := S1x64) zeroOff2]
  funext (j : S10000x64.Idx)
  obtain ⟨p, q, rfl⟩ : ∃ (p : Fin 10000) (q : Fin 64), j = ix2 p q := ⟨j 0, j 1, eq_ix2 j⟩
  have hrow : t.val * 10000 + p.val < 50000 := by have := p.isLt; omega
  have hemb : ((cfg1.win 4).blk t).view.emb (ix2 p q)
      = (ix2 (⟨t.val * 10000 + p.val, hrow⟩ : Fin 50000) q : S50000x64.Idx) := by
    funext a; apply Fin.ext
    match a with
    | ⟨0, _⟩ => show win1_4.index t (0 : Fin 2) * 10000 + 1 * p.val = t.val * 10000 + p.val; rw [e8]; omega
    | ⟨1, _⟩ => show win1_4.index t (1 : Fin 2) * 64 + 1 * q.val = q.val; rw [e9]; omega
  show k1_pay1 (iblk1 V c 0 t) (iblk1 V c 1 t) (iblk1 V c 2 t) (iblk1 V c 3 t) (ix2 p q)
    = combFn (V c main_v14 : S50000x64.Idx → EReal) (V c main_v30 : S64x64.Idx → EReal)
        (V c main_v31 : S1x64.Idx → EReal) (V c main_v42 : S50000x64.Idx → EReal)
        (((cfg1.win 4).blk t).view.emb (ix2 p q))
  rw [hemb, combFn_apply]
  exact combinePayload_eq_combAt (iblk1 V c 0 t) (iblk1 V c 1 t) (iblk1 V c 2 t) (iblk1 V c 3 t)
    (V c main_v14 : S50000x64.Idx → EReal) (V c main_v30 : S64x64.Idx → EReal)
    (V c main_v31 : S1x64.Idx → EReal) (V c main_v42 : S50000x64.Idx → EReal) p q ⟨t.val * 10000 + p.val, hrow⟩
    (fun k => node1_features V c t p k _ rfl) (fun k => node1_matrix V c t _) (node1_bias V c t _)
    (node1_aggregate V c t p q _ rfl)

/-- An index of the output array is in point `t`'s block iff each coordinate is in the block's range on its axis. -/
theorem node1_mem_blk (t : Fin cfg1.N) (i : S50000x64.Idx) :
    i ∈ ((cfg1.win 4).blk t).view.set
      ↔ ∀ a : Fin 2, win1_4.index t a * S10000x64.size a ≤ (i a).val
          ∧ (i a).val < win1_4.index t a * S10000x64.size a + S10000x64.size a := by
  show i ∈ ((View.whole main_v43).slice (win1_4.rect t)).set ↔ _
  rw [View.set_slice_whole, Rect.mem_set_unit]
  exact Iff.rfl

/-- Every row of the output array lies in the block of the point `row / 10000`. -/
theorem node1_cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  let t : Fin cfg1.N := ⟨(i 0).val / 10000, by rw [hN]; omega⟩
  obtain ⟨-, -, -, -, -, -, -, -, e8, e9⟩ := node1_index t
  have e8' : win1_4.index t (0 : Fin 2) = (i 0).val / 10000 := e8
  refine ⟨t, flush1_4 t, ?_⟩
  rw [node1_mem_blk]
  intro a
  match a with
  | ⟨0, _⟩ =>
    show win1_4.index t (0 : Fin 2) * 10000 ≤ (i 0).val ∧ (i 0).val < win1_4.index t (0 : Fin 2) * 10000 + 10000
    rw [e8']; omega
  | ⟨1, _⟩ =>
    show win1_4.index t (1 : Fin 2) * 64 ≤ (i 1).val ∧ (i 1).val < win1_4.index t (1 : Fin 2) * 64 + 64
    rw [e9]; omega

/-- THE OUTPUT ARRAY of the first node region: every node's new value, as one function of the features, the root
    matrix, the bias and the aggregate the region found on entry. -/
theorem region1_arr (c : Dev nD) :
    (dat1 V c).arrAt 4 cfg1.N = combFn (N := 50000) (V c main_v14) (V c main_v30) (V c main_v31) (V c main_v42) :=
  (dat1 V c).arrAt_eq_of_cover 4 _ (fun t _ => node1_flushed V c t) node1_cover

end Cert.Rgcn

end
-- ==== Proof.Region2.lean ====
/-
  What the second edge region leaves in its output array.

  The region walks 125 grid points. At point `t` it holds rows `10000 t … 10000 t + 9999` of the edges' gathered
  source features (rows of the first layer's node values) and of their relation weights, and the whole stack of the
  second layer's three relation matrices; the body writes, for each of those edges, its message; and the block is
  written back to the same rows of the output array. The blocks tile the 1250000 rows (row `r` lies in the block of
  point `r / 10000`), so the array ends holding every edge's message: one function of the three arrays the region read.
-/
import proofs.«174245_j88648124990446_1_alg».proof.Proof.Gen.KernelIdeal.Frame
import proofs.«174245_j88648124990446_1_alg».proof.Proof.EdgePayload
import proofs.«174245_j88648124990446_1_alg».proof.Proof.RegionFns
import proofs.«174245_j88648124990446_1_alg».proof.Proof.BlockAccess
import Idealize.ShloMosaic.Lib.Pipeline.Value

noncomputable section

open scoped BigOperators

namespace Cert.Rgcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the second edge region, decided over its 125 points: the feature, weight and output windows sit
    at block row `t`, column block 0; the matrix stack's window is the whole stack at every point. -/
theorem edge2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0 :=
  (by decide +kernel : ∀ t : Fin grid2.N, _)

/-- Row `p` of the feature block at point `t` is row `10000 t + p` of the feature array. -/
theorem edge2_features (c : Dev nD) (t : Fin cfg2.N) (p : Fin 10000) (k : Fin 64) (e : Fin 1250000)
    (he : e.val = t.val * 10000 + p.val) :
    (iblk2 V c 0 t : Vec Ideal S10000x64 .bf16) (ix2 p k) = (V c main_v53 : S1250000x64.Idx → EReal) (ix2 e k) := by
  obtain ⟨e0, e1, -⟩ := edge2_index t
  unfold iblk2
  rw [View.read_apply]
  show V c main_v53 _ = V c main_v53 _
  refine congrArg _ (funext fun a => Fin.ext ?_)
  match a with
  | ⟨0, _⟩ => show win2_0.index t (0 : Fin 2) * 10000 + 1 * p.val = e.val; rw [e0, he]; omega
  | ⟨1, _⟩ => show win2_0.index t (1 : Fin 2) * 64 + 1 * k.val = k.val; rw [e1]; omega

/-- Row `p` of the weight block at point `t` is row `10000 t + p` of the weight array. -/
theorem edge2_weights (c : Dev nD) (t : Fin cfg2.N) (p : Fin 10000) (r : Fin 3) (e : Fin 1250000)
    (he : e.val = t.val * 10000 + p.val) :
    (iblk2 V c 1 t : Vec Ideal S10000x3 .f32) (ix2 p r) = (V c main_v28 : S1250000x3.Idx → EReal) (ix2 e r) := by
  obtain ⟨-, -, e2, e3, -⟩ := edge2_index t
  unfold iblk2
  rw [View.read_apply]
  show V c main_v28 _ = V c main_v28 _
  refine congrArg _ (funext fun a => Fin.ext ?_)
  match a with
  | ⟨0, _⟩ => show win2_1.index t (0 : Fin 2) * 10000 + 1 * p.val = e.val; rw [e2, he]; omega
  | ⟨1, _⟩ => show win2_1.index t (1 : Fin 2) * 3 + 1 * r.val = r.val; rw [e3]; omega

/-- The matrix stack's block at every point is the whole stack. -/
theorem edge2_matrices (c : Dev nD) (t : Fin cfg2.N) (z : S3x64x64.Idx) :
    (iblk2 V c 2 t : Vec Ideal S3x64x64 .bf16) z = (V c main_v44 : S3x64x64.Idx → EReal) z := by
  obtain ⟨-, -, -, -, e4, e5, e6, -⟩ := edge2_index t
  unfold iblk2
  rw [View.read_apply]
  show V c main_v44 _ = V c main_v44 _
  refine congrArg _ (funext fun a => Fin.ext ?_)
  match a with
  | ⟨0, _⟩ => show win2_2.index t (0 : Fin 3) * 3 + 1 * (z 0).val = (z 0).val; rw [e4]; omega
  | ⟨1, _⟩ => show win2_2.index t (1 : Fin 3) * 64 + 1 * (z 1).val = (z 1).val; rw [e5]; omega
  | ⟨2, _⟩ => show win2_2.index t (2 : Fin 3) * 64 + 1 * (z 2).val = (z 2).val; rw [e6]; omega

/-- WHAT POINT `t` WRITES BACK: block `t` of the edges' messages, as a function of the three arrays the region
    read. -/
theorem edge2_flushed (c : Dev nD) (t : Fin cfg2.N) :
    (dat2 V c).flushed 3 t
      = ((cfg2.win 3).blk t).view.read (Elt Ideal)
          (edgeFn (V c main_v53 : S1250000x64.Idx → EReal) (V c main_v28 : S1250000x3.Idx → EReal)
            (V c main_v44 : S3x64x64.Idx → EReal)) := by
  have ht : t.val < 125 := lt_of_lt_of_eq t.isLt N_2
  obtain ⟨-, -, -, -, -, -, -, e7, e8⟩ := edge2_index t
  show (cfg2.win 3).cut (grid2.coords t) ((dat2 V c).after 3 t) = _
  rw [after2_3]
  unfold out2_3
  rw [View.canon_unit_zero zeroOff2]
  simp only [View.ld_unit_zero (S := S10000x64) zeroOff2, View.ld_unit_zero (S := S10000x3) zeroOff2]
  funext (j : S10000x64.Idx)
  obtain ⟨p, q, rfl⟩ : ∃ (p : Fin 10000) (q : Fin 64), j = ix2 p q := ⟨j 0, j 1, eq_ix2 j⟩
  have hrow : t.val * 10000 + p.val < 1250000 := by have := p.isLt; omega
  have hemb : ((cfg2.win 3).blk t).view.emb (ix2 p q)
      = (ix2 (⟨t.val * 10000 + p.val, hrow⟩ : Fin 1250000) q : S1250000x64.Idx) := by
    funext a; apply Fin.ext
    match a with
    | ⟨0, _⟩ => show win2_3.index t (0 : Fin 2) * 10000 + 1 * p.val = t.val * 10000 + p.val; rw [e7]; omega
    | ⟨1, _⟩ => show win2_3.index t (1 : Fin 2) * 64 + 1 * q.val = q.val; rw [e8]; omega
  show k2_pay1 (iblk2 V c 0 t) (iblk2 V c 1 t) (View.ld (iblk2 V c 2 t) r2_2) (View.ld (iblk2 V c 2 t) r2_3)
      (View.ld (iblk2 V c 2 t) r2_4) (ix2 p q)
    = edgeFn (V c main_v53 : S1250000x64.Idx → EReal) (V c main_v28 : S1250000x3.Idx → EReal)
        (V c main_v44 : S3x64x64.Idx → EReal) (((cfg2.win 3).blk t).view.emb (ix2 p q))
  rw [hemb, edgeFn_apply]
  exact edgePayload2_eq_edgeAt (iblk2 V c 0 t) (iblk2 V c 1 t) (View.ld (iblk2 V c 2 t) r2_2)
    (View.ld (iblk2 V c 2 t) r2_3) (View.ld (iblk2 V c 2 t) r2_4)
    (V c main_v53 : S1250000x64.Idx → EReal) (V c main_v28 : S1250000x3.Idx → EReal)
    (V c main_v44 : S3x64x64.Idx → EReal) p q ⟨t.val * 10000 + p.val, hrow⟩
    (fun k => edge2_features V c t p k _ rfl) (fun r => edge2_weights V c t p r _ rfl)
    (fun k => (stack_slab_apply (iblk2 V c 2 t) 0 0 rfl _ k q).trans (edge2_matrices V c t _))
    (fun k => (stack_slab_apply (iblk2 V c 2 t) 1 1 rfl _ k q).trans (edge2_matrices V c t _))
    (fun k => (stack_slab_apply (iblk2 V c 2 t) 2 2 rfl _ k q).trans (edge2_matrices V c t _))

/-- An index of the output array is in point `t`'s block iff each coordinate is in the block's range on its axis. -/
theorem edge2_mem_blk (t : Fin cfg2.N) (i : S1250000x64.Idx) :
    i ∈ ((cfg2.win 3).blk t).view.set
      ↔ ∀ a : Fin 2, win2_3.index t a * S10000x64.size a ≤ (i a).val
          ∧ (i a).val < win2_3.index t a * S10000x64.size a + S10000x64.size a := by
  show i ∈ ((View.whole main_v54).slice (win2_3.rect t)).set ↔ _
  rw [View.set_slice_whole, Rect.mem_set_unit]
  exact Iff.rfl

/-- Every row of the output array lies in the block of the point `row / 10000`. -/
theorem edge2_cover (i : S1250000x64.Idx) :
    ∃ t : Fin cfg2.N, (cfg2.win 3).flush t = true ∧ i ∈ ((cfg2.win 3).blk t).view.set := by
  have hi0 : (i 0).val < 1250000 := (i 0).isLt
  have hi1 : (i 1).val < 64 := (i 1).isLt
  have hN : cfg2.N = 125 := N_2
  let t : Fin cfg2.N := ⟨(i 0).val / 10000, by rw [hN]; omega⟩
  obtain ⟨-, -, -, -, -, -, -, e7, e8⟩ := edge2_index t
  have e7' : win2_3.index t (0 : Fin 2) = (i 0).val / 10000 := e7
  refine ⟨t, flush2_3 t, ?_⟩
  rw [edge2_mem_blk]
  intro a
  match a with
  | ⟨0, _⟩ =>
    show win2_3.index t (0 : Fin 2) * 10000 ≤ (i 0).val ∧ (i 0).val < win2_3.index t (0 : Fin 2) * 10000 + 10000
    rw [e7']; omega
  | ⟨1, _⟩ =>
    show win2_3.index t (1 : Fin 2) * 64 ≤ (i 1).val ∧ (i 1).val < win2_3.index t (1 : Fin 2) * 64 + 64
    rw [e8]; omega

/-- THE OUTPUT ARRAY of the second edge region: every edge's message, as one function of the gathered features, the
    relation weights and the relation matrices the region found on entry. -/
theorem region2_arr (c : Dev nD) :
    (dat2 V c).arrAt 3 cfg2.N = edgeFn (E := 1250000) (V c main_v53) (V c main_v28) (V c main_v44) :=
  (dat2 V c).arrAt_eq_of_cover 3 _ (fun t _ => edge2_flushed V c t) edge2_cover

end Cert.Rgcn

end
-- ==== Proof.Region3.lean ====
/-
  What the second node region leaves in its output array.

  The region walks 5 grid points. At point `t` it holds rows `10000 t … 10000 t + 9999` of the nodes' features and of
  what was aggregated at them, and the whole root matrix and bias row; the body writes, for each of those nodes, its
  new value; and the block is written back to the same rows of the output array. The blocks tile the 50000 rows (row
  `r` lies in the block of point `r / 10000`), so the array ends holding every node's new value: one function of the
  four arrays the region read.
-/
import proofs.«174245_j88648124990446_1_alg».proof.Proof.Gen.KernelIdeal.Frame
import proofs.«174245_j88648124990446_1_alg».proof.Proof.CombinePayload
import proofs.«174245_j88648124990446_1_alg».proof.Proof.RegionFns
import proofs.«174245_j88648124990446_1_alg».proof.Proof.BlockAccess
import Idealize.ShloMosaic.Lib.Pipeline.Value

noncomputable section

open scoped BigOperators

namespace Cert.Rgcn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the second node region, decided over its 5 points: the feature, aggregate and output windows
    sit at block row `t`, column block 0; the matrix's and the bias's windows are the whole arrays at every point. -/
theorem node3_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row `p` of the feature block at point `t` is row `10000 t + p` of the feature array. -/
theorem node3_features (c : Dev nD) (t : Fin cfg3.N) (p : Fin 10000) (k : Fin 64) (n : Fin 50000)
    (hn : n.val = t.val * 10000 + p.val) :
    (iblk3 V c 0 t : Vec Ideal S10000x64 .bf16) (ix2 p k) = (V c main_v43 : S50000x64.Idx → EReal) (ix2 n k) := by
  obtain ⟨e0, e1, -⟩ := node3_index t
  unfold iblk3
  rw [View.read_apply]
  show V c main_v43 _ = V c main_v43 _
  refine congrArg _ (funext fun a => Fin.ext ?_)
  match a with
  | ⟨0, _⟩ => show win3_0.index t (0 : Fin 2) * 10000 + 1 * p.val = n.val; rw [e0, hn]; omega
  | ⟨1, _⟩ => show win3_0.index t (1 : Fin 2) * 64 + 1 * k.val = k.val; rw [e1]; omega

/-- The matrix's block at every point is the whole root matrix. -/
theorem node3_matrix (c : Dev nD) (t : Fin cfg3.N) (z : S64x64.Idx) :
    (iblk3 V c 1 t : Vec Ideal S64x64 .bf16) z = (V c main_v45 : S64x64.Idx → EReal) z := by
  obtain ⟨-, -, e2, e3, -⟩ := node3_index t
  unfold iblk3
  rw [View.read_apply]
  show V c main_v45 _ = V c main_v45 _
  refine congrArg _ (funext fun a => Fin.ext ?_)
  match a with
  | ⟨0, _⟩ => show win3_1.index t (0 : Fin 2) * 64 + 1 * (z 0).val = (z 0).val; rw [e2]; omega
  | ⟨1, _⟩ => show win3_1.index t (1 : Fin 2) * 64 + 1 * (z 1).val = (z 1).val; rw [e3]; omega

/-- The bias's block at every point is the whole bias row. -/
theorem node3_bias (c : Dev nD) (t : Fin cfg3.N) (z : S1x64.Idx) :
    (iblk3 V c 2 t : Vec Ideal S1x64 .f32) z = (V c main_v46 : S1x64.Idx → EReal) z := by
  obtain ⟨-, -, -, -, e4, e5, -⟩ := node3_index t
  unfold iblk3
  rw [View.read_apply]
  show V c main_v46 _ = V c main_v46 _
  refine congrArg _ (funext fun a => Fin.ext ?_)
  match a with
  | ⟨0, _⟩ => show win3_2.index t (0 : Fin 2) * 1 + 1 * (z 0).val = (z 0).val; rw [e4]; omega
  | ⟨1, _⟩ => show win3_2.index t (1 : Fin 2) * 64 + 1 * (z 1).val = (z 1).val; rw [e5]; omega

/-- Row `p` of the aggregate block at point `t` is row `10000 t + p` of the aggregate array. -/
theorem node3_aggregate (c : Dev nD) (t : Fin cfg3.N) (p : Fin 10000) (q : Fin 64) (n : Fin 50000)
    (hn : n.val = t.val * 10000 + p.val) :
    (iblk3 V c 3 t : Vec Ideal S10000x64 .f32) (ix2 p q) = (V c main_v57 : S50000x64.Idx → EReal) (ix2 n q) := by
  obtain ⟨-, -, -, -, -, -, e6, e7, -⟩ := node3_index t
  unfold iblk3
  rw [View.read_apply]
  show V c main_v57 _ = V c main_v57 _
  refine congrArg _ (funext fun a => Fin.ext ?_)
  match a with
  | ⟨0, _⟩ => show win3_3.index t (0 : Fin 2) * 10000 + 1 * p.val = n.val; rw [e6, hn]; omega
  | ⟨1, _⟩ => show win3_3.index t (1 : Fin 2) * 64 + 1 * q.val = q.val; rw [e7]; omega

/-- WHAT POINT `t` WRITES BACK: block `t` of the nodes' new values, as a function of the four arrays the region
    read. -/
theorem node3_flushed (c : Dev nD) (t : Fin cfg3.N) :
    (dat3 V c).flushed 4 t
      = ((cfg3.win 4).blk t).view.read (Elt Ideal)
          (combFn (V c main_v43 : S50000x64.Idx → EReal) (V c main_v45 : S64x64.Idx → EReal)
            (V c main_v46 : S1x64.Idx → EReal) (V c main_v57 : S50000x64.Idx → EReal)) := by
  have ht : t.val < 5 := lt_of_lt_of_eq t.isLt N_3
  obtain ⟨-, -, -, -, -, -, -, -, e8, e9⟩ := node3_index t
  show (cfg3.win 4).cut (grid3.coords t) ((dat3 V c).after 4 t) = _
  rw [after3_4]
  unfold out3_4
  rw [View.canon_unit_zero zeroOff2]
  simp only [View.ld_unit_zero (S := S10000x64) zeroOff2, View.ld_unit_zero (S := S64x64) zeroOff2,
    View.ld_unit_zero (S := S1x64) zeroOff2]
  funext (j : S10000x64.Idx)
  obtain ⟨p, q, rfl⟩ : ∃ (p : Fin 10000) (q : Fin 64), j = ix2 p q := ⟨j 0, j 1, eq_ix2 j⟩
  have hrow : t.val * 10000 + p.val < 50000 := by have := p.isLt; omega
  have hemb : ((cfg3.win 4).blk t).view.emb (ix2 p q)
      = (ix2 (⟨t.val * 10000 + p.val, hrow⟩ : Fin 50000) q : S50000x64.Idx) := by
    funext a; apply Fin.ext
    match a with
    | ⟨0, _⟩ => show win3_4.index t (0 : Fin 2) * 10000 + 1 * p.val = t.val * 10000 + p.val; rw [e8]; omega
    | ⟨1, _⟩ => show win3_4.index t (1 : Fin 2) * 64 + 1 * q.val = q.val; rw [e9]; omega
  show k3_pay1 (iblk3 V c 0 t) (iblk3 V c 1 t) (iblk3 V c 2 t) (iblk3 V c 3 t) (ix2 p q)
    = combFn (V c main_v43 : S50000x64.Idx → EReal) (V c main_v45 : S64x64.Idx → EReal)
        (V c main_v46 : S1x64.Idx → EReal) (V c main_v57 : S50000x64.Idx → EReal)
        (((cfg3.win 4).blk t).view.emb (ix2 p q))
  rw [hemb, combFn_apply]
  exact combinePayload2_eq_combAt (iblk3 V c 0 t) (iblk3 V c 1 t) (iblk3 V c 2 t) (iblk3 V c 3 t)
    (V c main_v43 : S50000x64.Idx → EReal) (V c main_v45 : S64x64.Idx → EReal)
    (V c main_v46 : S1x64.Idx → EReal) (V c main_v57 : S50000x64.Idx → EReal) p q ⟨t.val * 10000 + p.val, hrow⟩
    (fun k => node3_features V c t p k _ rfl) (fun k => node3_matrix V c t _) (node3_bias V c t _)
    (node3_aggregate V c t p q _ rfl)

/-- An index of the output array is in point `t`'s block iff each coordinate is in the block's range on its axis. -/
theorem node3_mem_blk (t : Fin cfg3.N) (i : S50000x64.Idx) :
    i ∈ ((cfg3.win 4).blk t).view.set
      ↔ ∀ a : Fin 2, win3_4.index t a * S10000x64.size a ≤ (i a).val
          ∧ (i a).val < win3_4.index t a * S10000x64.size a + S10000x64.size a := by
  show i ∈ ((View.whole main_v58).slice (win3_4.rect t)).set ↔ _
  rw [View.set_slice_whole, Rect.mem_set_unit]
  exact Iff.rfl

/-- Every row of the output array lies in the block of the point `row / 10000`. -/
theorem node3_cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨-, -, -, -, -, -, -, -, e8, e9⟩ := node3_index t
  have e8' : win3_4.index t (0 : Fin 2) = (i 0).val / 10000 := e8
  refine ⟨t, flush3_4 t, ?_⟩
  rw [node3_mem_blk]
  intro a
  match a with
  | ⟨0, _⟩ =>
    show win3_4.index t (0 : Fin 2) * 10000 ≤ (i 0).val ∧ (i 0).val < win3_4.index t (0 : Fin 2) * 10000 + 10000
    rw [e8']; omega
  | ⟨1, _⟩ =>
    show win3_4.index t (1 : Fin 2) * 64 ≤ (i 1).val ∧ (i 1).val < win3_4.index t (1 : Fin 2) * 64 + 64
    rw [e9]; omega

/-- THE OUTPUT ARRAY of the second node region: every node's new value, as one function of the features, the root
    matrix, the bias and the aggregate the region found on entry. -/
theorem region3_arr (c : Dev nD) :
    (dat3 V c).arrAt 4 cfg3.N = combFn (N := 50000) (V c main_v43) (V c main_v45) (V c main_v46) (V c main_v57) :=
  (dat3 V c).arrAt_eq_of_cover 4 _ (fun t _ => node3_flushed V c t) node3_cover

end Cert.Rgcn

end
-- ==== Proof.KernelIs.lean ====
/-
  The idealized kernel program's result buffer is the specification's function of the argument arrays.

  The generated frame names the contents of every buffer at each boundary between a stretch of host operations and a
  pipelined region (`W0 … W11`). Walking those boundaries in program order, each buffer that a later segment reads is
  identified with a term of the specification over the argument arrays: a host operation's result is its function of its
  operands' contents, a region's output array is the region's whole-array function of its input arrays (the four region
  modules), and every other buffer is carried across unchanged.
-/
import proofs.«174245_j88648124990446_1_alg».proof.Proof.Gen.KernelIdeal.Frame
import proofs.«174245_j88648124990446_1_alg».proof.Proof.Spec
import proofs.«174245_j88648124990446_1_alg».proof.Proof.LibCallBuffers
import proofs.«174245_j88648124990446_1_alg».proof.Proof.Region0
import proofs.«174245_j88648124990446_1_alg».proof.Proof.Region1
import proofs.«174245_j88648124990446_1_alg».proof.Proof.Region2
import proofs.«174245_j88648124990446_1_alg».proof.Proof.Region3

set_option maxRecDepth 16384

noncomputable section

namespace Cert.Rgcn.Walk

open Cert.KernelIdeal Cert.KernelIdeal.Gen
open Idealize.ShloMosaic Idealize.ShloMosaic.TcCoe Idealize.SL.Sem Idealize.ShloMosaic.StableHlo

variable [Cert.KernelIdeal.Facts]
variable (m : (ℓ : Loc nD τ sig) → Buf (Elt Ideal) ℓ) (ρ : Dev nD → PrngReg) (c : Dev nD)

/-! ## Up to region 0's entry -/

theorem W3_v1 : W3 m ρ c (Proc.devRef .tc main_v1) = K.src (m ((c : Thread nD τ).loc main_arg1)) := by
  after_results_simp <;> (try simp only [StableHlo.TRef.ofBuf_toBuf]) <;> rfl

theorem W3_v3 : W3 m ρ c (Proc.devRef .tc main_v3) = K.dst (m ((c : Thread nD τ).loc main_arg1)) := by
  after_results_simp <;> (try simp only [StableHlo.TRef.ofBuf_toBuf]) <;> rfl

theorem W3_v14 : W3 m ρ c (Proc.devRef .tc main_v14) = K.emb (m ((c : Thread nD τ).loc main_arg0)) (m ((c : Thread nD τ).loc main_arg4)) := by
  after_results_simp <;> (try simp only [StableHlo.TRef.ofBuf_toBuf]) <;> rfl

theorem W3_v28 : W3 m ρ c (Proc.devRef .tc main_v28) = K.relw (m ((c : Thread nD τ).loc main_arg1)) (m ((c : Thread nD τ).loc main_arg2)) := by
  after_results_simp <;> (try simp only [StableHlo.TRef.ofBuf_toBuf]) <;> rfl

theorem W3_v29 : W3 m ρ c (Proc.devRef .tc main_v29) = (truncf .bf16 (m ((c : Thread nD τ).loc main_arg5)) bitsLt_bf16_f32 : FVec Ideal S3x64x64 .bf16) := by
  after_results_simp <;> (try simp only [StableHlo.TRef.ofBuf_toBuf]) <;> rfl

theorem W3_v30 : W3 m ρ c (Proc.devRef .tc main_v30) = (truncf .bf16 (m ((c : Thread nD τ).loc main_arg6)) bitsLt_bf16_f32 : FVec Ideal S64x64 .bf16) := by
  after_results_simp <;> (try simp only [StableHlo.TRef.ofBuf_toBuf]) <;> rfl

theorem W3_v31 : W3 m ρ c (Proc.devRef .tc main_v31) = (shapeCast S1x64 (m ((c : Thread nD τ).loc main_arg7)) shapeCasts_S64_S1x64 : FVec Ideal S1x64 .f32) := by
  after_results_simp <;> (try simp only [StableHlo.TRef.ofBuf_toBuf]) <;> rfl

theorem W3_v38 : W3 m ρ c (Proc.devRef .tc main_v38) = K.hsrc (K.emb (m ((c : Thread nD τ).loc main_arg0)) (m ((c : Thread nD τ).loc main_arg4))) (m ((c : Thread nD τ).loc main_arg1)) := by
  after_results_simp <;> (try simp only [StableHlo.TRef.ofBuf_toBuf]) <;> rfl

theorem W3_arg3 : W3 m ρ c (Proc.devRef .tc main_arg3) = (m ((c : Thread nD τ).loc main_arg3)) := by
  after_results_simp <;> (try simp only [StableHlo.TRef.ofBuf_toBuf]) <;> rfl

theorem W3_arg8 : W3 m ρ c (Proc.devRef .tc main_arg8) = (m ((c : Thread nD τ).loc main_arg8)) := by
  after_results_simp <;> (try simp only [StableHlo.TRef.ofBuf_toBuf]) <;> rfl

theorem W3_arg9 : W3 m ρ c (Proc.devRef .tc main_arg9) = (m ((c : Thread nD τ).loc main_arg9)) := by
  after_results_simp <;> (try simp only [StableHlo.TRef.ofBuf_toBuf]) <;> rfl

theorem W3_arg10 : W3 m ρ c (Proc.devRef .tc main_arg10) = (m ((c : Thread nD τ).loc main_arg10)) := by
  after_results_simp <;> (try simp only [StableHlo.TRef.ofBuf_toBuf]) <;> rfl

theorem W3_arg11 : W3 m ρ c (Proc.devRef .tc main_arg11) = (m ((c : Thread nD τ).loc main_arg11)) := by
  after_results_simp <;> (try simp only [StableHlo.TRef.ofBuf_toBuf]) <;> rfl

theorem W3_arg12 : W3 m ρ c (Proc.devRef .tc main_arg12) = (m ((c : Thread nD τ).loc main_arg12)) := by
  after_results_simp <;> (try simp only [StableHlo.TRef.ofBuf_toBuf]) <;> rfl

/-! ## Region 0: the first layer's edge messages -/

theorem W4_v39 : W4 m ρ c (Proc.devRef .tc main_v39) = (edgeFn (E := 1250000) (K.hsrc (K.emb (m ((c : Thread nD τ).loc main_arg0)) (m ((c : Thread nD τ).loc main_arg4))) (m ((c : Thread nD τ).loc main_arg1))) (K.relw (m ((c : Thread nD τ).loc main_arg1)) (m ((c : Thread nD τ).loc main_arg2))) (truncf .bf16 (m ((c : Thread nD τ).loc main_arg5)) bitsLt_bf16_f32 : FVec Ideal S3x64x64 .bf16) : FVec Ideal S1250000x64 .f32) := by
  refine (W4_arr m ρ c 3).trans ?_
  rw [region0_arr]
  show edgeFn (W3 m ρ c (Proc.devRef .tc main_v38)) (W3 m ρ c (Proc.devRef .tc main_v28)) (W3 m ρ c (Proc.devRef .tc main_v29)) = _
  rw [W3_v38, W3_v28, W3_v29]

/-- The edge weights are an input window of region 0: its array is as entered. -/
theorem W4_v28 : W4 m ρ c (Proc.devRef .tc main_v28) = K.relw (m ((c : Thread nD τ).loc main_arg1)) (m ((c : Thread nD τ).loc main_arg2)) :=
  (W4_arr m ρ c 1).trans (((dat0 (V3 m ρ) c).arrAt_in 1 rfl cfg0.N).trans ((A_eq0 (V3 m ρ) c 1).trans (W3_v28 m ρ c)))

theorem W4_v1 : W4 m ρ c (Proc.devRef .tc main_v1) = K.src (m ((c : Thread nD τ).loc main_arg1)) :=
  (W4_of_ne m ρ c main_v1 (by decide)).trans (W3_v1 m ρ c)

theorem W4_v3 : W4 m ρ c (Proc.devRef .tc main_v3) = K.dst (m ((c : Thread nD τ).loc main_arg1)) :=
  (W4_of_ne m ρ c main_v3 (by decide)).trans (W3_v3 m ρ c)

theorem W4_v14 : W4 m ρ c (Proc.devRef .tc main_v14) = K.emb (m ((c : Thread nD τ).loc main_arg0)) (m ((c : Thread nD τ).loc main_arg4)) :=
  (W4_of_ne m ρ c main_v14 (by decide)).trans (W3_v14 m ρ c)

theorem W4_v30 : W4 m ρ c (Proc.devRef .tc main_v30) = (truncf .bf16 (m ((c : Thread nD τ).loc main_arg6)) bitsLt_bf16_f32 : FVec Ideal S64x64 .bf16) :=
  (W4_of_ne m ρ c main_v30 (by decide)).trans (W3_v30 m ρ c)

theorem W4_v31 : W4 m ρ c (Proc.devRef .tc main_v31) = (shapeCast S1x64 (m ((c : Thread nD τ).loc main_arg7)) shapeCasts_S64_S1x64 : FVec Ideal S1x64 .f32) :=
  (W4_of_ne m ρ c main_v31 (by decide)).trans (W3_v31 m ρ c)

theorem W4_arg3 : W4 m ρ c (Proc.devRef .tc main_arg3) = (m ((c : Thread nD τ).loc main_arg3)) :=
  (W4_of_ne m ρ c main_arg3 (by decide)).trans (W3_arg3 m ρ c)

theorem W4_arg8 : W4 m ρ c (Proc.devRef .tc main_arg8) = (m ((c : Thread nD τ).loc main_arg8)) :=
  (W4_of_ne m ρ c main_arg8 (by decide)).trans (W3_arg8 m ρ c)

theorem W4_arg9 : W4 m ρ c (Proc.devRef .tc main_arg9) = (m ((c : Thread nD τ).loc main_arg9)) :=
  (W4_of_ne m ρ c main_arg9 (by decide)).trans (W3_arg9 m ρ c)

theorem W4_arg10 : W4 m ρ c (Proc.devRef .tc main_arg10) = (m ((c : Thread nD τ).loc main_arg10)) :=
  (W4_of_ne m ρ c main_arg10 (by decide)).trans (W3_arg10 m ρ c)

theorem W4_arg11 : W4 m ρ c (Proc.devRef .tc main_arg11) = (m ((c : Thread nD τ).loc main_arg11)) :=
  (W4_of_ne m ρ c main_arg11 (by decide)).trans (W3_arg11 m ρ c)

theorem W4_arg12 : W4 m ρ c (Proc.devRef .tc main_arg12) = (m ((c : Thread nD τ).loc main_arg12)) :=
  (W4_of_ne m ρ c main_arg12 (by decide)).trans (W3_arg12 m ρ c)

theorem W5_v42 : W5 m ρ c (Proc.devRef .tc main_v42) = K.agg (m ((c : Thread nD τ).loc main_arg1)) (edgeFn (E := 1250000) (K.hsrc (K.emb (m ((c : Thread nD τ).loc main_arg0)) (m ((c : Thread nD τ).loc main_arg4))) (m ((c : Thread nD τ).loc main_arg1))) (K.relw (m ((c : Thread nD τ).loc main_arg1)) (m ((c : Thread nD τ).loc main_arg2))) (truncf .bf16 (m ((c : Thread nD τ).loc main_arg5)) bitsLt_bf16_f32 : FVec Ideal S3x64x64 .bf16) : FVec Ideal S1250000x64 .f32) := by
  after_results_simp
  rw [W4_v39, W4_v3]
  try rfl

theorem W5_v1 : W5 m ρ c (Proc.devRef .tc main_v1) = K.src (m ((c : Thread nD τ).loc main_arg1)) := by
  after_results_simp <;> exact W4_v1 m ρ c

theorem W5_v3 : W5 m ρ c (Proc.devRef .tc main_v3) = K.dst (m ((c : Thread nD τ).loc main_arg1)) := by
  after_results_simp <;> exact W4_v3 m ρ c

theorem W5_v14 : W5 m ρ c (Proc.devRef .tc main_v14) = K.emb (m ((c : Thread nD τ).loc main_arg0)) (m ((c : Thread nD τ).loc main_arg4)) := by
  after_results_simp <;> exact W4_v14 m ρ c

theorem W5_v28 : W5 m ρ c (Proc.devRef .tc main_v28) = K.relw (m ((c : Thread nD τ).loc main_arg1)) (m ((c : Thread nD τ).loc main_arg2)) := by
  after_results_simp <;> exact W4_v28 m ρ c

theorem W5_v30 : W5 m ρ c (Proc.devRef .tc main_v30) = (truncf .bf16 (m ((c : Thread nD τ).loc main_arg6)) bitsLt_bf16_f32 : FVec Ideal S64x64 .bf16) := by
  after_results_simp <;> exact W4_v30 m ρ c

theorem W5_v31 : W5 m ρ c (Proc.devRef .tc main_v31) = (shapeCast S1x64 (m ((c : Thread nD τ).loc main_arg7)) shapeCasts_S64_S1x64 : FVec Ideal S1x64 .f32) := by
  after_results_simp <;> exact W4_v31 m ρ c

theorem W5_arg3 : W5 m ρ c (Proc.devRef .tc main_arg3) = (m ((c : Thread nD τ).loc main_arg3)) := by
  after_results_simp <;> exact W4_arg3 m ρ c

theorem W5_arg8 : W5 m ρ c (Proc.devRef .tc main_arg8) = (m ((c : Thread nD τ).loc main_arg8)) := by
  after_results_simp <;> exact W4_arg8 m ρ c

theorem W5_arg9 : W5 m ρ c (Proc.devRef .tc main_arg9) = (m ((c : Thread nD τ).loc main_arg9)) := by
  after_results_simp <;> exact W4_arg9 m ρ c

theorem W5_arg10 : W5 m ρ c (Proc.devRef .tc main_arg10) = (m ((c : Thread nD τ).loc main_arg10)) := by
  after_results_simp <;> exact W4_arg10 m ρ c

theorem W5_arg11 : W5 m ρ c (Proc.devRef .tc main_arg11) = (m ((c : Thread nD τ).loc main_arg11)) := by
  after_results_simp <;> exact W4_arg11 m ρ c

theorem W5_arg12 : W5 m ρ c (Proc.devRef .tc main_arg12) = (m ((c : Thread nD τ).loc main_arg12)) := by
  after_results_simp <;> exact W4_arg12 m ρ c

/-! ## Region 1: the first layer's node update -/

theorem W6_v43 : W6 m ρ c (Proc.devRef .tc main_v43) = K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) := by
  refine (W6_arr m ρ c 4).trans ?_
  rw [region1_arr]
  show combFn (W5 m ρ c (Proc.devRef .tc main_v14)) (W5 m ρ c (Proc.devRef .tc main_v30)) (W5 m ρ c (Proc.devRef .tc main_v31)) (W5 m ρ c (Proc.devRef .tc main_v42)) = _
  rw [W5_v14, W5_v30, W5_v31, W5_v42]
  try rfl

theorem W6_v1 : W6 m ρ c (Proc.devRef .tc main_v1) = K.src (m ((c : Thread nD τ).loc main_arg1)) :=
  (W6_of_ne m ρ c main_v1 (by decide)).trans (W5_v1 m ρ c)

theorem W6_v3 : W6 m ρ c (Proc.devRef .tc main_v3) = K.dst (m ((c : Thread nD τ).loc main_arg1)) :=
  (W6_of_ne m ρ c main_v3 (by decide)).trans (W5_v3 m ρ c)

theorem W6_v28 : W6 m ρ c (Proc.devRef .tc main_v28) = K.relw (m ((c : Thread nD τ).loc main_arg1)) (m ((c : Thread nD τ).loc main_arg2)) :=
  (W6_of_ne m ρ c main_v28 (by decide)).trans (W5_v28 m ρ c)

theorem W6_arg3 : W6 m ρ c (Proc.devRef .tc main_arg3) = (m ((c : Thread nD τ).loc main_arg3)) :=
  (W6_of_ne m ρ c main_arg3 (by decide)).trans (W5_arg3 m ρ c)

theorem W6_arg8 : W6 m ρ c (Proc.devRef .tc main_arg8) = (m ((c : Thread nD τ).loc main_arg8)) :=
  (W6_of_ne m ρ c main_arg8 (by decide)).trans (W5_arg8 m ρ c)

theorem W6_arg9 : W6 m ρ c (Proc.devRef .tc main_arg9) = (m ((c : Thread nD τ).loc main_arg9)) :=
  (W6_of_ne m ρ c main_arg9 (by decide)).trans (W5_arg9 m ρ c)

theorem W6_arg10 : W6 m ρ c (Proc.devRef .tc main_arg10) = (m ((c : Thread nD τ).loc main_arg10)) :=
  (W6_of_ne m ρ c main_arg10 (by decide)).trans (W5_arg10 m ρ c)

theorem W6_arg11 : W6 m ρ c (Proc.devRef .tc main_arg11) = (m ((c : Thread nD τ).loc main_arg11)) :=
  (W6_of_ne m ρ c main_arg11 (by decide)).trans (W5_arg11 m ρ c)

theorem W6_arg12 : W6 m ρ c (Proc.devRef .tc main_arg12) = (m ((c : Thread nD τ).loc main_arg12)) :=
  (W6_of_ne m ρ c main_arg12 (by decide)).trans (W5_arg12 m ρ c)

theorem W7_v44 : W7 m ρ c (Proc.devRef .tc main_v44) = (truncf .bf16 (m ((c : Thread nD τ).loc main_arg8)) bitsLt_bf16_f32 : FVec Ideal S3x64x64 .bf16) := by
  after_results_simp
  rw [W6_arg8]

theorem W7_v45 : W7 m ρ c (Proc.devRef .tc main_v45) = (truncf .bf16 (m ((c : Thread nD τ).loc main_arg9)) bitsLt_bf16_f32 : FVec Ideal S64x64 .bf16) := by
  after_results_simp
  rw [W6_arg9]

theorem W7_v46 : W7 m ρ c (Proc.devRef .tc main_v46) = (shapeCast S1x64 (m ((c : Thread nD τ).loc main_arg10)) shapeCasts_S64_S1x64 : FVec Ideal S1x64 .f32) := by
  after_results_simp
  rw [W6_arg10]
  try rfl

theorem W7_v53 : W7 m ρ c (Proc.devRef .tc main_v53) = K.hsrc (K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) := by
  after_results_simp
  rw [W6_v43, W6_v1]
  try rfl

theorem W7_v3 : W7 m ρ c (Proc.devRef .tc main_v3) = K.dst (m ((c : Thread nD τ).loc main_arg1)) := by
  after_results_simp <;> exact W6_v3 m ρ c

theorem W7_v28 : W7 m ρ c (Proc.devRef .tc main_v28) = K.relw (m ((c : Thread nD τ).loc main_arg1)) (m ((c : Thread nD τ).loc main_arg2)) := by
  after_results_simp <;> exact W6_v28 m ρ c

theorem W7_v43 : W7 m ρ c (Proc.devRef .tc main_v43) = K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) := by
  after_results_simp <;> exact W6_v43 m ρ c

theorem W7_arg3 : W7 m ρ c (Proc.devRef .tc main_arg3) = (m ((c : Thread nD τ).loc main_arg3)) := by
  after_results_simp <;> exact W6_arg3 m ρ c

theorem W7_arg11 : W7 m ρ c (Proc.devRef .tc main_arg11) = (m ((c : Thread nD τ).loc main_arg11)) := by
  after_results_simp <;> exact W6_arg11 m ρ c

theorem W7_arg12 : W7 m ρ c (Proc.devRef .tc main_arg12) = (m ((c : Thread nD τ).loc main_arg12)) := by
  after_results_simp <;> exact W6_arg12 m ρ c

/-! ## Region 2: the second layer's edge messages -/

theorem W8_v54 : W8 m ρ c (Proc.devRef .tc main_v54) = (edgeFn (E := 1250000) (K.hsrc (K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1))) (K.relw (m ((c : Thread nD τ).loc main_arg1)) (m ((c : Thread nD τ).loc main_arg2))) (truncf .bf16 (m ((c : Thread nD τ).loc main_arg8)) bitsLt_bf16_f32 : FVec Ideal S3x64x64 .bf16) : FVec Ideal S1250000x64 .f32) := by
  refine (W8_arr m ρ c 3).trans ?_
  rw [region2_arr]
  show edgeFn (W7 m ρ c (Proc.devRef .tc main_v53)) (W7 m ρ c (Proc.devRef .tc main_v28)) (W7 m ρ c (Proc.devRef .tc main_v44)) = _
  rw [W7_v53, W7_v28, W7_v44]

theorem W8_v3 : W8 m ρ c (Proc.devRef .tc main_v3) = K.dst (m ((c : Thread nD τ).loc main_arg1)) :=
  (W8_of_ne m ρ c main_v3 (by decide)).trans (W7_v3 m ρ c)

theorem W8_v43 : W8 m ρ c (Proc.devRef .tc main_v43) = K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) :=
  (W8_of_ne m ρ c main_v43 (by decide)).trans (W7_v43 m ρ c)

theorem W8_v45 : W8 m ρ c (Proc.devRef .tc main_v45) = (truncf .bf16 (m ((c : Thread nD τ).loc main_arg9)) bitsLt_bf16_f32 : FVec Ideal S64x64 .bf16) :=
  (W8_of_ne m ρ c main_v45 (by decide)).trans (W7_v45 m ρ c)

theorem W8_v46 : W8 m ρ c (Proc.devRef .tc main_v46) = (shapeCast S1x64 (m ((c : Thread nD τ).loc main_arg10)) shapeCasts_S64_S1x64 : FVec Ideal S1x64 .f32) :=
  (W8_of_ne m ρ c main_v46 (by decide)).trans (W7_v46 m ρ c)

theorem W8_arg3 : W8 m ρ c (Proc.devRef .tc main_arg3) = (m ((c : Thread nD τ).loc main_arg3)) :=
  (W8_of_ne m ρ c main_arg3 (by decide)).trans (W7_arg3 m ρ c)

theorem W8_arg11 : W8 m ρ c (Proc.devRef .tc main_arg11) = (m ((c : Thread nD τ).loc main_arg11)) :=
  (W8_of_ne m ρ c main_arg11 (by decide)).trans (W7_arg11 m ρ c)

theorem W8_arg12 : W8 m ρ c (Proc.devRef .tc main_arg12) = (m ((c : Thread nD τ).loc main_arg12)) :=
  (W8_of_ne m ρ c main_arg12 (by decide)).trans (W7_arg12 m ρ c)

theorem W9_v57 : W9 m ρ c (Proc.devRef .tc main_v57) = K.agg (m ((c : Thread nD τ).loc main_arg1)) (edgeFn (E := 1250000) (K.hsrc (K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1))) (K.relw (m ((c : Thread nD τ).loc main_arg1)) (m ((c : Thread nD τ).loc main_arg2))) (truncf .bf16 (m ((c : Thread nD τ).loc main_arg8)) bitsLt_bf16_f32 : FVec Ideal S3x64x64 .bf16) : FVec Ideal S1250000x64 .f32) := by
  after_results_simp
  rw [W8_v54, W8_v3]
  try rfl

theorem W9_v43 : W9 m ρ c (Proc.devRef .tc main_v43) = K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7)) := by
  after_results_simp <;> exact W8_v43 m ρ c

theorem W9_v45 : W9 m ρ c (Proc.devRef .tc main_v45) = (truncf .bf16 (m ((c : Thread nD τ).loc main_arg9)) bitsLt_bf16_f32 : FVec Ideal S64x64 .bf16) := by
  after_results_simp <;> exact W8_v45 m ρ c

theorem W9_v46 : W9 m ρ c (Proc.devRef .tc main_v46) = (shapeCast S1x64 (m ((c : Thread nD τ).loc main_arg10)) shapeCasts_S64_S1x64 : FVec Ideal S1x64 .f32) := by
  after_results_simp <;> exact W8_v46 m ρ c

theorem W9_arg3 : W9 m ρ c (Proc.devRef .tc main_arg3) = (m ((c : Thread nD τ).loc main_arg3)) := by
  after_results_simp <;> exact W8_arg3 m ρ c

theorem W9_arg11 : W9 m ρ c (Proc.devRef .tc main_arg11) = (m ((c : Thread nD τ).loc main_arg11)) := by
  after_results_simp <;> exact W8_arg11 m ρ c

theorem W9_arg12 : W9 m ρ c (Proc.devRef .tc main_arg12) = (m ((c : Thread nD τ).loc main_arg12)) := by
  after_results_simp <;> exact W8_arg12 m ρ c

/-! ## Region 3: the second layer's node update -/

theorem W10_v58 : W10 m ρ c (Proc.devRef .tc main_v58) = K.layer (K.layer (K.emb (m ((c : Thread nD τ).loc main_arg0)) (m ((c : Thread nD τ).loc main_arg4))) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) := by
  refine (W10_arr m ρ c 4).trans ?_
  rw [region3_arr]
  show combFn (W9 m ρ c (Proc.devRef .tc main_v43)) (W9 m ρ c (Proc.devRef .tc main_v45)) (W9 m ρ c (Proc.devRef .tc main_v46)) (W9 m ρ c (Proc.devRef .tc main_v57)) = _
  rw [W9_v43, W9_v45, W9_v46, W9_v57]
  try rfl

theorem W10_arg3 : W10 m ρ c (Proc.devRef .tc main_arg3) = (m ((c : Thread nD τ).loc main_arg3)) :=
  (W10_of_ne m ρ c main_arg3 (by decide)).trans (W9_arg3 m ρ c)

theorem W10_arg11 : W10 m ρ c (Proc.devRef .tc main_arg11) = (m ((c : Thread nD τ).loc main_arg11)) :=
  (W10_of_ne m ρ c main_arg11 (by decide)).trans (W9_arg11 m ρ c)

theorem W10_arg12 : W10 m ρ c (Proc.devRef .tc main_arg12) = (m ((c : Thread nD τ).loc main_arg12)) :=
  (W10_of_ne m ρ c main_arg12 (by decide)).trans (W9_arg12 m ρ c)

/-! ## The tail -/

/-- The result buffer at the last boundary is the specification's function of the arguments. -/
theorem W11_v75 : W11 m ρ c (Proc.devRef .tc main_v75) = K.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  after_results_simp
  rw [W10_v58, W10_arg3, W10_arg11, W10_arg12]
  try rfl

end Cert.Rgcn.Walk

end
-- ==== Proof.RefIs.lean ====
/-
  The reference's result is the specification's function of the arguments.

  The generated reading of the reference names each operation's value as a stage, a function of the arguments it depends
  on. The stage of the embedding gather is the specification's starting features; each `relu` stage is one layer of the
  stage before it; the last stage is the tail of the second layer. Each of these is a definitional unfolding.
-/
import proofs.«174245_j88648124990446_1_alg».proof.Proof.Gen.ReferenceIdeal.Read
import proofs.«174245_j88648124990446_1_alg».proof.Proof.Spec

set_option maxRecDepth 16384

noncomputable section

namespace Cert.Rgcn

open Idealize.ShloMosaic Cert.ReferenceIdeal Cert.ReferenceIdeal.Read

variable [Cert.ReferenceIdeal.Facts]

local notation "𝔹[" S ", " e "]" => BufTy.Contents (Elt Ideal) ⟨S, e⟩

variable (x0 : 𝔹[S50000, .i32]) (x1 : 𝔹[S2x1250000, .i32]) (x2 : 𝔹[S1250000, .i32]) (x3 : 𝔹[S50000, .i32])
  (x4 : 𝔹[S50000x64, .f32]) (x5 : 𝔹[S3x64x64, .f32]) (x6 : 𝔹[S64x64, .f32]) (x7 : 𝔹[S64, .f32])
  (x8 : 𝔹[S3x64x64, .f32]) (x9 : 𝔹[S64x64, .f32]) (x10 : 𝔹[S64, .f32]) (x11 : 𝔹[S64x2, .f32]) (x12 : 𝔹[S2, .f32])

/-- The embedding rows the layers start from. -/
theorem ref_emb : val_main_v13 (F := Ideal) x0 x4 = R.emb x0 x4 := rfl

/-- The first layer. -/
theorem ref_layer1 :
    val_main_v88 (F := Ideal) x0 x1 x2 x4 x5 x6 x7 = R.layer (val_main_v13 (F := Ideal) x0 x4) x1 x2 x5 x6 x7 := rfl

/-- The second layer. -/
theorem ref_layer2 :
    val_main_v163 (F := Ideal) x0 x1 x2 x4 x5 x6 x7 x8 x9 x10
      = R.layer (val_main_v88 (F := Ideal) x0 x1 x2 x4 x5 x6 x7) x1 x2 x8 x9 x10 := rfl

/-- The pooling and the final linear layer. -/
theorem ref_tail :
    val_main_v179 (F := Ideal) x0 x1 x2 x3 x4 x5 x6 x7 x8 x9 x10 x11 x12
      = R.tail (val_main_v163 (F := Ideal) x0 x1 x2 x4 x5 x6 x7 x8 x9 x10) x3 x11 x12 := rfl

/-- The reference's result stage is the specification's function. -/
theorem ref_res :
    val_main_v179 (F := Ideal) x0 x1 x2 x3 x4 x5 x6 x7 x8 x9 x10 x11 x12
      = R.res x0 x1 x2 x3 x4 x5 x6 x7 x8 x9 x10 x11 x12 := by
  rw [ref_tail, ref_layer2, ref_layer1, ref_emb]
  rfl

end Cert.Rgcn

end
-- ==== Proof.LayerAlgebra.lean ====
/-
  The aggregation law of a relational graph-convolution layer, on the extended reals.

  For a finite set of edges, relation products `A_r e`, relation indicators `m_r e` and divisors `c_r ≥ 1`,

      base + ∑_e ∑_r A_r e * (m_r e / c_r)  =  base + ∑_r (∑_e A_r e * m_r e) / c_r .

  Addition and multiplication of extended reals are commutative and associative, and a quotient by `c ≥ 1` is the product
  with `c⁻¹`, a nonnegative real (`0` when `c = ⊤`), which distributes over a finite sum of extended reals whatever
  infinities the terms hold. No finiteness of `A`, `m` or `base` is used. The sums appear as the programs compute them:
  each from a zero, the relations in the order 0, 1, 2.
-/
import Mathlib
import Idealize.ShloMosaic.PureOps.Ideal

noncomputable section

open scoped BigOperators

namespace Cert.Rgcn

open Idealize.ShloMosaic

/-- The inverse of an extended real that is at least one is a nonnegative real. -/
theorem inv_of_one_le {c : EReal} (hc : 1 ≤ c) : 0 ≤ c⁻¹ ∧ c⁻¹ ≠ ⊤ := by
  induction c using EReal.rec with
  | bot =>
    have hb : (⊥ : EReal) < 1 := by exact_mod_cast EReal.bot_lt_coe 1
    exact absurd hc (not_le.mpr hb)
  | top => simp
  | coe r =>
    have hr : (1 : ℝ) ≤ r := by exact_mod_cast hc
    rw [← EReal.coe_inv]
    exact ⟨by exact_mod_cast inv_nonneg.mpr (by linarith), EReal.coe_ne_top _⟩

/-- A quotient by an extended real that is at least one is the product with its inverse. -/
theorem div_of_one_le (x : EReal) {c : EReal} (hc : 1 ≤ c) : Ideal.div x c = x * c⁻¹ := by
  unfold Ideal.div
  rw [if_neg]
  intro h
  rw [h] at hc
  exact absurd hc (by exact_mod_cast (not_le.mpr (zero_lt_one : (0 : ℝ) < 1)))

/-- A nonnegative extended real other than `⊤` distributes over a finite sum. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- One relation: the summed masked products over `c ≥ 1` is the sum of each product times the edge's weight. -/
theorem div_sum_eq {ι : Type} (s : Finset ι) (A m : ι → EReal) {c : EReal} (hc : 1 ≤ c) :
    Ideal.div (0 + ∑ e ∈ s, A e * m e) c = ∑ e ∈ s, A e * Ideal.div (m e) c := by
  obtain ⟨hn, ht⟩ := inv_of_one_le hc
  rw [zero_add, div_of_one_le _ hc, mul_comm, mul_sum_of_nonneg s _ hn ht]
  refine Finset.sum_congr rfl fun e _ => ?_
  rw [div_of_one_le _ hc, mul_comm, mul_assoc]

/-- The layer's aggregation law: the per-edge messages summed at a node, against the per-relation normalised sums. -/
theorem agg_law {ι : Type} (s : Finset ι) (A0 A1 A2 m0 m1 m2 : ι → EReal) {c0 c1 c2 : EReal}
    (h0 : 1 ≤ c0) (h1 : 1 ≤ c1) (h2 : 1 ≤ c2) (base : EReal) :
    base + (0 + ∑ e ∈ s, (((0 + A0 e * Ideal.div (m0 e) c0) + A1 e * Ideal.div (m1 e) c1) + A2 e * Ideal.div (m2 e) c2))
      = ((base + Ideal.div (0 + ∑ e ∈ s, A0 e * m0 e) c0) + Ideal.div (0 + ∑ e ∈ s, A1 e * m1 e) c1)
          + Ideal.div (0 + ∑ e ∈ s, A2 e * m2 e) c2 := by
  rw [div_sum_eq s A0 m0 h0, div_sum_eq s A1 m1 h1, div_sum_eq s A2 m2 h2]
  simp only [zero_add, Finset.sum_add_distrib, add_assoc]

end Cert.Rgcn

end
-- ==== Proof.LibSegmentOps.lean ====
/-
  Segment sums and row gathers read at an index

  A graph layer sums, for every node, a value carried by each edge that ends at it, and reads, for every edge, a value
  carried by the node it starts from. In StableHLO the first is a `scatter` whose body adds, over an index array of shape
  `[M, 1]` (one node number per edge), and the second a `gather` over the same kind of index array. This file reads
  both at one element, at the ideal instance (a float is an extended real), for a vector of node values (`[N]`) and for
  a matrix of node rows (`[N, C]`):

  * `scatterAdd1_apply` / `scatterAdd2_apply`: element `i` (or `(i, o)`) of the accumulated array is the operand's
    element plus the sum, over the edges `e` whose index word read as a signed integer is `i`, of update `e` (or
    `(e, o)`); an edge whose index is outside `[0, N)` contributes to no element.
  * `gather1_apply` / `gather2_apply`: element `e` (or `(e, o)`) of the gathered array is the operand at the index word of
    edge `e` read as a signed integer and clamped into `[0, N - 1]`.

  The dimension numbers are abbreviations that take the proof of their side conditions as an argument, so a record with the
  same field lists is one of them by `rfl`.
-/
import Idealize.ShloMosaic.PureOps.Ideal
import Idealize.ShloMosaic.Lib.ValueIdx

noncomputable section

open scoped BigOperators

namespace Idealize.ShloMosaic.SegmentOps

open Idealize.ShloMosaic Idealize.ShloMosaic.ValueIdx

/-! ## Two general facts -/

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- An update index `j` lands at the operand index `i` exactly when, on every operand axis, the start read off the
    scatter indices plus the window coordinate is `i`'s coordinate (so in particular is inside the operand). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      simp only at h2
      have := h a
      omega
    · intro he
      refine congrArg some (funext fun a => Fin.ext ?_)
      have := he a
      simp only
      omega
  · rename_i h
    constructor
    · intro he; exact absurd he (by simp)
    · intro he
      exact absurd (fun a => by have := he a; have := (i a).isLt; omega) h

/-- An operand axis is kept by a scatter's window exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Gathering node values along the edges -/

section Gather
variable {α : Type}

/-- The dimension numbers of the gather of a vector of node values `[N]` at an index array `[M, 1]`: the one operand
    axis is collapsed and named by the start index map, every slice is one element, and the index vector lies along axis 1. -/
abbrev rowDims1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at edge `e`: the operand at the index word of `e`, read signed and clamped into
    `[0, N - 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowDims1 N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims1 N M wf).start (ix1 e) idx 0 + (rowDims1 N M wf).batchCoord (ix1 e) 0
    + (rowDims1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims1 N M wf).startIndexMap from List.mem_singleton.mpr rfl)]
  have hsi : (rowDims1 N M wf).siIdx (ix1 e) ⟨List.idxOf (0 : Fin 1) (rowDims1 N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of the gather of a matrix of node rows `[N, C]` at an index array `[M, 1]`: the row axis
    is collapsed and named by the start index map, a slice is one whole row, which fills the result's axis 1, and the index
    vector lies along axis 1. -/
abbrev rowDims2 (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows read at edge `e` and column `o`: column `o` of the operand's row at the index word of `e`, read
    signed and clamped into `[0, N - 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (o : Fin C) :
    Host.gather (rowDims2 N C M wf) x idx (ix2 e o)
      = x (ix2 ⟨min (idx (ix2 e 0)).toInt.toNat (N - 1), by omega⟩ o) := by
  unfold Host.gather
  congr 1
  funext a
  refine Fin.ext ?_
  match a with
  | ⟨0, _⟩ =>
    show (rowDims2 N C M wf).start (ix2 e o) idx 0 + (rowDims2 N C M wf).batchCoord (ix2 e o) 0
      + (rowDims2 N C M wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C M wf).startIndexMap from List.mem_singleton.mpr rfl)]
    have hsi : (rowDims2 N C M wf).siIdx (ix2 e o) ⟨List.idxOf (0 : Fin 2) (rowDims2 N C M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims2 N C M wf).start (ix2 e o) idx 1 + (rowDims2 N C M wf).batchCoord (ix2 e o) 1
      + (rowDims2 N C M wf).offCoord (ix2 e o) 1 = _
    have h1 : (1 : Fin 2) ∉ (rowDims2 N C M wf).startIndexMap := by
      intro h; exact absurd (List.mem_singleton.mp h) (show ¬((1 : Fin 2) = 0) by decide)
    have h2 : (1 : Fin 2) ∈ (rowDims2 N C M wf).sKept :=
      (GatherDims.mem_sKept _ _).mpr ⟨fun h => absurd (List.mem_singleton.mp h) (show ¬((1 : Fin 2) = 0) by decide), List.not_mem_nil⟩
    rw [GatherDims.batchCoord_eq_zero _ _ _ List.not_mem_nil]
    unfold GatherDims.start GatherDims.offCoord
    rw [dif_neg h1, dif_pos h2]
    simp only [Nat.add_zero, Nat.zero_add]
    rfl

end Gather

/-! ## Summing edge values into the nodes -/

section ScatterAdd
variable {φ : FTy}

/-- The dimension numbers of the accumulation of a vector of edge values `[M]` into a vector of node values `[N]` at an
    index array `[M, 1]`: an update is a single element (no window axis), the one operand axis is inserted and named by
    the index vector, which lies along axis 1. -/
abbrev addDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Edge `e`'s value lands at node `i` exactly when the index word of `e`, read signed, is `i`. -/
theorem addDims1_lands {N M w : Nat} (wf : ScatterDims.WF ⟨1, ![N]⟩ ⟨2, ![M, 1]⟩ ⟨1, ![M]⟩ [] [0] [0] 1)
    (idx : IVec ⟨2, ![M, 1]⟩ w) (e : Fin M) (i : Fin N) :
    (addDims1 N M wf).resultIdx? (ix1 e) idx = some (ix1 i) ↔ (idx (ix2 e 0)).toInt = (i.val : Int) := by
  rw [resultIdx?_eq_some_iff]
  have hstart : (addDims1 N M wf).start (ix1 e) idx 0 = (idx (ix2 e 0)).toInt := by
    unfold ScatterDims.start
    rw [dif_pos (show (0 : Fin 1) ∈ (addDims1 N M wf).scatterDimsToOperandDims from List.mem_singleton.mpr rfl)]
    have hsi : (addDims1 N M wf).siIdx (ix1 e) ⟨List.idxOf (0 : Fin 1) (addDims1 N M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (addDims1 N M wf).window (ix1 e) 0 = 0 := by
    unfold ScatterDims.window
    rw [dif_neg (fun h => (mem_sKept _ _).mp h (List.mem_singleton.mpr rfl))]
  constructor
  · intro h
    have h0 : (addDims1 N M wf).start (ix1 e) idx 0 + (((addDims1 N M wf).window (ix1 e) 0 : Nat) : Int)
        = (i.val : Int) := h 0
    rw [hstart, hwin] at h0
    simpa using h0
  · intro h a
    obtain rfl : a = 0 := Subsingleton.elim _ _
    show (addDims1 N M wf).start (ix1 e) idx 0 + (((addDims1 N M wf).window (ix1 e) 0 : Nat) : Int) = (i.val : Int)
    rw [hstart, hwin]
    simpa using h

/-- The accumulated vector read at node `i`: the operand's element plus the sum of the updates of the edges whose index
    word, read signed, is `i`. -/
theorem scatterAdd1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (addDims1 N M wf) x idx upd (ix1 i)
      = x (ix1 i) + ∑ e ∈ Finset.univ.filter (fun e : Fin M => (idx (ix2 e 0)).toInt = (i.val : Int)),
          upd (ix1 e) := by
  show Ideal.hostScatterAdd (addDims1 N M wf) x idx upd (ix1 i) = _
  unfold Ideal.hostScatterAdd
  congr 1
  rw [Finset.sum_filter, Finset.sum_filter, ← Equiv.sum_comp (idxEquiv1 (n := M)).symm]
  refine Finset.sum_congr rfl fun e _ => ?_
  show (if (addDims1 N M wf).resultIdx? (ix1 e) idx = some (ix1 i) then upd (ix1 e) else 0) = _
  by_cases h : (idx (ix2 e 0)).toInt = (i.val : Int)
  · rw [if_pos ((addDims1_lands wf idx e i).mpr h), if_pos h]
  · rw [if_neg (fun h' => h ((addDims1_lands wf idx e i).mp h')), if_neg h]

/-- The dimension numbers of the accumulation of a matrix of edge rows `[M, C]` into a matrix of node rows `[N, C]` at
    an index array `[M, 1]`: an update is one whole row (axis 1 of the updates is the window, laid on axis 1 of the
    operand), the row axis of the operand is inserted and named by the index vector, which lies along axis 1. -/
abbrev addDims2 (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Column `o'` of edge `e`'s row lands at column `o` of node `i` exactly when the index word of `e`, read signed, is
    `i` and the columns are the same. -/
theorem addDims2_lands {N C M w : Nat} (wf : ScatterDims.WF ⟨2, ![N, C]⟩ ⟨2, ![M, 1]⟩ ⟨2, ![M, C]⟩ [1] [0] [0] 1)
    (idx : IVec ⟨2, ![M, 1]⟩ w) (e : Fin M) (o' : Fin C) (i : Fin N) (o : Fin C) :
    (addDims2 N C M wf).resultIdx? (ix2 e o') idx = some (ix2 i o)
      ↔ (idx (ix2 e 0)).toInt = (i.val : Int) ∧ o' = o := by
  rw [resultIdx?_eq_some_iff]
  have hstart0 : (addDims2 N C M wf).start (ix2 e o') idx 0 = (idx (ix2 e 0)).toInt := by
    unfold ScatterDims.start
    rw [dif_pos (show (0 : Fin 2) ∈ (addDims2 N C M wf).scatterDimsToOperandDims from List.mem_singleton.mpr rfl)]
    have hsi : (addDims2 N C M wf).siIdx (ix2 e o') ⟨List.idxOf (0 : Fin 2) (addDims2 N C M wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (addDims2 N C M wf).start (ix2 e o') idx 1 = 0 := by
    unfold ScatterDims.start
    rw [dif_neg (fun h => absurd (List.mem_singleton.mp h) (show ¬((1 : Fin 2) = 0) by decide))]
  have hwin0 : (addDims2 N C M wf).window (ix2 e o') 0 = 0 := by
    unfold ScatterDims.window
    rw [dif_neg (fun h => (mem_sKept _ _).mp h (List.mem_singleton.mpr rfl))]
  have hwin1 : (addDims2 N C M wf).window (ix2 e o') 1 = o'.val := by
    unfold ScatterDims.window
    rw [dif_pos ((mem_sKept _ _).mpr
      (fun h => absurd (List.mem_singleton.mp h) (show ¬((1 : Fin 2) = 0) by decide)))]
    rfl
  constructor
  · intro h
    have h0 : (addDims2 N C M wf).start (ix2 e o') idx 0 + (((addDims2 N C M wf).window (ix2 e o') 0 : Nat) : Int)
        = (i.val : Int) := h 0
    have h1 : (addDims2 N C M wf).start (ix2 e o') idx 1 + (((addDims2 N C M wf).window (ix2 e o') 1 : Nat) : Int)
        = (o.val : Int) := h 1
    rw [hstart0, hwin0] at h0
    rw [hstart1, hwin1] at h1
    exact ⟨by simpa using h0, Fin.ext (by omega)⟩
  · rintro ⟨h, rfl⟩ a
    match a with
    | ⟨0, _⟩ =>
      show (addDims2 N C M wf).start (ix2 e o') idx 0 + (((addDims2 N C M wf).window (ix2 e o') 0 : Nat) : Int)
        = (i.val : Int)
      rw [hstart0, hwin0]
      simpa using h
    | ⟨1, _⟩ =>
      show (addDims2 N C M wf).start (ix2 e o') idx 1 + (((addDims2 N C M wf).window (ix2 e o') 1 : Nat) : Int)
        = (o'.val : Int)
      rw [hstart1, hwin1]
      simp

/-- The accumulated matrix read at node `i` and column `o`: the operand's element plus the sum, over the edges whose
    index word read signed is `i`, of column `o` of the edge's update row. -/
theorem scatterAdd2_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (o : Fin C) :
    Host.scatterAdd (F := Ideal) (φ := φ) (addDims2 N C M wf) x idx upd (ix2 i o)
      = x (ix2 i o) + ∑ e ∈ Finset.univ.filter (fun e : Fin M => (idx (ix2 e 0)).toInt = (i.val : Int)),
          upd (ix2 e o) := by
  show Ideal.hostScatterAdd (addDims2 N C M wf) x idx upd (ix2 i o) = _
  unfold Ideal.hostScatterAdd
  congr 1
  rw [Finset.sum_filter, Finset.sum_filter, sum_idx2]
  refine Finset.sum_congr rfl fun e _ => ?_
  by_cases h : (idx (ix2 e 0)).toInt = (i.val : Int)
  · rw [if_pos h, Finset.sum_eq_single o]
    · exact if_pos ((addDims2_lands wf idx e o i o).mpr ⟨h, rfl⟩)
    · intro b _ hb
      exact if_neg (fun h' => hb ((addDims2_lands wf idx e b i o).mp h').2)
    · intro ho
      exact absurd (Finset.mem_univ o) ho
  · rw [if_neg h]
    exact Finset.sum_eq_zero fun b _ => if_neg (fun h' => h ((addDims2_lands wf idx e b i o).mp h').1)

end ScatterAdd

end Idealize.ShloMosaic.SegmentOps

end
-- ==== Proof.LibEdgeLaw.lean ====
/-
  Symmetric-normalised message passing: the edge law, the degree weight, and the index wrap

  A graph layer with node weights `dis : [N]` sends, along every edge `e` from node `s e` to node `t e`, the source row
  scaled by `dis (s e) * dis (t e)`, and sums what arrives at each node. When every weight is a nonnegative real, the same
  array is obtained by scaling the table of rows by `dis` before the rows are read, and the summed rows by `dis` after:

      dis n * ∑_{e : t e = n} (h (s e, q) * dis (s e))  =  ∑_{e : t e = n} h (s e, q) * (dis (s e) * dis (t e)).

  On the extended reals multiplication is commutative and associative, but it distributes over a sum only for a factor
  that is a nonnegative real (`⊤ * (1 + (-1)) = 0` while `⊤ * 1 + ⊤ * (-1) = ⊤ + ⊥ = ⊥`, and `(-1) * (⊤ + ⊥) = ⊤` while
  `(-1) * ⊤ + (-1) * ⊥ = ⊥ + ⊤ = ⊥`); `mul_finset_sum` is that law for a finite sum, and `edge_law` is the statement above for a host scatter-add and host gathers over index columns
  `[M, 1]`.

  The weight of the layer is `where (deg > 0, rsqrt deg, 0)` for the in-degree `deg`. Whatever extended real `deg` is,
  this is a nonnegative real: at `⊥`, at a real `≤ 0` the comparison fails and the value is `0`; at a real `x > 0` it is
  `(√x)⁻¹`; at `⊤` it is `rsqrt ⊤ = 0` (`select_rsqrt_nonneg`, `degree_weight_nonneg`). The degree itself, a sum of ones
  over the edges that end at the node, is the number of those edges (`degree_apply`).

  A node number may be written negatively, counted from the end, and is then moved up by `N` before it is used:
  `where (a < 0, a + N, a)`. On a word whose signed value is a node number `n < N` this is the identity, so the clamped read
  position of the moved word is `n` (`wrap_nonneg_word`, `wrap_column_apply`).
-/
import Mathlib
import Idealize.ShloMosaic.PureOps.Ideal
import Idealize.ShloMosaic.PureOps.Ideal.Laws
import Idealize.ShloMosaic.Lib.ValueIdx
import proofs.«174245_j88648124990446_1_alg».proof.Proof.LibSegmentOps

noncomputable section

open scoped BigOperators

namespace Idealize.ShloMosaic.EdgeLaw

open Idealize.ShloMosaic Idealize.ShloMosaic.ValueIdx

/-! ## Distribution over a finite sum -/

/-- A nonnegative extended real other than `⊤` distributes over a finite sum of extended reals. -/
theorem mul_finset_sum {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- A nonnegative real distributes over a finite sum of extended reals. -/
theorem coe_mul_finset_sum {ι : Type} (s : Finset ι) (f : ι → EReal) {r : ℝ} (hr : 0 ≤ r) :
    (r : EReal) * ∑ i ∈ s, f i = ∑ i ∈ s, (r : EReal) * f i :=
  mul_finset_sum s f (EReal.coe_nonneg.mpr hr) (EReal.coe_ne_top r)

/-! ## The edge law -/

/-- Scaling every gathered row by `dis (src) * dis (dst)` before the per-destination sum equals scaling the table by
    `dis` before the gather and the summed rows by `dis` after, when every weight is a nonnegative real. `dstCol` is the
    index column the sum is taken over and `dstW` the column the destination weight is read at; `hw` says that an edge
    that lands at node `n` reads the weight of node `n`. -/
theorem edge_law {N C M : Nat} (hN : 0 < N)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (wfg : GatherDims.WF ⟨1, ![N]⟩ ⟨2, ![M, 1]⟩ ⟨1, ![M]⟩ [] [0] [] [0] [] 1 ![1])
    (dis : (⟨1, ![N]⟩ : Shape).Idx → EReal)
    (hdis : ∀ n : Fin N, ∃ r : ℝ, 0 ≤ r ∧ dis (ix1 n) = (r : EReal))
    (h hd z : (⟨2, ![N, C]⟩ : Shape).Idx → EReal) (hz : ∀ i, z i = 0)
    (hhd : ∀ (r : Fin N) (q : Fin C), hd (ix2 r q) = h (ix2 r q) * dis (ix1 r))
    (srcW dstW dstCol : IVec ⟨2, ![M, 1]⟩ 32)
    (hw : ∀ (e : Fin M) (n : Fin N), (dstCol (ix2 e 0)).toInt = (n.val : Int) →
      min (dstW (ix2 e 0)).toInt.toNat (N - 1) = n.val)
    (u u' : (⟨2, ![M, C]⟩ : Shape).Idx → EReal)
    (hu : ∀ (e : Fin M) (q : Fin C),
      u (ix2 e q) = Host.gather (SegmentOps.rowDims2 N C M wfG) hd srcW (ix2 e q))
    (hu' : ∀ (e : Fin M) (q : Fin C),
      u' (ix2 e q) = Host.gather (SegmentOps.rowDims2 N C M wfG) h srcW (ix2 e q)
        * (Host.gather (SegmentOps.rowDims1 N M wfg) dis srcW (ix1 e)
          * Host.gather (SegmentOps.rowDims1 N M wfg) dis dstW (ix1 e)))
    (n : Fin N) (q : Fin C) :
    dis (ix1 n) * Host.scatterAdd (F := Ideal) (φ := .f32) (SegmentOps.addDims2 N C M wfS) z dstCol u (ix2 n q)
      = Host.scatterAdd (F := Ideal) (φ := .f32) (SegmentOps.addDims2 N C M wfS) z dstCol u' (ix2 n q) := by
  rw [SegmentOps.scatterAdd2_apply, SegmentOps.scatterAdd2_apply, hz, zero_add, zero_add]
  obtain ⟨r, hr, hdn⟩ := hdis n
  rw [hdn, coe_mul_finset_sum _ _ hr, ← hdn]
  refine Finset.sum_congr rfl fun e he => ?_
  have he' : (dstCol (ix2 e 0)).toInt = (n.val : Int) := (Finset.mem_filter.mp he).2
  have hfin : (⟨min (dstW (ix2 e 0)).toInt.toNat (N - 1), by omega⟩ : Fin N) = n := Fin.ext (hw e n he')
  rw [hu, hu', SegmentOps.gather2_apply hN, SegmentOps.gather2_apply hN, SegmentOps.gather1_apply hN,
    SegmentOps.gather1_apply hN, hhd, hfin]
  rw [mul_comm (dis (ix1 n)), mul_assoc]

/-! ## The degree weight is a nonnegative real -/

/-- `where (x > 0, rsqrt x, 0)` is a nonnegative real at every extended real `x`: `0` when `x` is `⊥` or a real `≤ 0`,
    `(√x)⁻¹` at a real `x > 0`, and `rsqrt ⊤ = 0` at `⊤`. -/
theorem select_rsqrt_nonneg (x : EReal) :
    ∃ r : ℝ, 0 ≤ r ∧ Scalar.select (Ideal.cmp .ogt x 0) (Ideal.rsqrt x) (0 : EReal) = (r : EReal) := by
  induction x using EReal.rec with
  | bot => exact ⟨0, le_refl _, by simp [Ideal.cmp, Scalar.select]⟩
  | top => exact ⟨0, le_refl _, by simp [Ideal.cmp, Scalar.select]⟩
  | coe r0 =>
    by_cases h : 0 < r0
    · refine ⟨(Real.sqrt r0)⁻¹, inv_nonneg.mpr (Real.sqrt_nonneg _), ?_⟩
      have h' : (0 : EReal) < (r0 : EReal) := by exact_mod_cast h
      simp [Ideal.cmp, Scalar.select, h', Ideal.rsqrt_coe, not_lt.mpr h.le, h.ne']
    · refine ⟨0, le_refl _, ?_⟩
      have h' : ¬ (0 : EReal) < (r0 : EReal) := by exact_mod_cast h
      simp [Ideal.cmp, Scalar.select, h']

/-- The array `where (deg > 0, rsqrt deg, 0)`, with the host's reciprocal square root, is a nonnegative real at every
    index, for any array `deg` of extended reals, `zeroA` and `zeroB` being arrays of zeros. -/
theorem degree_weight_nonneg {s : Shape} (deg zeroA zeroB : s.Idx → EReal)
    (hzA : ∀ i, zeroA i = 0) (hzB : ∀ i, zeroB i = 0) (i : s.Idx) :
    ∃ r : ℝ, 0 ≤ r ∧
      select (cmpf (F := Ideal) (φ := .f32) .ogt deg zeroA) (Host.rsqrt (F := Ideal) (φ := .f32) deg) zeroB i
        = (r : EReal) := by
  rw [select_apply, cmpf_apply, hzA, hzB]
  exact select_rsqrt_nonneg (deg i)

/-- The weight of a node whose degree is accumulated by a host scatter-add over an index column is a nonnegative
    real. -/
theorem scatter_degree_weight_nonneg {N M : Nat}
    (wfs : ScatterDims.WF ⟨1, ![N]⟩ ⟨2, ![M, 1]⟩ ⟨1, ![M]⟩ [] [0] [0] 1)
    (z1 zeroA zeroB : (⟨1, ![N]⟩ : Shape).Idx → EReal) (hzA : ∀ i, zeroA i = 0) (hzB : ∀ i, zeroB i = 0)
    (dstCol : IVec ⟨2, ![M, 1]⟩ 32) (ones : (⟨1, ![M]⟩ : Shape).Idx → EReal) (n : Fin N) :
    ∃ r : ℝ, 0 ≤ r ∧
      select (cmpf (F := Ideal) (φ := .f32) .ogt
          (Host.scatterAdd (F := Ideal) (φ := .f32) (SegmentOps.addDims1 N M wfs) z1 dstCol ones) zeroA)
        (Host.rsqrt (F := Ideal) (φ := .f32)
          (Host.scatterAdd (F := Ideal) (φ := .f32) (SegmentOps.addDims1 N M wfs) z1 dstCol ones)) zeroB (ix1 n)
        = (r : EReal) :=
  degree_weight_nonneg _ zeroA zeroB hzA hzB (ix1 n)

/-- A finite sum of ones in the extended reals is the number of terms. -/
theorem sum_one_eq_card {ι : Type} (s : Finset ι) : ∑ _i ∈ s, (1 : EReal) = ((s.card : ℝ) : EReal) := by
  classical
  induction s using Finset.induction_on with
  | empty => simp
  | insert a s ha ih =>
    rw [Finset.sum_insert ha, ih, Finset.card_insert_of_notMem ha]
    push_cast
    exact add_comm _ _

/-- The degree of node `n`, accumulated from zero by adding one per edge, is the number of edges whose index word read
    as a signed integer is `n`. -/
theorem degree_apply {N M : Nat} (wfs : ScatterDims.WF ⟨1, ![N]⟩ ⟨2, ![M, 1]⟩ ⟨1, ![M]⟩ [] [0] [0] 1)
    (z1 : (⟨1, ![N]⟩ : Shape).Idx → EReal) (hz1 : ∀ i, z1 i = 0)
    (ones : (⟨1, ![M]⟩ : Shape).Idx → EReal) (hones : ∀ i, ones i = 1)
    (dstCol : IVec ⟨2, ![M, 1]⟩ 32) (n : Fin N) :
    Host.scatterAdd (F := Ideal) (φ := .f32) (SegmentOps.addDims1 N M wfs) z1 dstCol ones (ix1 n)
      = (((Finset.univ.filter (fun e : Fin M => (dstCol (ix2 e 0)).toInt = (n.val : Int))).card : ℝ) : EReal) := by
  rw [SegmentOps.scatterAdd1_apply, hz1, zero_add, Finset.sum_congr rfl (fun e _ => hones (ix1 e)), sum_one_eq_card]

/-! ## The wrap of a negative index is the identity on a node number -/

/-- A word whose signed value is a node number `n < N` is read, clamped into `[0, N - 1]`, at `n`. -/
theorem clamp_of_toInt_eq {N n : Nat} (hn : n < N) (a : BitVec 32) (ha : a.toInt = (n : Int)) :
    min a.toInt.toNat (N - 1) = n := by
  rw [ha]
  simp only [Int.toNat_natCast]
  omega

/-- `where (a < 0, a + N, a)` on a word whose signed value is a node number `n < N`: the comparison fails, the word is
    kept, and its clamped read position is `n`. -/
theorem wrap_nonneg_word {N n : Nat} (hn : n < N) (a : BitVec 32) (ha : a.toInt = (n : Int)) :
    min (Scalar.select (IntOp.cmpi .slt a 0#32) (IntOp.addi a (BitVec.ofNat 32 N)) a).toInt.toNat (N - 1) = n := by
  have hs : a.slt 0#32 = false := by
    simp [BitVec.slt, ha]
  have hc : IntOp.cmpi .slt a 0#32 = 0#1 := by
    simp [IntOp.cmpi, hs]
  rw [hc, select_zero]
  exact clamp_of_toInt_eq hn a ha

/-- The array form: for an array `d` of index words, `zeroI` an array of zero words and `cN` an array of the word `N`,
    the array `where (d < 0, d + N, d)` read at an index where `d`'s signed value is a node number `n < N` is, clamped
    into `[0, N - 1]`, the number `n`. -/
theorem wrap_column_apply {s : Shape} {N : Nat} (d zeroI cN : IVec s 32)
    (hz : ∀ i, zeroI i = 0#32) (hc : ∀ i, cN i = BitVec.ofNat 32 N) (i : s.Idx) (n : Fin N)
    (h : (d i).toInt = (n.val : Int)) :
    min ((select (cmpi .slt d zeroI) (addi d cN) d) i).toInt.toNat (N - 1) = n.val := by
  rw [select_apply]
  show min (Scalar.select (IntOp.cmpi .slt (d i) (zeroI i)) (IntOp.addi (d i) (cN i)) (d i)).toInt.toNat (N - 1)
    = n.val
  rw [hz, hc]
  exact wrap_nonneg_word n.isLt (d i) h

/-- The same for an index column `[M, 1]`, in the form the edge law's hypothesis on the two destination columns takes:
    an edge whose raw destination word is the node number `n` reads, through the moved column, the weight of node `n`. -/
theorem wrap_column_hw {M N : Nat} (d zeroI cN : IVec ⟨2, ![M, 1]⟩ 32)
    (hz : ∀ i, zeroI i = 0#32) (hc : ∀ i, cN i = BitVec.ofNat 32 N) :
    ∀ (e : Fin M) (n : Fin N), (d (ix2 e 0)).toInt = (n.val : Int) →
      min ((select (cmpi .slt d zeroI) (addi d cN) d) (ix2 e 0)).toInt.toNat (N - 1) = n.val :=
  fun e n h => wrap_column_apply d zeroI cN hz hc (ix2 e 0) n h

/-- When the sum and the weight are read over the same column, an edge that lands at node `n` reads the weight of
    node `n`. -/
theorem same_column_hw {M N : Nat} (w : IVec ⟨2, ![M, 1]⟩ 32) :
    ∀ (e : Fin M) (n : Fin N), (w (ix2 e 0)).toInt = (n.val : Int) →
      min (w (ix2 e 0)).toInt.toNat (N - 1) = n.val :=
  fun e n h => clamp_of_toInt_eq n.isLt (w (ix2 e 0)) h

end Idealize.ShloMosaic.EdgeLaw

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«174245_j88648124990446_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibFakeQuant.lean ====
import Idealize.ShloMosaic.PureOps.Ideal
import Idealize.ShloMosaic.PureOps.Ideal.Laws

/-!
# Fake quantisation on the extended reals

General facts about floats read as extended reals (`EReal`), where every float operation is its
exact textbook operation and a division by zero answers an infinity.

* Straight-through rounding `x + (round x - x)` of a real `x` IS `round x`, and the rounding of a
  real is a real.
* Multiplying by the reciprocal `1 / s` is dividing by `s` when `s ≠ 0`; a quotient of reals by a
  nonzero real is a real.
* The fake-quantise law: clamp (round (x · (1 / s))) · s and clamp (q + (round q - q)) · s with
  `q = x / s` are the same extended real for ALL real `x` and `s` — for `s ≠ 0` by the two facts
  above, for `s = 0` because both are a product with `0`, which is `0` on the extended reals.
  The clamp of anything to real bounds is a real, so each such result is a real.
* The routing threshold: `1 / (1 + e^(-a)) ≥ 1/2` exactly when `a ≥ 0`.
* The blend `m · c + (1 - m) · d` with `m ∈ {0, 1}` selects `c` or `d`, whatever `c` and `d` are.
* A finite sum of reals, and of products of reals, is a real.
* The values of the IEEE single-precision patterns of `0`, `1/2`, `1`, `127`, `-127`, `255`, `-∞`.
-/

namespace Idealize.ShloMosaic.FakeQuant

open Idealize.ShloMosaic

/-! ### Rounding -/

/-- A rounding of a real is a real: the integer the rounding picks. -/
theorem liftRound_coe_eq (f : ℝ → ℤ) (x : ℝ) :
    Ideal.liftRound f ((x : ℝ) : EReal) = (((f x : ℤ) : ℝ) : EReal) := rfl

/-- A rounding of a real is a real. -/
theorem liftRound_coe_isReal (f : ℝ → ℤ) (x : ℝ) :
    ∃ r : ℝ, Ideal.liftRound f ((x : ℝ) : EReal) = ((r : ℝ) : EReal) := ⟨_, rfl⟩

/-- Round-to-nearest-even of a real is a real. -/
theorem roundeven_coe_isReal (x : ℝ) :
    ∃ r : ℝ, Ideal.liftRound Ideal.roundHalfEven ((x : ℝ) : EReal) = ((r : ℝ) : EReal) := ⟨_, rfl⟩

/-- Straight-through rounding of a real is the rounding: `x + (f x - x) = f x`, the subtraction
    and the addition being exact on the reals. -/
theorem ste_liftRound (f : ℝ → ℤ) (x : ℝ) :
    ((x : ℝ) : EReal) + (Ideal.liftRound f ((x : ℝ) : EReal) - ((x : ℝ) : EReal))
      = Ideal.liftRound f ((x : ℝ) : EReal) := by
  rw [Ideal.liftRound_coe, ← EReal.coe_sub, ← EReal.coe_add]
  congr 1
  ring

/-- Straight-through round-to-nearest-even of a real is round-to-nearest-even. -/
theorem ste_roundeven (x : ℝ) :
    ((x : ℝ) : EReal)
        + (Ideal.liftRound Ideal.roundHalfEven ((x : ℝ) : EReal) - ((x : ℝ) : EReal))
      = Ideal.liftRound Ideal.roundHalfEven ((x : ℝ) : EReal) :=
  ste_liftRound _ x

/-! ### Division off zero -/

/-- The quotient of reals by a nonzero real is the real quotient. -/
theorem div_coe_of_ne_zero (x s : ℝ) (hs : s ≠ 0) :
    Ideal.div ((x : ℝ) : EReal) ((s : ℝ) : EReal) = (((x / s : ℝ)) : EReal) := by
  rw [Ideal.div, if_neg (EReal.coe_ne_zero.2 hs), ← EReal.coe_inv, ← EReal.coe_mul, div_eq_mul_inv]

/-- The quotient of reals by a nonzero real is a real. -/
theorem div_coe_isReal (x s : ℝ) (hs : s ≠ 0) :
    ∃ r : ℝ, Ideal.div ((x : ℝ) : EReal) ((s : ℝ) : EReal) = ((r : ℝ) : EReal) :=
  ⟨_, div_coe_of_ne_zero x s hs⟩

/-- The reciprocal of a nonzero real is the real reciprocal. -/
theorem div_one_coe_of_ne_zero (s : ℝ) (hs : s ≠ 0) :
    Ideal.div 1 ((s : ℝ) : EReal) = (((s⁻¹ : ℝ)) : EReal) := by
  rw [Ideal.div, if_neg (EReal.coe_ne_zero.2 hs), one_mul, ← EReal.coe_inv]

/-- Scaling by the reciprocal is dividing, off zero. -/
theorem mul_div_one_eq_div (x s : ℝ) (hs : s ≠ 0) :
    ((x : ℝ) : EReal) * Ideal.div 1 ((s : ℝ) : EReal)
      = Ideal.div ((x : ℝ) : EReal) ((s : ℝ) : EReal) := by
  rw [Ideal.div, Ideal.div, if_neg (EReal.coe_ne_zero.2 hs), if_neg (EReal.coe_ne_zero.2 hs), one_mul]

/-! ### The fake-quantise law -/

/-- The embedding of the reals preserves `min`. -/
theorem coe_min (a b : ℝ) : ((min a b : ℝ) : EReal) = min ((a : ℝ) : EReal) ((b : ℝ) : EReal) :=
  EReal.coe_strictMono.monotone.map_min

/-- The embedding of the reals preserves `max`. -/
theorem coe_max (a b : ℝ) : ((max a b : ℝ) : EReal) = max ((a : ℝ) : EReal) ((b : ℝ) : EReal) :=
  EReal.coe_strictMono.monotone.map_max

/-- A clamp to real bounds is a real, whatever is clamped (an infinity included): the result
    lies between `min hi lo` and `hi`. -/
theorem clamp_isReal (lo hi : ℝ) (y : EReal) :
    ∃ r : ℝ, min ((hi : ℝ) : EReal) (max ((lo : ℝ) : EReal) y) = ((r : ℝ) : EReal) := by
  induction y using EReal.rec with
  | bot => exact ⟨min hi lo, by rw [max_bot_right, coe_min]⟩
  | top => exact ⟨hi, by rw [max_top_right, min_top_right]⟩
  | coe y => exact ⟨min hi (max lo y), by rw [coe_min, coe_max]⟩

/-- The law for an arbitrary post-processing `c` of the rounded value (a clamp, in any argument
    order): rounding the product with the reciprocal, and straight-through rounding of the
    quotient, give the same extended real once multiplied back by the scale — for a nonzero scale
    because the two rounded values agree, for a zero scale because both sides are a product
    with `0`. -/
theorem fakeQuant_mul_law (c : EReal → EReal) (x s : ℝ) :
    c (Ideal.liftRound Ideal.roundHalfEven (((x : ℝ) : EReal) * Ideal.div 1 ((s : ℝ) : EReal)))
        * ((s : ℝ) : EReal)
      = c (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal)))
        * ((s : ℝ) : EReal) := by
  by_cases hs : s = 0
  · subst hs
    rw [EReal.coe_zero, mul_zero, mul_zero]
  · rw [mul_div_one_eq_div x s hs, div_coe_of_ne_zero x s hs, ste_roundeven]

/-- The law where both sides divide (the weight form). -/
theorem fakeQuant_div_law (c : EReal → EReal) (x s : ℝ) :
    c (Ideal.liftRound Ideal.roundHalfEven (Ideal.div ((x : ℝ) : EReal) ((s : ℝ) : EReal)))
        * ((s : ℝ) : EReal)
      = c (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal)))
        * ((s : ℝ) : EReal) := by
  by_cases hs : s = 0
  · subst hs
    rw [EReal.coe_zero, mul_zero, mul_zero]
  · rw [div_coe_of_ne_zero x s hs, ste_roundeven]

/-- THE FAKE-QUANTISE LAW, activation form, for all real `x` and `s` (zero scale included) and
    any bounds: `min hi (max lo (round (x · (1 / s)))) · s` is
    `min hi (max lo (q + (round q - q))) · s` with `q = x / s`. -/
theorem fakeQuant_mul (lo hi : EReal) (x s : ℝ) :
    min hi (max lo
        (Ideal.liftRound Ideal.roundHalfEven (((x : ℝ) : EReal) * Ideal.div 1 ((s : ℝ) : EReal))))
        * ((s : ℝ) : EReal)
      = min hi (max lo
          (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal))))
        * ((s : ℝ) : EReal) :=
  fakeQuant_mul_law (fun y => min hi (max lo y)) x s

/-- THE FAKE-QUANTISE LAW, weight form (both sides divide), for all real `x` and `s`. -/
theorem fakeQuant_div (lo hi : EReal) (x s : ℝ) :
    min hi (max lo
        (Ideal.liftRound Ideal.roundHalfEven (Ideal.div ((x : ℝ) : EReal) ((s : ℝ) : EReal))))
        * ((s : ℝ) : EReal)
      = min hi (max lo
          (Ideal.div ((x : ℝ) : EReal) ((s : ℝ) : EReal)
            + (Ideal.liftRound Ideal.roundHalfEven (Ideal.div ((x : ℝ) : EReal) ((s : ℝ) : EReal))
                - Ideal.div ((x : ℝ) : EReal) ((s : ℝ) : EReal))))
        * ((s : ℝ) : EReal) :=
  fakeQuant_div_law (fun y => min hi (max lo y)) x s

/-- A clamp to real bounds times a real scale is a real, whatever is clamped. -/
theorem clamp_mul_isReal (lo hi s : ℝ) (y : EReal) :
    ∃ r : ℝ, min ((hi : ℝ) : EReal) (max ((lo : ℝ) : EReal) y) * ((s : ℝ) : EReal)
      = ((r : ℝ) : EReal) := by
  obtain ⟨r, hr⟩ := clamp_isReal lo hi y
  exact ⟨r * s, by rw [hr, EReal.coe_mul]⟩

/-- With real bounds the activation form's value is a real. -/
theorem fakeQuant_mul_isReal (lo hi x s : ℝ) :
    ∃ r : ℝ, min ((hi : ℝ) : EReal) (max ((lo : ℝ) : EReal)
        (Ideal.liftRound Ideal.roundHalfEven (((x : ℝ) : EReal) * Ideal.div 1 ((s : ℝ) : EReal))))
        * ((s : ℝ) : EReal) = ((r : ℝ) : EReal) :=
  clamp_mul_isReal lo hi s _

/-- With real bounds the weight form's value is a real. -/
theorem fakeQuant_div_isReal (lo hi x s : ℝ) :
    ∃ r : ℝ, min ((hi : ℝ) : EReal) (max ((lo : ℝ) : EReal)
        (Ideal.liftRound Ideal.roundHalfEven (Ideal.div ((x : ℝ) : EReal) ((s : ℝ) : EReal))))
        * ((s : ℝ) : EReal) = ((r : ℝ) : EReal) :=
  clamp_mul_isReal lo hi s _

/-- With real bounds the straight-through form's value is a real. -/
theorem fakeQuant_ste_isReal (lo hi x s : ℝ) :
    ∃ r : ℝ, min ((hi : ℝ) : EReal) (max ((lo : ℝ) : EReal)
        (Ideal.div ((x : ℝ) : EReal) ((s : ℝ) : EReal)
          + (Ideal.liftRound Ideal.roundHalfEven (Ideal.div ((x : ℝ) : EReal) ((s : ℝ) : EReal))
              - Ideal.div ((x : ℝ) : EReal) ((s : ℝ) : EReal))))
        * ((s : ℝ) : EReal) = ((r : ℝ) : EReal) :=
  clamp_mul_isReal lo hi s _

/-! ### The routing threshold -/

/-- On the reals `1/2 ≤ 1 / (1 + e^(-a))` exactly when `0 ≤ a`: the denominator is at most `2`
    exactly when `e^(-a) ≤ 1`. -/
theorem half_le_logistic_iff (a : ℝ) :
    (((1 / 2 : ℝ)) : EReal) ≤ Ideal.logistic ((a : ℝ) : EReal) ↔ (0 : EReal) ≤ ((a : ℝ) : EReal) := by
  have hpos : (0 : ℝ) < 1 + Real.exp (-a) := by positivity
  rw [Ideal.logistic_coe, EReal.coe_le_coe_iff, EReal.coe_nonneg, ← one_div, le_div_iff₀ hpos]
  constructor
  · intro h
    have h1 : Real.exp (-a) ≤ 1 := by linarith
    have h2 := Real.exp_le_one_iff.mp h1
    linarith
  · intro h
    have h1 : Real.exp (-a) ≤ 1 := Real.exp_le_one_iff.mpr (by linarith)
    linarith

/-- The routing threshold: comparing the logistic of a real with `1/2` is comparing the real
    with `0`. -/
theorem cmp_oge_logistic_half (a : ℝ) :
    Ideal.cmp .oge (Ideal.logistic ((a : ℝ) : EReal)) (((1 / 2 : ℝ)) : EReal)
      = Ideal.cmp .oge ((a : ℝ) : EReal) 0 := by
  simp only [Ideal.cmp]
  rw [decide_eq_decide.mpr (half_le_logistic_iff a)]

/-- The same with the logistic written out as `1 / (1 + e^(-a))`. -/
theorem cmp_oge_div_one_add_exp_neg_half (a : ℝ) :
    Ideal.cmp .oge (Ideal.div 1 (1 + Ideal.exp (-((a : ℝ) : EReal)))) (((1 / 2 : ℝ)) : EReal)
      = Ideal.cmp .oge ((a : ℝ) : EReal) 0 :=
  cmp_oge_logistic_half a

/-- The threshold as a statement about the answer bit. -/
theorem cmp_oge_logistic_half_eq_one_iff (a : ℝ) :
    Ideal.cmp .oge (Ideal.logistic ((a : ℝ) : EReal)) (((1 / 2 : ℝ)) : EReal) = 1#1
      ↔ Ideal.cmp .oge ((a : ℝ) : EReal) 0 = 1#1 := by
  rw [cmp_oge_logistic_half]

/-! ### IEEE single-precision patterns -/

/-- The pattern of `0.0`. -/
theorem ofBits_f32_zero : Ideal.ofBits .f32 0x00000000#32 = 0 := Ideal.ofBits_zero_f32

/-- The pattern of `1.0`. -/
theorem ofBits_f32_one : Ideal.ofBits .f32 0x3F800000#32 = 1 := by
  simp [Ideal.ofBits, Ideal.ieee, -EReal.coe_mul]; norm_num

/-- The pattern of `0.5`. -/
theorem ofBits_f32_half : Ideal.ofBits .f32 0x3F000000#32 = (((1 / 2 : ℝ)) : EReal) := by
  simp [Ideal.ofBits, Ideal.ieee, -EReal.coe_mul]; norm_num

/-- The pattern of `127.0`. -/
theorem ofBits_f32_127 : Ideal.ofBits .f32 0x42FE0000#32 = (((127 : ℝ)) : EReal) := by
  simp [Ideal.ofBits, Ideal.ieee, -EReal.coe_mul]; norm_num

/-- The pattern of `-127.0`. -/
theorem ofBits_f32_neg127 : Ideal.ofBits .f32 0xC2FE0000#32 = (((-127 : ℝ)) : EReal) := by
  simp [Ideal.ofBits, Ideal.ieee, -EReal.coe_mul]; norm_num

/-- The pattern of `255.0`. -/
theorem ofBits_f32_255 : Ideal.ofBits .f32 0x437F0000#32 = (((255 : ℝ)) : EReal) := by
  simp [Ideal.ofBits, Ideal.ieee, -EReal.coe_mul]; norm_num

/-- The pattern of `-∞`. -/
theorem ofBits_f32_neg_inf : Ideal.ofBits .f32 0xFF800000#32 = ⊥ := by
  simp [Ideal.ofBits, Ideal.ieee]

/-- The routing threshold with the constants as the programs spell them: `1.0 / (1.0 + e^(-a))`
    against the pattern of `0.5`, and `a` against the pattern of `0.0`. -/
theorem cmp_oge_logistic_half_bits (a : ℝ) :
    Ideal.cmp .oge
        (Ideal.div (Ideal.ofBits .f32 0x3F800000#32)
          (Ideal.ofBits .f32 0x3F800000#32 + Ideal.exp (-((a : ℝ) : EReal))))
        (Ideal.ofBits .f32 0x3F000000#32)
      = Ideal.cmp .oge ((a : ℝ) : EReal) (Ideal.ofBits .f32 0x00000000#32) := by
  rw [ofBits_f32_one, ofBits_f32_half, ofBits_f32_zero]
  exact cmp_oge_logistic_half a

/-! ### The blend -/

/-- A `{0, 1}`-valued mask blends by selection, whatever the two blended values are (an infinity
    included): `1 · c + 0 · d = c` and `0 · c + 1 · d = d`, a product with `0` being `0`. -/
theorem blend_eq_ite (m c d : EReal) (hm : m = 1 ∨ m = 0) :
    m * c + (1 - m) * d = if m = 1 then c else d := by
  have h11 : (1 : EReal) - 1 = 0 := by
    rw [← EReal.coe_one, ← EReal.coe_sub, sub_self, EReal.coe_zero]
  have h10 : (1 : EReal) - 0 = 1 := by
    rw [← EReal.coe_one, ← EReal.coe_zero, ← EReal.coe_sub, sub_zero]
  rcases hm with rfl | rfl
  · rw [if_pos rfl, h11, one_mul, zero_mul, add_zero]
  · rw [if_neg (zero_ne_one), h10, zero_mul, one_mul, zero_add]

/-- The blend at mask `1`. -/
theorem blend_one (c d : EReal) : (1 : EReal) * c + (1 - 1) * d = c := by
  rw [blend_eq_ite 1 c d (Or.inl rfl), if_pos rfl]

/-- The blend at mask `0`. -/
theorem blend_zero (c d : EReal) : (0 : EReal) * c + (1 - 0) * d = d := by
  rw [blend_eq_ite 0 c d (Or.inr rfl), if_neg zero_ne_one]

/-! ### Finite sums of reals -/

/-- A finite sum of reals is the real sum. -/
theorem coe_finset_sum {ι : Type*} (t : Finset ι) (f : ι → ℝ) :
    ∑ k ∈ t, ((f k : ℝ) : EReal) = (((∑ k ∈ t, f k : ℝ)) : EReal) := by
  classical
  induction t using Finset.induction_on with
  | empty => simp
  | insert a t ha ih => rw [Finset.sum_insert ha, Finset.sum_insert ha, ih, EReal.coe_add]

/-- A sum over `Fin n` of reals is the real sum. -/
theorem coe_fin_sum {n : ℕ} (f : Fin n → ℝ) :
    ∑ k, ((f k : ℝ) : EReal) = (((∑ k, f k : ℝ)) : EReal) :=
  coe_finset_sum Finset.univ f

/-- A finite sum of reals is a real. -/
theorem fin_sum_isReal {n : ℕ} (f : Fin n → ℝ) :
    ∃ r : ℝ, ∑ k, ((f k : ℝ) : EReal) = ((r : ℝ) : EReal) := ⟨_, coe_fin_sum f⟩

/-- A finite sum of products of reals is the real sum of products. -/
theorem coe_fin_sum_mul {n : ℕ} (a b : Fin n → ℝ) :
    ∑ k, ((a k : ℝ) : EReal) * ((b k : ℝ) : EReal) = (((∑ k, a k * b k : ℝ)) : EReal) := by
  rw [← coe_fin_sum]
  exact Finset.sum_congr rfl fun k _ => (EReal.coe_mul _ _).symm

/-- A finite sum of products of reals is a real. -/
theorem fin_sum_mul_isReal {n : ℕ} (a b : Fin n → ℝ) :
    ∃ r : ℝ, ∑ k, ((a k : ℝ) : EReal) * ((b k : ℝ) : EReal) = ((r : ℝ) : EReal) :=
  ⟨_, coe_fin_sum_mul a b⟩

/-- A sum of reals over any finite index type is the real sum. -/
theorem coe_fintype_sum {ι : Type*} [Fintype ι] (f : ι → ℝ) :
    ∑ k, ((f k : ℝ) : EReal) = (((∑ k, f k : ℝ)) : EReal) :=
  coe_finset_sum Finset.univ f

/-- The same over any finite index type. -/
theorem coe_fintype_sum_mul {ι : Type*} [Fintype ι] (a b : ι → ℝ) :
    ∑ k, ((a k : ℝ) : EReal) * ((b k : ℝ) : EReal) = (((∑ k, a k * b k : ℝ)) : EReal) := by
  rw [← coe_finset_sum]
  exact Finset.sum_congr rfl fun k _ => (EReal.coe_mul _ _).symm

end Idealize.ShloMosaic.FakeQuant
-- ==== Proof.LayerReads.lean ====
/-
  One layer of the two programs is the same function of the node features.

  Every operation of the two forms of a layer (Spec.lean) is read at an index: a per-destination sum is the sum over the
  edges whose destination word is the node; a gather of rows reads the row at the (moved and clamped) word; the indicator
  matrix's column `r` is the indicator vector of relation `r`; an edge that ends at node `n` reads the counts of node
  `n`. At node `n` and feature `q` the two forms are then the two sides of the aggregation law (LayerAlgebra.lean), the
  divisors being maxima with one.
-/
import proofs.«174245_j88648124990446_1_alg».proof.Proof.Spec
import proofs.«174245_j88648124990446_1_alg».proof.Proof.LayerAlgebra
import proofs.«174245_j88648124990446_1_alg».proof.Proof.LibSegmentOps
import proofs.«174245_j88648124990446_1_alg».proof.Proof.LibEdgeLaw
import proofs.«174245_j88648124990446_1_alg».proof.Proof.LibPlainDot
import proofs.«174245_j88648124990446_1_alg».proof.Proof.LibHostReads
import Idealize.ShloMosaic.Lib.ValueLayout
import Idealize.ShloMosaic.Lib.IdealHost
import proofs.«174245_j88648124990446_1_alg».proof.Proof.LibFakeQuant

set_option maxRecDepth 65536

noncomputable section

open scoped BigOperators

namespace Cert.Rgcn

open Idealize.ShloMosaic Idealize.ShloMosaic.ValueIdx

variable [Cert.KernelIdeal.Facts] [Cert.ReferenceIdeal.Facts]

open Cert.KernelIdeal.Facts₀ Cert.KernelIdeal.Facts

abbrev SE : Shape := ⟨1, ![1250000]⟩
abbrev SE1 : Shape := ⟨2, ![1250000, 1]⟩
abbrev SE3 : Shape := ⟨2, ![1250000, 3]⟩
abbrev SEC : Shape := ⟨2, ![1250000, 64]⟩
abbrev SNC : Shape := ⟨2, ![50000, 64]⟩
abbrev SN3 : Shape := ⟨2, ![50000, 3]⟩
abbrev SW : Shape := ⟨3, ![3, 64, 64]⟩
abbrev SCC : Shape := ⟨2, ![64, 64]⟩
abbrev SC : Shape := ⟨1, ![64]⟩
abbrev SA1 : Shape := ⟨2, ![2, 1250000]⟩

/-! ## The shared pieces are the same in both programs -/

theorem src_eq (a1 : IVec SA1 32) : K.src a1 = R.src a1 := rfl
theorem dst_eq (a1 : IVec SA1 32) : K.dst a1 = R.dst a1 := rfl
theorem wrapE_eq (s : IVec SE 32) : K.wrapE s = R.wrapE s := rfl
theorem colE_eq (s : IVec SE 32) : K.colE s = R.colE s := rfl
theorem hsrc_eq (h : SNC.Idx → EReal) (a1 : IVec SA1 32) : K.hsrc h a1 = R.hsrc h a1 := rfl
theorem agg_eq (a1 : IVec SA1 32) (msg : SEC.Idx → EReal) : K.agg a1 msg = R.agg a1 msg := rfl

/-! ## Small readings -/

/-- The host's quotient at an index. -/
theorem hostDivf_apply {s : Shape} {φ : FTy} (a b : FVec Ideal s φ) (i : s.Idx) :
    Host.divf a b i = Ideal.div (a i) (b i) := rfl

/-- A scalar placed everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- The pattern of the float one is one. -/
theorem ofBits_one_f32 : Ideal.ofBits .f32 0x3F800000#32 = 1 := FakeQuant.ofBits_f32_one

/-- The edges that end at node `n`: those whose destination word, read signed, is `n`. -/
def ends (a1 : IVec SA1 32) (n : Fin 50000) : Finset (Fin 1250000) :=
  Finset.univ.filter (fun e : Fin 1250000 => (K.dst a1 (ix1 e)).toInt = (n.val : Int))

theorem colE_apply (s : IVec SE 32) (e : Fin 1250000) : K.colE s (ix2 e 0) = s (ix1 e) :=
  HostReads.bcast_toCol_apply _ s e 0

/-- An edge that ends at node `n` reads, through the moved and clamped destination column, position `n`. -/
theorem wrap_dst_of_ends (a1 : IVec SA1 32) (n : Fin 50000) (e : Fin 1250000) (he : e ∈ ends a1 n) :
    min (K.wrapE (K.dst a1) (ix2 e 0)).toInt.toNat (50000 - 1) = n.val := by
  unfold K.wrapE
  rw [HostReads.bcast_toCol_apply]
  exact EdgeLaw.wrap_column_apply (N := 50000) (K.dst a1) _ _ (fun i => bcast_scalar_apply _ _ i)
    (fun i => bcast_scalar_apply _ _ i) (ix1 e) n (Finset.mem_filter.mp he).2

/-- The per-destination sum of edge rows, at node `n` and feature `q`. -/
theorem agg_apply (a1 : IVec SA1 32) (msg : SEC.Idx → EReal) (n : Fin 50000) (q : Fin 64) :
    K.agg a1 msg (ix2 n q) = 0 + ∑ e ∈ ends a1 n, msg (ix2 e q) := by
  unfold K.agg
  rw [show Cert.KernelIdeal.scatter_S50000x64_S1250000x1_S1250000x64_1_0_0_1
      = SegmentOps.addDims2 50000 64 1250000 Cert.KernelIdeal.Facts₀.scatter_S50000x64_S1250000x1_S1250000x64_1_0_0_1_wf from rfl,
    SegmentOps.scatterAdd2_apply, bcast_scalar_apply, constant_apply, Ideal.ofBits_zero_f32]
  rfl

/-- The per-destination count of one relation's edges. -/
theorem cnt_apply (a1 : IVec SA1 32) (a2 : IVec SE 32) (n : Fin 50000) (r : Fin 3) :
    K.cnt a1 a2 (ix2 n r) = 0 + ∑ e ∈ ends a1 n, K.onehot a2 (ix2 e r) := by
  unfold K.cnt
  rw [show Cert.KernelIdeal.scatter_S50000x3_S1250000x1_S1250000x3_1_0_0_1
      = SegmentOps.addDims2 50000 3 1250000 Cert.KernelIdeal.Facts₀.scatter_S50000x3_S1250000x1_S1250000x3_1_0_0_1_wf from rfl,
    SegmentOps.scatterAdd2_apply, bcast_scalar_apply, constant_apply, Ideal.ofBits_zero_f32]
  rfl

/-- The source position an edge's row is read at. -/
def srcAt (a1 : IVec SA1 32) (e : Fin 1250000) : Fin 50000 :=
  ⟨min (K.wrapE (K.src a1) (ix2 e 0)).toInt.toNat (50000 - 1), by omega⟩

/-- The gathered source rows at edge `e` and feature `k`. -/
theorem hsrc_apply (h : SNC.Idx → EReal) (a1 : IVec SA1 32) (e : Fin 1250000) (k : Fin 64) :
    K.hsrc h a1 (ix2 e k) = h (ix2 (srcAt a1 e) k) := by
  unfold K.hsrc
  rw [show Cert.KernelIdeal.gather_S50000x64_S1250000x1_S1250000x64_1_0_n_n_0_1_164
      = SegmentOps.rowDims2 50000 64 1250000 Cert.KernelIdeal.Facts₀.gather_S50000x64_S1250000x1_S1250000x64_1_0_n_n_0_1_164_wf from rfl,
    SegmentOps.gather2_apply (by norm_num)]
  rfl

/-- Column `r` of the indicator matrix at edge `e`. -/
theorem onehot_apply (a2 : IVec SE 32) (e : Fin 1250000) (r : Fin 3) :
    K.onehot a2 (ix2 e r) = FloatOps.uitofp (F := Ideal) .f32 (IntOp.cmpi .eq (a2 (ix1 e)) (BitVec.ofNat 32 r.val)) := by
  have h1 : broadcastInDim Cert.KernelIdeal.S1250000x3 ![0, 1] bcast_S1250000x1_S1250000x3_0_1
      (broadcastInDim Cert.KernelIdeal.S1250000x1 ![0] bcast_S1250000_S1250000x1_0 a2) (ix2 e r) = a2 (ix1 e) := by
    rw [HostReads.bcast_col_apply, HostReads.bcast_toCol_apply]
  have h2 : broadcastInDim Cert.KernelIdeal.S1250000x3 ![0, 1] bcast_S1x3_S1250000x3_0_1
      (iotaInDim Cert.KernelIdeal.S1x3 32 1) (ix2 e r) = BitVec.ofNat 32 r.val := by
    rw [HostReads.bcast_row_apply]
    rfl
  show FloatOps.uitofp (F := Ideal) .f32 (IntOp.cmpi .eq
    (broadcastInDim Cert.KernelIdeal.S1250000x3 ![0, 1] bcast_S1250000x1_S1250000x3_0_1
      (broadcastInDim Cert.KernelIdeal.S1250000x1 ![0] bcast_S1250000_S1250000x1_0 a2) (ix2 e r))
    (broadcastInDim Cert.KernelIdeal.S1250000x3 ![0, 1] bcast_S1x3_S1250000x3_0_1
      (iotaInDim Cert.KernelIdeal.S1x3 32 1) (ix2 e r))) = _
  rw [h1, h2]

/-- The indicator vector of relation word `w` at edge `e`. -/
theorem mask_apply (a2 : IVec SE 32) (w : BitVec 32) (e : Fin 1250000) :
    R.mask a2 w (ix1 e) = FloatOps.uitofp (F := Ideal) .f32 (IntOp.cmpi .eq (a2 (ix1 e)) w) := by
  have h1 : broadcastInDim Cert.ReferenceIdeal.S1250000 ![] Cert.ReferenceIdeal.Facts₀.bcast_S_S1250000
      (constantI Cert.ReferenceIdeal.S_ 32 w) (ix1 e) = w := by
    rw [bcast_scalar_apply]
    rfl
  show FloatOps.uitofp (F := Ideal) .f32 (IntOp.cmpi .eq (a2 (ix1 e))
    (broadcastInDim Cert.ReferenceIdeal.S1250000 ![] Cert.ReferenceIdeal.Facts₀.bcast_S_S1250000
      (constantI Cert.ReferenceIdeal.S_ 32 w) (ix1 e))) = _
  rw [h1]

/-- An edge's weight for relation `r`, when the edge ends at node `n`: its indicator over the node's count kept at
    least one. -/
theorem relw_apply (a1 : IVec SA1 32) (a2 : IVec SE 32) (n : Fin 50000) (e : Fin 1250000) (he : e ∈ ends a1 n) (r : Fin 3) :
    K.relw a1 a2 (ix2 e r) = Ideal.div (K.onehot a2 (ix2 e r)) (max (K.cnt a1 a2 (ix2 n r)) 1) := by
  have hg : Host.gather Cert.KernelIdeal.gather_S50000x3_S1250000x1_S1250000x3_1_0_n_n_0_1_13 (K.cnt a1 a2)
      (K.wrapE (K.dst a1)) (ix2 e r) = K.cnt a1 a2 (ix2 n r) := by
    rw [show Cert.KernelIdeal.gather_S50000x3_S1250000x1_S1250000x3_1_0_n_n_0_1_13
        = SegmentOps.rowDims2 50000 3 1250000 Cert.KernelIdeal.Facts₀.gather_S50000x3_S1250000x1_S1250000x3_1_0_n_n_0_1_13_wf from rfl,
      SegmentOps.gather2_apply (by norm_num)]
    have hfin : (⟨min (K.wrapE (K.dst a1) (ix2 e 0)).toInt.toNat (50000 - 1), by omega⟩ : Fin 50000) = n :=
      Fin.ext (wrap_dst_of_ends a1 n e he)
    rw [hfin]
  have h1 : broadcastInDim Cert.KernelIdeal.S1250000x3 ![] bcast_S_S1250000x3
      (constant (F := Ideal) Cert.KernelIdeal.S_ .f32 0x3F800000#32) (ix2 e r) = 1 := by
    rw [bcast_scalar_apply, constant_apply, ofBits_one_f32]
  unfold K.relw
  rw [hostDivf_apply, maximumf_apply, hg, h1]

end Cert.Rgcn

end
-- ==== Proof.LayerLaw.lean ====
/-
  The layer law: at every node and feature, the kernel program's layer and the reference's layer are the two sides of the
  aggregation law.

  With `P_r e = ∑ k, h (src e, k) * W_r (k, q)` the relation products of an edge, `m_r e` its relation indicators and
  `c_r = max (0 + ∑_{e → n} m_r e) 1` the counts at node `n` kept at least one:

  * the kernel program's layer at `(n, q)` is `max (base + (0 + ∑_{e → n} ((0 + P_0 e * (m_0 e / c_0)) + P_1 e * (m_1 e / c_1)) + P_2 e * (m_2 e / c_2))) 0`,
  * the reference's is `max (((base + (0 + ∑_{e → n} P_0 e * m_0 e) / c_0) + (…)/c_1) + (…)/c_2) 0`,

  with the same `base = ∑ k, h (n, k) * W_root (k, q) + b q`.
-/
import proofs.«174245_j88648124990446_1_alg».proof.Proof.LayerReads

set_option maxRecDepth 65536

noncomputable section

open scoped BigOperators

namespace Cert.Rgcn

open Idealize.ShloMosaic Idealize.ShloMosaic.ValueIdx

variable [Cert.KernelIdeal.Facts] [Cert.ReferenceIdeal.Facts]

open Cert.ReferenceIdeal.Facts₀ Cert.ReferenceIdeal.Facts

/-- Relation `r`'s product of edge `e` at feature `q`: the edge's source row times column `q` of the relation's matrix. -/
def prodAt (h : SNC.Idx → EReal) (a1 : IVec SA1 32) (wrel : SW.Idx → EReal) (q : Fin 64) (r : Fin 3) (e : Fin 1250000) : EReal :=
  ∑ k : Fin 64, h (ix2 (srcAt a1 e) k) * wrel (ix3 r k q)

/-- The number of relation-`w` edges that end at node `n`, kept at least one. -/
def cAt (a1 : IVec SA1 32) (a2 : IVec SE 32) (n : Fin 50000) (w : BitVec 32) : EReal :=
  max (0 + ∑ e ∈ ends a1 n, R.mask a2 w (ix1 e)) 1

theorem one_le_cAt (a1 : IVec SA1 32) (a2 : IVec SE 32) (n : Fin 50000) (w : BitVec 32) : 1 ≤ cAt a1 a2 n w :=
  le_max_right _ _

/-! ## The relation matrices -/

theorem wslice0_apply (wrel : SW.Idx → EReal) (k q : Fin 64) : R.wslice0 wrel (ix2 k q) = wrel (ix3 0 k q) := by
  unfold R.wslice0
  rw [shapeCast_1ab_ab_apply]
  exact extractStridedSlice_apply _ wrel _ _ (ix3 0 k q) (fun a => by
    match a with
    | ⟨0, _⟩ => rfl
    | ⟨1, _⟩ => exact (Nat.zero_add _).symm
    | ⟨2, _⟩ => exact (Nat.zero_add _).symm)

theorem wslice1_apply (wrel : SW.Idx → EReal) (k q : Fin 64) : R.wslice1 wrel (ix2 k q) = wrel (ix3 1 k q) := by
  unfold R.wslice1
  rw [shapeCast_1ab_ab_apply]
  exact extractStridedSlice_apply _ wrel _ _ (ix3 1 k q) (fun a => by
    match a with
    | ⟨0, _⟩ => rfl
    | ⟨1, _⟩ => exact (Nat.zero_add _).symm
    | ⟨2, _⟩ => exact (Nat.zero_add _).symm)

theorem wslice2_apply (wrel : SW.Idx → EReal) (k q : Fin 64) : R.wslice2 wrel (ix2 k q) = wrel (ix3 2 k q) := by
  unfold R.wslice2
  rw [shapeCast_1ab_ab_apply]
  exact extractStridedSlice_apply _ wrel _ _ (ix3 2 k q) (fun a => by
    match a with
    | ⟨0, _⟩ => rfl
    | ⟨1, _⟩ => exact (Nat.zero_add _).symm
    | ⟨2, _⟩ => exact (Nat.zero_add _).symm)

/-! ## The indicator matrix's columns are the indicator vectors -/

theorem onehot_eq_mask0 (a2 : IVec SE 32) (e : Fin 1250000) : K.onehot a2 (ix2 e 0) = R.mask a2 0#32 (ix1 e) := by
  rw [onehot_apply, mask_apply]; rfl
theorem onehot_eq_mask1 (a2 : IVec SE 32) (e : Fin 1250000) : K.onehot a2 (ix2 e 1) = R.mask a2 1#32 (ix1 e) := by
  rw [onehot_apply, mask_apply]; rfl
theorem onehot_eq_mask2 (a2 : IVec SE 32) (e : Fin 1250000) : K.onehot a2 (ix2 e 2) = R.mask a2 2#32 (ix1 e) := by
  rw [onehot_apply, mask_apply]; rfl

/-- The kernel program's count of relation 0 at a node, kept at least one, is the reference's. -/
theorem cnt_eq0 (a1 : IVec SA1 32) (a2 : IVec SE 32) (n : Fin 50000) : max (K.cnt a1 a2 (ix2 n 0)) 1 = cAt a1 a2 n 0#32 := by
  unfold cAt
  rw [cnt_apply, Finset.sum_congr rfl (fun e _ => onehot_eq_mask0 a2 e)]
theorem cnt_eq1 (a1 : IVec SA1 32) (a2 : IVec SE 32) (n : Fin 50000) : max (K.cnt a1 a2 (ix2 n 1)) 1 = cAt a1 a2 n 1#32 := by
  unfold cAt
  rw [cnt_apply, Finset.sum_congr rfl (fun e _ => onehot_eq_mask1 a2 e)]
theorem cnt_eq2 (a1 : IVec SA1 32) (a2 : IVec SE 32) (n : Fin 50000) : max (K.cnt a1 a2 (ix2 n 2)) 1 = cAt a1 a2 n 2#32 := by
  unfold cAt
  rw [cnt_apply, Finset.sum_congr rfl (fun e _ => onehot_eq_mask2 a2 e)]

/-! ## One relation's term of the reference's layer -/

theorem term_apply (h : SNC.Idx → EReal) (a1 : IVec SA1 32) (a2 : IVec SE 32) (w : SCC.Idx → EReal) (rr : BitVec 32)
    (n : Fin 50000) (q : Fin 64) :
    R.term h a1 a2 w rr (ix2 n q)
      = Ideal.div (0 + ∑ e ∈ ends a1 n, (∑ k : Fin 64, h (ix2 (srcAt a1 e) k) * w (ix2 k q)) * R.mask a2 rr (ix1 e))
          (cAt a1 a2 n rr) := by
  unfold R.term cAt
  rw [hostDivf_apply, ← agg_eq, agg_apply, HostReads.bcast_col_apply, HostReads.bcast_toCol_apply, maximumf_apply,
    bcast_scalar_apply, constant_apply, ofBits_one_f32,
    show Cert.ReferenceIdeal.scatter_S50000_S1250000x1_S1250000_n_0_0_1
      = SegmentOps.addDims1 50000 1250000 Cert.ReferenceIdeal.Facts₀.scatter_S50000_S1250000x1_S1250000_n_0_0_1_wf from rfl,
    SegmentOps.scatterAdd1_apply, bcast_scalar_apply, constant_apply, Ideal.ofBits_zero_f32]
  refine congrArg₂ Ideal.div (congrArg (fun x => 0 + x) (Finset.sum_congr rfl fun e _ => ?_))
    (congrArg (fun x => max x 1) (congrArg (fun x => 0 + x) ?_))
  · rw [mulf_apply, HostReads.bcast_col_apply, HostReads.bcast_toCol_apply,
      show Cert.ReferenceIdeal.dot_S1250000x64_S64x64_S1250000x64_1_0_0_1_n_n = DotDims.plain 1250000 64 64 from rfl,
      PlainDot.plainDot_apply]
    refine congrArg (fun x => x * R.mask a2 rr (ix1 e)) (Finset.sum_congr rfl fun k _ => ?_)
    rw [← hsrc_eq, hsrc_apply]
  · refine Finset.sum_congr ?_ fun _ _ => rfl
    unfold ends
    refine Finset.filter_congr fun e _ => ?_
    rw [← colE_eq, ← dst_eq, colE_apply]

/-! ## The two layers at an index -/

theorem kernel_layer_apply (h : SNC.Idx → EReal) (a1 : IVec SA1 32) (a2 : IVec SE 32) (wrel : SW.Idx → EReal)
    (wroot : SCC.Idx → EReal) (b : SC.Idx → EReal) (n : Fin 50000) (q : Fin 64) :
    K.layer h a1 a2 wrel wroot b (ix2 n q)
      = max (((∑ k : Fin 64, h (ix2 n k) * wroot (ix2 k q)) + b (ix1 q))
          + (0 + ∑ e ∈ ends a1 n,
              (((0 + prodAt h a1 wrel q 0 e * Ideal.div (R.mask a2 0#32 (ix1 e)) (cAt a1 a2 n 0#32))
                + prodAt h a1 wrel q 1 e * Ideal.div (R.mask a2 1#32 (ix1 e)) (cAt a1 a2 n 1#32))
                + prodAt h a1 wrel q 2 e * Ideal.div (R.mask a2 2#32 (ix1 e)) (cAt a1 a2 n 2#32)))) 0 := by
  show combAt h _ _ (K.agg a1 _) n q = _
  unfold combAt
  rw [agg_apply, shapeCast_a_1a_apply]
  refine congrArg (fun x => max x 0) (congrArg₂ (fun x y => x + y) rfl
    (congrArg (fun x => 0 + x) (Finset.sum_congr rfl fun e he => ?_)))
  show edgeAt _ _ _ e q = _
  unfold edgeAt prodAt
  rw [relw_apply a1 a2 n e he 0, relw_apply a1 a2 n e he 1, relw_apply a1 a2 n e he 2, cnt_eq0, cnt_eq1, cnt_eq2,
    onehot_eq_mask0, onehot_eq_mask1, onehot_eq_mask2]
  simp only [hsrc_apply]
  rfl

theorem ref_layer_apply (h : SNC.Idx → EReal) (a1 : IVec SA1 32) (a2 : IVec SE 32) (wrel : SW.Idx → EReal)
    (wroot : SCC.Idx → EReal) (b : SC.Idx → EReal) (n : Fin 50000) (q : Fin 64) :
    R.layer h a1 a2 wrel wroot b (ix2 n q)
      = max (((((∑ k : Fin 64, h (ix2 n k) * wroot (ix2 k q)) + b (ix1 q))
            + Ideal.div (0 + ∑ e ∈ ends a1 n, prodAt h a1 wrel q 0 e * R.mask a2 0#32 (ix1 e)) (cAt a1 a2 n 0#32))
            + Ideal.div (0 + ∑ e ∈ ends a1 n, prodAt h a1 wrel q 1 e * R.mask a2 1#32 (ix1 e)) (cAt a1 a2 n 1#32))
            + Ideal.div (0 + ∑ e ∈ ends a1 n, prodAt h a1 wrel q 2 e * R.mask a2 2#32 (ix1 e)) (cAt a1 a2 n 2#32)) 0 := by
  unfold R.layer
  rw [maximumf_apply, addf_apply, addf_apply, addf_apply, addf_apply, term_apply, term_apply, term_apply,
    bcast_scalar_apply, constant_apply, Ideal.ofBits_zero_f32, HostReads.bcast_row_apply, HostReads.bcast_toRow_apply,
    show Cert.ReferenceIdeal.dot_S50000x64_S64x64_S50000x64_1_0_0_1_n_n = DotDims.plain 50000 64 64 from rfl,
    PlainDot.plainDot_apply]
  simp only [wslice0_apply, wslice1_apply, wslice2_apply]
  rfl

/-- One layer of the kernel program is one layer of the reference, as functions of the node features. -/
theorem layer_eq (h : SNC.Idx → EReal) (a1 : IVec SA1 32) (a2 : IVec SE 32) (wrel : SW.Idx → EReal)
    (wroot : SCC.Idx → EReal) (b : SC.Idx → EReal) :
    K.layer h a1 a2 wrel wroot b = R.layer h a1 a2 wrel wroot b := by
  funext i
  obtain ⟨n, q, rfl⟩ : ∃ (n : Fin 50000) (q : Fin 64), i = ix2 n q := ⟨i 0, i 1, eq_ix2 i⟩
  rw [kernel_layer_apply, ref_layer_apply]
  refine congrArg (fun x => max x 0) ?_
  exact agg_law (ends a1 n) (prodAt h a1 wrel q 0) (prodAt h a1 wrel q 1) (prodAt h a1 wrel q 2)
    (fun e => R.mask a2 0#32 (ix1 e)) (fun e => R.mask a2 1#32 (ix1 e)) (fun e => R.mask a2 2#32 (ix1 e))
    (one_le_cAt a1 a2 n 0#32) (one_le_cAt a1 a2 n 1#32) (one_le_cAt a1 a2 n 2#32) _

end Cert.Rgcn

end
-- ==== Proof.Bridge.lean ====
/-
  The two programs' results are one function of the arguments.

  The starting features agree (the kernel program's narrowing of the embedding table to a shorter float format is the
  identity on the extended reals), each layer agrees by the layer law, and the tails agree operation for operation (the
  kernel program's widening back is the identity again).
-/
import proofs.«174245_j88648124990446_1_alg».proof.Proof.LayerLaw

set_option maxRecDepth 65536

noncomputable section

namespace Cert.Rgcn

open Idealize.ShloMosaic

variable [Cert.KernelIdeal.Facts] [Cert.ReferenceIdeal.Facts]

abbrev SN : Shape := ⟨1, ![50000]⟩
abbrev SC2 : Shape := ⟨2, ![64, 2]⟩
abbrev S2' : Shape := ⟨1, ![2]⟩

/-- Narrowing to a shorter float format is the identity on the extended reals. -/
theorem truncf_ideal {s : Shape} {φ ψ : FTy} (v : FVec Ideal s φ) (h : ψ.bits < φ.bits) :
    (truncf ψ v h : s.Idx → EReal) = v := rfl

/-- The starting features. -/
theorem emb_eq (a0 : IVec SN 32) (a4 : SNC.Idx → EReal) : K.emb a0 a4 = R.emb a0 a4 := by
  unfold K.emb R.emb
  rw [truncf_ideal]
  rfl

/-- The pooling and the final linear layer. -/
theorem tail_eq (h : SNC.Idx → EReal) (a3 : IVec SN 32) (a11 : SC2.Idx → EReal) (a12 : S2'.Idx → EReal) :
    K.tail h a3 a11 a12 = R.tail h a3 a11 a12 := rfl

/-- The kernel program's result function is the reference's. -/
theorem res_eq (a0 : IVec SN 32) (a1 : IVec SA1 32) (a2 : IVec SE 32) (a3 : IVec SN 32) (a4 : SNC.Idx → EReal)
    (a5 : SW.Idx → EReal) (a6 : SCC.Idx → EReal) (a7 : SC.Idx → EReal) (a8 : SW.Idx → EReal) (a9 : SCC.Idx → EReal)
    (a10 : SC.Idx → EReal) (a11 : SC2.Idx → EReal) (a12 : S2'.Idx → EReal) :
    K.res a0 a1 a2 a3 a4 a5 a6 a7 a8 a9 a10 a11 a12 = R.res a0 a1 a2 a3 a4 a5 a6 a7 a8 a9 a10 a11 a12 := by
  show K.tail (K.layer (K.layer (K.emb a0 a4) a1 a2 a5 a6 a7) a1 a2 a8 a9 a10) a3 a11 a12
    = R.tail (R.layer (R.layer (R.emb a0 a4) a1 a2 a5 a6 a7) a1 a2 a8 a9 a10) a3 a11 a12
  rw [tail_eq, layer_eq, layer_eq, emb_eq]

end Cert.Rgcn

end
-- ==== Proof.lean ====
/-
  The certificate of a two-layer relational graph convolution with mean pooling and a linear head: the program built from
  two pipelined kernels (an edge kernel and a node kernel, each run once per layer, among host gathers and scatter-adds)
  against the plain reference, on the extended reals.

  * The three frames: the two kernel programs' by their generated frames (four regions among seven stretches of host
    operations), the reference's by its generated run with the result dropped.
  * `preserves`: the ideal pass rewrote nothing.
  * `algebraic`: the idealized kernel program ends with its result buffer at the last segment boundary's contents
    (Proof/KernelRun.lean), which is the function `K.res` of the arguments (Proof/KernelIs.lean, over the four regions'
    closed forms); the reference ends at its composed term, the function `R.res` of the arguments (Proof/RefIs.lean);
    and `K.res = R.res` (Proof/Bridge.lean): the starts and tails agree operation for operation, and each layer by the
    aggregation law — summing at each node the edges' messages `∑_r P_r e * (m_r e / c_r)` is adding, relation by
    relation, the normalised sums `(∑_e P_r e * m_r e) / c_r`, because a quotient by `c ≥ 1` is a product with a
    nonnegative real, which distributes over a finite sum of extended reals (Proof/LayerAlgebra.lean). The
    finiteness precondition is not used.
-/
import proofs.«174245_j88648124990446_1_alg».proof.Defs
import proofs.«174245_j88648124990446_1_alg».proof.Proof.Gen.Kernel
import proofs.«174245_j88648124990446_1_alg».proof.Proof.Gen.Kernel.Frame
import proofs.«174245_j88648124990446_1_alg».proof.Proof.Gen.KernelIdeal
import proofs.«174245_j88648124990446_1_alg».proof.Proof.Gen.KernelIdeal.Frame
import proofs.«174245_j88648124990446_1_alg».proof.Proof.Gen.ReferenceIdeal
import proofs.«174245_j88648124990446_1_alg».proof.Proof.Gen.ReferenceIdeal.Run
import proofs.«174245_j88648124990446_1_alg».proof.Proof.Gen.ReferenceIdeal.Read
import proofs.«174245_j88648124990446_1_alg».proof.Proof.Gen.Pre_finite_inputs
import proofs.«174245_j88648124990446_1_alg».proof.Proof.KernelRun
import proofs.«174245_j88648124990446_1_alg».proof.Proof.KernelIs
import proofs.«174245_j88648124990446_1_alg».proof.Proof.RefIs
import proofs.«174245_j88648124990446_1_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the one function `R.res` of the (agreeing) arguments in their result buffers. -/
theorem algebraic : Cert.algebraic_KernelIdeal_ReferenceIdeal := by
  intro m ρ m' ρ' _ hagree
  refine ⟨fun c => Cert.Rgcn.R.res
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩)
      (Cert.KernelIdeal.ValueRun.run (F := Ideal) m ρ)
    rw [Cert.Rgcn.Walk.W11_v75]
    exact Cert.Rgcn.res_eq _ _ _ _ _ _ _ _ _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v179_eq, Cert.Rgcn.ref_res]
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
